-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S3072x1024 : Shape := ⟨2, ![3072, 1024]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1024x512 : Shape := ⟨3, ![1, 1024, 512]⟩
abbrev S1x1024 : Shape := ⟨2, ![1, 1024]⟩

abbrev nBuf : Space → Nat
  | .hbm => 19
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S3072x1024, .f32⟩
  | .hbm, ⟨9, _⟩ => ⟨S3072x1024, .bf16⟩
  | .hbm, ⟨10, _⟩ => ⟨S3072, .f32⟩
  | .hbm, ⟨11, _⟩ => ⟨S1x3072, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S4x4096x1024, .bf16⟩
  | .hbm, ⟨16, _⟩ => ⟨S4x4096x1024, .bf16⟩
  | .hbm, ⟨17, _⟩ => ⟨S4x4096x1024, .bf16⟩
  | .hbm, ⟨18, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x1024x1, .f32⟩
  | .local _ .vmem, ⟨19, _⟩ => ⟨S1x1024x1, .f32⟩
  | .local _ .vmem, ⟨20, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  concatenates_S1024x1024_S1024x1024_S1024x1024_S3072x1024_d0 : Shape.Concatenates [S1024x1024, S1024x1024, S1024x1024] S3072x1024 0
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x1024 : S1x1024x1.Broadcasts S1x1024x1024
  dot_S512x1024_S3072x1024_S512x3072_1_1_0_0_n_n_wf : DotDims.WF S512x1024 S3072x1024 S512x3072 [1] [1] [0] [0] [] []
  dot_S1x1024x1024_S1x512x1024_S1x1024x512_2_2_1_1_0_0_wf : DotDims.WF S1x1024x1024 S1x512x1024 S1x1024x512 [2] [2] [1] [1] [0] [0]
  dot_S1x1024x512_S1x512x1024_S1x1024x1024_2_1_1_2_0_0_wf : DotDims.WF S1x1024x512 S1x512x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1x1024x1024_S1x512x1024_S1x1024x512_2_2_1_1_0_0 : DotDims S1x1024x1024 S1x512x1024 S1x1024x512 where
  lhsContracting := [2]
  rhsContracting := [2]
  lhsNonContracting := [1]
  rhsNonContracting := [1]
  lhsBatch := [0]
  rhsBatch := [0]
  wf := dot_S1x1024x1024_S1x512x1024_S1x1024x512_2_2_1_1_0_0_wf
def dot_S1x1024x512_S1x512x1024_S1x1024x1024_2_1_1_2_0_0 : DotDims S1x1024x512 S1x512x1024 S1x1024x1024 where
  lhsContracting := [2]
  rhsContracting := [1]
  lhsNonContracting := [1]
  rhsNonContracting := [2]
  lhsBatch := [0]
  rhsBatch := [0]
  wf := dot_S1x1024x512_S1x512x1024_S1x1024x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x4096, .f32⟩
  | .hbm, ⟨20, _⟩ => ⟨S_, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.Qkv.lean ====
/-
  The projection kernel (the first of the program's two kernels) at one grid point, for any float instance.
  A point i of the 32-point grid holds rows 512·i … 512·i+511 of the flattened input X [16384,1024], the whole
  stacked weight matrix W [3072,1024] and the stacked bias row [1,3072]; the body forms X_blk · Wᵀ + bias and
  stores its three column thirds (the first scaled by 2⁻⁵) into the three output blocks.  Stated here: what each
  output block holds after the body as a function of the three input blocks, the body's triple, and the
  per-point data the pipeline's launch theorem asks for (every input block found in place, nothing carried
  between points).
-/
import proofs.«100597_j51634096833128_2_alg».proof.Proof.Gen.Kernel.Launch
import proofs.«100597_j51634096833128_2_alg».proof.Proof.Gen.Kernel.Skeleton
import proofs.«100597_j51634096833128_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Qkv
-- the contents of the core's buffers when the kernel is entered
variable (V : (c : Dev nD) → (b : Ref sig .tc) → Buf (Elt F) ((c : Thread nD τ).loc b))

/-- The block of window `w` at grid point `t`, read off the window's array as the kernel finds it. -/
def qkvBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X block is in its staging buffer at every point. -/
theorem qkvBefore0_of {c : Dev nD} (dat : Dat τ (Elt F) Unit ℕ (UR sig nD τ) ℕ cfg0 c) (hA : dat.A 0 = V c (Pipeline.arrRef spec0 0))
    (hafter : ∀ t, dat.after 0 t = qkvBlock V c 0 t) (t : Fin cfg0.N) (d) : dat.before 0 t d = qkvBlock V c 0 t :=
  (dat.before_in_eq_fetched 0 rfl (fun _ => rfl) (fun _ _ _ => rfl) (fun t => by rw [hafter]; unfold Dat.blockOf qkvBlock; rw [hA]; try rfl) t d).trans
    (by unfold Dat.fetched Dat.blockOf qkvBlock; rw [hA]; try rfl)
/-- The weight matrix, fetched once, is in its staging buffer at every point. -/
theorem qkvBefore1_of {c : Dev nD} (dat : Dat τ (Elt F) Unit ℕ (UR sig nD τ) ℕ cfg0 c) (hA : dat.A 1 = V c (Pipeline.arrRef spec0 1))
    (hafter : ∀ t, dat.after 1 t = qkvBlock V c 1 t) (t : Fin cfg0.N) (d) : dat.before 1 t d = qkvBlock V c 1 t :=
  (dat.before_in_eq_fetched 1 rfl (fun _ => rfl) (fun _ _ _ => rfl) (fun t => by rw [hafter]; unfold Dat.blockOf qkvBlock; rw [hA]; try rfl) t d).trans
    (by unfold Dat.fetched Dat.blockOf qkvBlock; rw [hA]; try rfl)
/-- So is the bias row. -/
theorem qkvBefore2_of {c : Dev nD} (dat : Dat τ (Elt F) Unit ℕ (UR sig nD τ) ℕ cfg0 c) (hA : dat.A 2 = V c (Pipeline.arrRef spec0 2))
    (hafter : ∀ t, dat.after 2 t = qkvBlock V c 2 t) (t : Fin cfg0.N) (d) : dat.before 2 t d = qkvBlock V c 2 t :=
  (dat.before_in_eq_fetched 2 rfl (fun _ => rfl) (fun _ _ _ => rfl) (fun t => by rw [hafter]; unfold Dat.blockOf qkvBlock; rw [hA]; try rfl) t d).trans
    (by unfold Dat.fetched Dat.blockOf qkvBlock; rw [hA]; try rfl)

/-- The whole-buffer rectangles the body loads and stores through. -/
abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0

/-- The query block after the body: one whole store of the scaled first third of X_blk · Wᵀ + bias. -/
def qOut (x0 : Vec F S512x1024 .f32) (x1 : Vec F S3072x1024 .bf16) (x2 : Vec F S1x3072 .f32) : Vec F S512x1024 .bf16 :=
  View.canon [⟨rX, k0_pay2 (View.ld x0 rX) (View.ld x1 rW) (View.ld x2 rB)⟩]
/-- The key block: the second third. -/
def kOut (x0 : Vec F S512x1024 .f32) (x1 : Vec F S3072x1024 .bf16) (x2 : Vec F S1x3072 .f32) : Vec F S512x1024 .bf16 :=
  View.canon [⟨rX, k0_pay3 (View.ld x0 rX) (View.ld x1 rW) (View.ld x2 rB)⟩]
/-- The value block: the last third. -/
def vOut (x0 : Vec F S512x1024 .f32) (x1 : Vec F S3072x1024 .bf16) (x2 : Vec F S1x3072 .f32) : Vec F S512x1024 .bf16 :=
  View.canon [⟨rX, k0_pay4 (View.ld x0 rX) (View.ld x1 rW) (View.ld x2 rB)⟩]

/-- One whole store covers its buffer. -/
theorem qkvCover (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 4000000 in
/-- The body on whole staging buffers: the inputs keep their contents, each output ends at its block of the result. -/
theorem qkv_triple (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qOut x0 x1 x2) ∗ owns (c : Thread nD τ) arg5 fullShare (kOut x0 x1 x2)
            ∗ owns (c : Thread nD τ) arg6 fullShare (vOut x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (qkvCover _)
  isplitl [H4]
  · iexists _; isplitr
    swap; · iexact H4
    ipureintro
    exact View.read_writes_eq_canon _ _ _ (qkvCover _)
  iexists _; isplitr
  swap; · iexact H5
  ipureintro
  exact View.read_writes_eq_canon _ _ _ (qkvCover _)

/-- The per-point data of the projection kernel on core `c`: the arrays as found; after the body every input
    block in place and every output block at its third of the result; nothing kept between points. -/
def qkvDat (c : Dev nD) : Dat τ (Elt F) Unit ℕ (UR sig nD τ) ℕ cfg0 c where
  A w := V c (Pipeline.arrRef spec0 w)
  after w t := match w with
    | ⟨0, _⟩ => qkvBlock V c 0 t
    | ⟨1, _⟩ => qkvBlock V c 1 t
    | ⟨2, _⟩ => qkvBlock V c 2 t
    | ⟨3, _⟩ => qOut (qkvBlock V c 0 t) (qkvBlock V c 1 t) (qkvBlock V c 2 t)
    | ⟨4, _⟩ => kOut (qkvBlock V c 0 t) (qkvBlock V c 1 t) (qkvBlock V c 2 t)
    | ⟨5, _⟩ => vOut (qkvBlock V c 0 t) (qkvBlock V c 1 t) (qkvBlock V c 2 t)
  Φ _ := Pipeline.ΦA spec0 c
  q _ := fullShare
  owed _ := 0

theorem qkvA_eq (c : Dev nD) (w : Fin cfg0.W) : (qkvDat V c).A w = V c (Pipeline.arrRef spec0 w) := by
  dsimp only [qkvDat]

theorem qkvAfter0 (c : Dev nD) (t : Fin cfg0.N) : (qkvDat V c).after 0 t = qkvBlock V c 0 t := by dsimp only [qkvDat]
theorem qkvAfter1 (c : Dev nD) (t : Fin cfg0.N) : (qkvDat V c).after 1 t = qkvBlock V c 1 t := by dsimp only [qkvDat]
theorem qkvAfter2 (c : Dev nD) (t : Fin cfg0.N) : (qkvDat V c).after 2 t = qkvBlock V c 2 t := by dsimp only [qkvDat]
theorem qkvAfter3 (c : Dev nD) (t : Fin cfg0.N) : (qkvDat V c).after 3 t = qOut (qkvBlock V c 0 t) (qkvBlock V c 1 t) (qkvBlock V c 2 t) := by dsimp only [qkvDat]
theorem qkvAfter4 (c : Dev nD) (t : Fin cfg0.N) : (qkvDat V c).after 4 t = kOut (qkvBlock V c 0 t) (qkvBlock V c 1 t) (qkvBlock V c 2 t) := by dsimp only [qkvDat]
theorem qkvAfter5 (c : Dev nD) (t : Fin cfg0.N) : (qkvDat V c).after 5 t = vOut (qkvBlock V c 0 t) (qkvBlock V c 1 t) (qkvBlock V c 2 t) := by dsimp only [qkvDat]

theorem qkvBefore0 (c : Dev nD) (t : Fin cfg0.N) (d) : (qkvDat V c).before 0 t d = qkvBlock V c 0 t :=
  qkvBefore0_of V (qkvDat V c) (qkvA_eq V c 0) (qkvAfter0 V c) t d
theorem qkvBefore1 (c : Dev nD) (t : Fin cfg0.N) (d) : (qkvDat V c).before 1 t d = qkvBlock V c 1 t :=
  qkvBefore1_of V (qkvDat V c) (qkvA_eq V c 1) (qkvAfter1 V c) t d
theorem qkvBefore2 (c : Dev nD) (t : Fin cfg0.N) (d) : (qkvDat V c).before 2 t d = qkvBlock V c 2 t :=
  qkvBefore2_of V (qkvDat V c) (qkvA_eq V c 2) (qkvAfter2 V c) t d

/-- What the body is called with at point `t`. -/
def qkvPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d))
    ∗ (∃ d, owns (c : Thread nD τ) (st0_3 t) fullShare ((qkvDat V c).before 3 t d))
    ∗ (∃ d, owns (c : Thread nD τ) (st0_4 t) fullShare ((qkvDat V c).before 4 t d))
    ∗ (∃ d, owns (c : Thread nD τ) (st0_5 t) fullShare ((qkvDat V c).before 5 t d)))

/-- What it returns. -/
def qkvPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t)
    ∗ owns (c : Thread nD τ) (st0_3 t) fullShare ((qkvDat V c).after 3 t)
    ∗ owns (c : Thread nD τ) (st0_4 t) fullShare ((qkvDat V c).after 4 t)
    ∗ owns (c : Thread nD τ) (st0_5 t) fullShare ((qkvDat V c).after 5 t))

set_option maxHeartbeats 2000000 in
theorem qkv_body (c : Dev nD) (t : Fin cfg0.N) :
    qkvPre V c t ⊢ wp frame (wpE (defs₀ (F := F)) Variants.none c none) Set.univ (bodyAt0 t) (fun _ => qkvPost V c t) := by
  unfold qkvPre qkvPost bodyAt0
  simp only [qkvBefore0, qkvBefore1, qkvBefore2]
  rw [show (qkvDat V c).Φ t.succ = (qkvDat V c).Φ t.castSucc from rfl,
    show (qkvDat V c).owesAt () t.succ = (qkvDat V c).owesAt () t.castSucc from rfl,
    qkvAfter0, qkvAfter1, qkvAfter2, qkvAfter3, qkvAfter4, qkvAfter5]
  iintro ⟨HΦ, Ho, ⟨%d0, H0⟩, ⟨%d1, H1⟩, ⟨%d2, H2⟩, ⟨%d3, H3⟩, ⟨%d4, H4⟩, ⟨%d5, H5⟩⟩
  iapply (qkv_triple c Set.univ _ _ _ _ _ _ _ _ _ _ _ _ _ (qkvBlock V c 0 t) (qkvBlock V c 1 t) (qkvBlock V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation for the projection kernel, at every point. -/
theorem qkv_obligation (c : Dev nD) : BodyObligation (qkvDat (F := F) V c) (defs₀ (F := F)) Variants.none () Set.univ := fun t => by
  rw [bigSep_W0, bigSep_W0]
  exact qkv_body V c t

end Qkv

end Cert.Kernel.Hand

end
-- ==== Proof.K.FlashBase.lean ====
/-
  The attention kernel (the second of the program's two kernels): what its runs at a grid point share.
  The grid is (batch 4) × (query tiles 4) × (key blocks 8), the key-block coordinate running fastest, so point t
  works on key block t mod 8 of query tile (t / 8) mod 4 of batch t / 32.  The body branches on that coordinate
  twice: at key block 0 it first resets the running maximum, the running sum and the accumulator it keeps in three
  scratch buffers; at key block 7 it finally divides the accumulator by the running sum into the output block.
  Here: the windows' blocks, the two conditions decided over the grid in closed form, where the output window is
  idle, and the kernel's invariant with the three scratch buffers split out.
-/
import proofs.«100597_j51634096833128_2_alg».proof.Proof.Gen.Kernel.Launch
import proofs.«100597_j51634096833128_2_alg».proof.Proof.Gen.Kernel.Skeleton
import proofs.«100597_j51634096833128_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off the window's array as the kernel finds it. -/
def flashBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile, fetched at key block 0 and kept for the other seven, is in its staging buffer at every point. -/
theorem flashBefore0_of {c : Dev nD} (dat : Dat τ (Elt F) Unit ℕ (UR sig nD τ) ℕ cfg1 c) (hA : dat.A 0 = V c (Pipeline.arrRef spec1 0))
    (hafter : ∀ t, dat.after 0 t = flashBlock V c 0 t) (t : Fin cfg1.N) (d) : dat.before 0 t d = flashBlock V c 0 t :=
  (dat.before_in_eq_fetched 0 rfl (fun _ => rfl) (fun _ _ _ => rfl) (fun t => by rw [hafter]; unfold Dat.blockOf flashBlock; rw [hA]; try rfl) t d).trans
    (by unfold Dat.fetched Dat.blockOf flashBlock; rw [hA]; try rfl)
/-- The key block is in its staging buffer at every point. -/
theorem flashBefore1_of {c : Dev nD} (dat : Dat τ (Elt F) Unit ℕ (UR sig nD τ) ℕ cfg1 c) (hA : dat.A 1 = V c (Pipeline.arrRef spec1 1))
    (hafter : ∀ t, dat.after 1 t = flashBlock V c 1 t) (t : Fin cfg1.N) (d) : dat.before 1 t d = flashBlock V c 1 t :=
  (dat.before_in_eq_fetched 1 rfl (fun _ => rfl) (fun _ _ _ => rfl) (fun t => by rw [hafter]; unfold Dat.blockOf flashBlock; rw [hA]; try rfl) t d).trans
    (by unfold Dat.fetched Dat.blockOf flashBlock; rw [hA]; try rfl)
/-- So is the value block. -/
theorem flashBefore2_of {c : Dev nD} (dat : Dat τ (Elt F) Unit ℕ (UR sig nD τ) ℕ cfg1 c) (hA : dat.A 2 = V c (Pipeline.arrRef spec1 2))
    (hafter : ∀ t, dat.after 2 t = flashBlock V c 2 t) (t : Fin cfg1.N) (d) : dat.before 2 t d = flashBlock V c 2 t :=
  (dat.before_in_eq_fetched 2 rfl (fun _ => rfl) (fun _ _ _ => rfl) (fun t => by rw [hafter]; unfold Dat.blockOf flashBlock; rw [hA]; try rfl) t d).trans
    (by unfold Dat.fetched Dat.blockOf flashBlock; rw [hA]; try rfl)
end

/-! ## The two conditions -/

/-- "This is key block 0" as the body computes it from the grid coordinates. -/
abbrev flashFirst (i : grid1.Coords) : Prop := (Scalar.cmpi .ne (Scalar.extui (Scalar.cmpi .eq (BitVec.ofNat 32 (i 2).val) 0#32)) 0#32) = 1#1
theorem flashFirst_iff : ∀ t : Fin cfg1.N, flashFirst (grid1.coords t) ↔ t.val % 8 = 0 :=
  (by decide +kernel : ∀ t : Fin grid1.N, flashFirst (grid1.coords t) ↔ t.val % 8 = 0)
/-- "This is key block 7". -/
abbrev flashLast (i : grid1.Coords) : Prop := k1_cond2 i = 1#1
theorem flashLast_iff : ∀ t : Fin cfg1.N, flashLast (grid1.coords t) ↔ t.val % 8 = 7 :=
  (by decide +kernel : ∀ t : Fin grid1.N, flashLast (grid1.coords t) ↔ t.val % 8 = 7)

/-! ## Where the windows are idle -/

theorem flashLive0 : ∀ t : Fin cfg1.N, cfg1.idle 0 (grid1.coords t) = false := by decide +kernel
theorem flashLive1 : ∀ t : Fin cfg1.N, cfg1.idle 1 (grid1.coords t) = false := by decide +kernel
theorem flashLive2 : ∀ t : Fin cfg1.N, cfg1.idle 2 (grid1.coords t) = false := by decide +kernel
/-- Before key block 7 nothing is stored into the output block, -/
theorem flashIdle3 : ∀ t : Fin cfg1.N, ¬flashLast (grid1.coords t) → cfg1.idle 3 (grid1.coords t) = true := by decide +kernel
/-- and the pipeline does not write it back there. -/
theorem flashNoFlush3 : ∀ t : Fin cfg1.N, ¬flashLast (grid1.coords t) → (cfg1.win 3).flush t = false := by decide +kernel
/-- At key block 7 it is stored. -/
theorem flashLive3 : ∀ t : Fin cfg1.N, flashLast (grid1.coords t) → cfg1.idle 3 (grid1.coords t) = false := by decide +kernel

/-! ## The memrefs the body is called on -/

abbrev flashVO : View sig .tc .vmem S1x1024x1024 .f32 := (Memref.whole cc1_stg3_0 : Memref sig .tc .vmem S1x1024x1024 .f32).view
abbrev fm0 (t : Fin cfg1.N) : Memref sig .tc .vmem S1x1024x1024 .bf16 := win1_0.stage (cfg1.slots t 0)
abbrev fh0 (t : Fin cfg1.N) : (fm0 t).IsWhole := hstage1_0 ((cfg1.slots t 0).cast nbuf1_0)
abbrev fm1 (t : Fin cfg1.N) : Memref sig .tc .vmem S1x512x1024 .bf16 := win1_1.stage (cfg1.slots t 1)
abbrev fh1 (t : Fin cfg1.N) : (fm1 t).IsWhole := hstage1_1 ((cfg1.slots t 1).cast nbuf1_1)
abbrev fm2 (t : Fin cfg1.N) : Memref sig .tc .vmem S1x512x1024 .bf16 := win1_2.stage (cfg1.slots t 2)
abbrev fh2 (t : Fin cfg1.N) : (fm2 t).IsWhole := hstage1_2 ((cfg1.slots t 2).cast nbuf1_2)
abbrev fm3 (t : Fin cfg1.N) : Memref sig .tc .vmem S1x1024x1024 .f32 := win1_3.stage (cfg1.slots t 3)
abbrev fh3 (t : Fin cfg1.N) : (fm3 t).IsWhole := hstage1_3 ((cfg1.slots t 3).cast nbuf1_3)
/-- The running maximum, the running sum and the accumulator: whole scratch buffers of the kernel's own. -/
abbrev scMax : Memref sig .tc .vmem S1x1024x1 .f32 := Memref.whole cc1_scratch0
abbrev scSum : Memref sig .tc .vmem S1x1024x1 .f32 := Memref.whole cc1_scratch1
abbrev scAcc : Memref sig .tc .vmem S1x1024x1024 .f32 := Memref.whole cc1_scratch2
abbrev vMax : View sig .tc .vmem S1x1024x1 .f32 := scMax.view
abbrev vSum : View sig .tc .vmem S1x1024x1 .f32 := scSum.view
abbrev vAcc : View sig .tc .vmem S1x1024x1024 .f32 := scAcc.view

/-- The other kernel's staging buffers, which this kernel never touches: each whole at some contents. -/
def flashOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The kernel's invariant before its first point, the three scratch buffers split out as memrefs owned at some contents. -/
theorem flashPhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

end Cert.Kernel.Hand

end
-- ==== Proof.K.FlashRunA.lean ====
/-
  The attention kernel's body run at key block 0 (the scratch buffers reset first; nothing stored into the output block, which is handed back as found):
  on whole staging buffers holding the query tile, the key block and the value block it runs to the end, the
  inputs kept, and each buffer it stores into ends with a list of stored pieces, found by running the body.
-/
import proofs.«100597_j51634096833128_2_alg».proof.Proof.K.FlashBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
noncomputable def flashRunA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : flashFirst i) (hc1 : ¬flashLast i)
    (x0 : Vec F S1x1024x1024 .bf16) (x1 : Vec F S1x512x1024 .bf16) (x2 : Vec F S1x512x1024 .bf16) :
    Σ' (LO : List (View.Piece (Elt F) S1x1024x1024 .f32)), Σ' (LM : List (View.Piece (Elt F) S1x1024x1 .f32)), Σ' (LL : List (View.Piece (Elt F) S1x1024x1 .f32)), { LA : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LM)
                ∗ (∃ f, arg8.view.loc (c : Thread nD τ) ↦[arg8.view.set]{fullShare} arg8.view.writes (Elt F) f LL)
                ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%dm, %fm, -, HS0⟩, ⟨%dl, %fl, -, HS1⟩, ⟨%da, %fa, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunB.lean ====
/-
  The attention kernel's body run at a key block between the first and the last (the scratch buffers hold what the block before left; nothing stored into the output block, which is handed back as found):
  on whole staging buffers holding the query tile, the key block and the value block it runs to the end, the
  inputs kept, and each buffer it stores into ends with a list of stored pieces, found by running the body.
-/
import proofs.«100597_j51634096833128_2_alg».proof.Proof.K.FlashBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
noncomputable def flashRunB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : ¬flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    Σ' (LO : List (View.Piece (Elt F) S1x1024x1024 .f32)), Σ' (LM : List (View.Piece (Elt F) S1x1024x1 .f32)), Σ' (LL : List (View.Piece (Elt F) S1x1024x1 .f32)), { LA : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LM)
                ∗ (∃ f, arg8.view.loc (c : Thread nD τ) ↦[arg8.view.set]{fullShare} arg8.view.writes (Elt F) f LL)
                ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fm, %hfm, HS0⟩, ⟨%fl, %hfl, HS1⟩, ⟨%fa, %hfa, HS2⟩, Hk⟩
    obtain rfl := harg3.eq_unread hf0; obtain rfl := harg4.eq_unread hf1; obtain rfl := harg5.eq_unread hf2; obtain rfl := harg6.eq_unread hf3; obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunC.lean ====
/-
  The attention kernel's body run at key block 7 (the scratch buffers hold what the block before left; the quotient stored into the output block):
  on whole staging buffers holding the query tile, the key block and the value block it runs to the end, the
  inputs kept, and each buffer it stores into ends with a list of stored pieces, found by running the body.
-/
import proofs.«100597_j51634096833128_2_alg».proof.Proof.K.FlashBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
noncomputable def flashRunC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    Σ' (LO : List (View.Piece (Elt F) S1x1024x1024 .f32)), Σ' (LM : List (View.Piece (Elt F) S1x1024x1 .f32)), Σ' (LL : List (View.Piece (Elt F) S1x1024x1 .f32)), { LA : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM)
                ∗ (∃ f, arg8.view.loc (c : Thread nD τ) ↦[arg8.view.set]{fullShare} arg8.view.writes (Elt F) f LL)
                ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fm, %hfm, HS0⟩, ⟨%fl, %hfl, HS1⟩, ⟨%fa, %hfa, HS2⟩, Hk⟩
    obtain rfl := harg3.eq_unread hf0; obtain rfl := harg4.eq_unread hf1; obtain rfl := harg5.eq_unread hf2; obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Flash.lean ====
/-
  The attention kernel over its whole grid, for any float instance.
  `flashAt n` is what the output block's staging buffer and the three scratch buffers (running maximum, running
  sum, accumulator) hold after the body at point n: at key block 0 the run from reset scratch, at the other key
  blocks the run from what the point before left.  The kernel's invariant carries the scratch contents from one
  point to the next; with it the body's obligation holds at every point.
-/
import proofs.«100597_j51634096833128_2_alg».proof.Proof.K.FlashRunA
import proofs.«100597_j51634096833128_2_alg».proof.Proof.K.FlashRunB
import proofs.«100597_j51634096833128_2_alg».proof.Proof.K.FlashRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The output block's staging buffer, the running maximum, the running sum and the accumulator after the body at
    point `n` (each the stored pieces of that point's run read back). -/
def flashAt (c : Dev nD) : (n : ℕ) → n < cfg1.N → Vec F S1x1024x1024 .f32 × Vec F S1x1024x1 .f32 × Vec F S1x1024x1 .f32 × Vec F S1x1024x1024 .f32
  | 0, hn =>
    have h0 : (⟨0, hn⟩ : Fin cfg1.N).val % 8 = 0 := Nat.zero_mod _
    have h1 : ¬(⟨0, hn⟩ : Fin cfg1.N).val % 8 = 7 := by simp
    (flashVO.read (Elt F) (flashVO.writes (Elt F) flashVO.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).1), vMax.read (Elt F) (vMax.writes (Elt F) vMax.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).2.1), vSum.read (Elt F) (vSum.writes (Elt F) vSum.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).2.2.1), vAcc.read (Elt F) (vAcc.writes (Elt F) vAcc.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).2.2.2.1))
  | n + 1, hn =>
    if h0 : (n + 1) % 8 = 0 then
      have h1 : ¬(n + 1) % 8 = 7 := by omega
      (flashVO.read (Elt F) (flashVO.writes (Elt F) flashVO.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).1), vMax.read (Elt F) (vMax.writes (Elt F) vMax.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).2.1), vSum.read (Elt F) (vSum.writes (Elt F) vSum.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).2.2.1), vAcc.read (Elt F) (vAcc.writes (Elt F) vAcc.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).2.2.2.1))
    else
      if h1 : (n + 1) % 8 = 7 then
        (flashVO.read (Elt F) (flashVO.writes (Elt F) flashVO.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).1), vMax.read (Elt F) (vMax.writes (Elt F) vMax.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.1), vSum.read (Elt F) (vSum.writes (Elt F) vSum.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.1), vAcc.read (Elt F) (vAcc.writes (Elt F) vAcc.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.2.1))
      else
        (flashVO.read (Elt F) (flashVO.writes (Elt F) flashVO.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).1), vMax.read (Elt F) (vMax.writes (Elt F) vMax.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.1), vSum.read (Elt F) (vSum.writes (Elt F) vSum.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.1), vAcc.read (Elt F) (vAcc.writes (Elt F) vAcc.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.2.1))

theorem flashAt_A (c : Dev nD) (t : Fin cfg1.N) (h0 : t.val % 8 = 0) (h1 : ¬t.val % 8 = 7) :
    flashAt V c t.val t.isLt = (flashVO.read (Elt F) (flashVO.writes (Elt F) flashVO.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).1), vMax.read (Elt F) (vMax.writes (Elt F) vMax.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.1), vSum.read (Elt F) (vSum.writes (Elt F) vSum.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.1), vAcc.read (Elt F) (vAcc.writes (Elt F) vAcc.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.1)) := by
  obtain ⟨n, hn⟩ := t
  cases n with
  | zero => exact rfl
  | succ n => exact (dif_pos h0).trans rfl

theorem flashAt_B (c : Dev nD) (t : Fin cfg1.N) (h0 : ¬t.val % 8 = 0) (h1 : ¬t.val % 8 = 7) :
    flashAt V c t.val t.isLt = (flashVO.read (Elt F) (flashVO.writes (Elt F) flashVO.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1), vMax.read (Elt F) (vMax.writes (Elt F) vMax.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1), vSum.read (Elt F) (vSum.writes (Elt F) vSum.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1), vAcc.read (Elt F) (vAcc.writes (Elt F) vAcc.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1)) := by
  obtain ⟨n, hn⟩ := t
  cases n with
  | zero => exact (by exfalso; (try dsimp only at h0); exact absurd (Nat.zero_mod _) h0)
  | succ n => exact (dif_neg h0).trans ((dif_neg h1).trans rfl)

theorem flashAt_C (c : Dev nD) (t : Fin cfg1.N) (h0 : ¬t.val % 8 = 0) (h1 : t.val % 8 = 7) :
    flashAt V c t.val t.isLt = (flashVO.read (Elt F) (flashVO.writes (Elt F) flashVO.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1), vMax.read (Elt F) (vMax.writes (Elt F) vMax.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1), vSum.read (Elt F) (vSum.writes (Elt F) vSum.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1), vAcc.read (Elt F) (vAcc.writes (Elt F) vAcc.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1)) := by
  obtain ⟨n, hn⟩ := t
  cases n with
  | zero => exact (by exfalso; (try dsimp only at h0); exact absurd (Nat.zero_mod _) h0)
  | succ n => exact (dif_neg h0).trans ((dif_pos h1).trans rfl)

/-! ## Every run's stored pieces cover the buffer they were stored into -/

theorem flashCoverM_A (c : Dev nD) (t : Fin cfg1.N) (h0 : t.val % 8 = 0) (h1 : ¬t.val % 8 = 7) (y : S1x1024x1.Idx) :
    ∃ pc ∈ (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.1, y ∈ pc.1.set :=
  View.cover_of_tiledL ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.1) S1x1024x1.size (by sl_kernel_rfl) y

theorem flashCoverL_A (c : Dev nD) (t : Fin cfg1.N) (h0 : t.val % 8 = 0) (h1 : ¬t.val % 8 = 7) (y : S1x1024x1.Idx) :
    ∃ pc ∈ (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.1, y ∈ pc.1.set :=
  View.cover_of_tiledL ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.1) S1x1024x1.size (by sl_kernel_rfl) y

theorem flashCoverA_A (c : Dev nD) (t : Fin cfg1.N) (h0 : t.val % 8 = 0) (h1 : ¬t.val % 8 = 7) (y : S1x1024x1024.Idx) :
    ∃ pc ∈ (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.1, y ∈ pc.1.set :=
  View.cover_of_tiledL ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.1) S1x1024x1024.size (by sl_kernel_rfl) y

theorem flashCoverM_B (c : Dev nD) (t : Fin cfg1.N) (h0 : ¬t.val % 8 = 0) (h1 : ¬t.val % 8 = 7) (y : S1x1024x1.Idx) :
    ∃ pc ∈ (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1, y ∈ pc.1.set :=
  View.cover_of_tiledL ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1) S1x1024x1.size (by sl_kernel_rfl) y

theorem flashCoverL_B (c : Dev nD) (t : Fin cfg1.N) (h0 : ¬t.val % 8 = 0) (h1 : ¬t.val % 8 = 7) (y : S1x1024x1.Idx) :
    ∃ pc ∈ (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1, y ∈ pc.1.set :=
  View.cover_of_tiledL ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1) S1x1024x1.size (by sl_kernel_rfl) y

theorem flashCoverA_B (c : Dev nD) (t : Fin cfg1.N) (h0 : ¬t.val % 8 = 0) (h1 : ¬t.val % 8 = 7) (y : S1x1024x1024.Idx) :
    ∃ pc ∈ (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1, y ∈ pc.1.set :=
  View.cover_of_tiledL ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1) S1x1024x1024.size (by sl_kernel_rfl) y

theorem flashCoverM_C (c : Dev nD) (t : Fin cfg1.N) (h0 : ¬t.val % 8 = 0) (h1 : t.val % 8 = 7) (y : S1x1024x1.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1) S1x1024x1.size (by sl_kernel_rfl) y

theorem flashCoverL_C (c : Dev nD) (t : Fin cfg1.N) (h0 : ¬t.val % 8 = 0) (h1 : t.val % 8 = 7) (y : S1x1024x1.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1) S1x1024x1.size (by sl_kernel_rfl) y

theorem flashCoverA_C (c : Dev nD) (t : Fin cfg1.N) (h0 : ¬t.val % 8 = 0) (h1 : t.val % 8 = 7) (y : S1x1024x1024.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1) S1x1024x1024.size (by sl_kernel_rfl) y

theorem flashCoverO_C (c : Dev nD) (t : Fin cfg1.N) (h0 : ¬t.val % 8 = 0) (h1 : t.val % 8 = 7) (y : S1x1024x1024.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1) S1x1024x1024.size (by sl_kernel_rfl) y

/-! ## The invariant -/

/-- Before point `n`: before the first point whatever the launch hands the kernel; afterwards the three scratch
    buffers at what point n-1 left in them, the other kernel's staging buffers and the generator register at anything. -/
def flashPhi (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) scMax fullShare (flashAt V c n hn).2.1 ∗ owns (c : Thread nD τ) scSum fullShare (flashAt V c n hn).2.2.1 ∗ owns (c : Thread nD τ) scAcc fullShare (flashAt V c n hn).2.2.2) ∗ (∃ r, prngReg c r))

theorem flashPhi_zero (c : Dev nD) (n : ℕ) (h : n ≤ cfg1.N) (hz : n = 0) : flashPhi V c n h = Pipeline.ΦA spec1 c := by
  subst hz; rfl

theorem flashPhi_succ (c : Dev nD) (n : ℕ) (hn : n < cfg1.N) :
    flashPhi V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) scMax fullShare (flashAt V c n hn).2.1 ∗ owns (c : Thread nD τ) scSum fullShare (flashAt V c n hn).2.2.1 ∗ owns (c : Thread nD τ) scAcc fullShare (flashAt V c n hn).2.2.2) ∗ (∃ r, prngReg c r)) := rfl

theorem flashPhi_pos (c : Dev nD) (n : ℕ) (h : n ≤ cfg1.N) (hz : n ≠ 0) :
    flashPhi V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) scMax fullShare (flashAt V c (n - 1) (by omega)).2.1 ∗ owns (c : Thread nD τ) scSum fullShare (flashAt V c (n - 1) (by omega)).2.2.1 ∗ owns (c : Thread nD τ) scAcc fullShare (flashAt V c (n - 1) (by omega)).2.2.2) ∗ (∃ r, prngReg c r)) := by
  cases n with
  | zero => exact absurd rfl hz
  | succ n => rfl

/-! ## The per-point data -/

def flashDat (c : Dev nD) : Dat τ (Elt F) Unit ℕ (UR sig nD τ) ℕ cfg1 c where
  A w := V c (Pipeline.arrRef spec1 w)
  after w t := match w with
    | ⟨0, _⟩ => flashBlock V c 0 t
    | ⟨1, _⟩ => flashBlock V c 1 t
    | ⟨2, _⟩ => flashBlock V c 2 t
    | ⟨3, _⟩ => (flashAt V c t.val t.isLt).1
  Φ t := flashPhi V c t.val (Nat.le_of_lt_succ t.isLt)
  q _ := fullShare
  owed _ := 0

theorem flashA_eq (c : Dev nD) (w : Fin cfg1.W) : (flashDat V c).A w = V c (Pipeline.arrRef spec1 w) := by
  dsimp only [flashDat]

theorem flashPhi_castSucc (c : Dev nD) (t : Fin cfg1.N) :
    (flashDat V c).Φ t.castSucc = flashPhi V c t.val (Nat.le_of_lt t.isLt) := by
  dsimp only [flashDat]; simp only [Fin.coe_castSucc]

theorem flashAfter0 (c : Dev nD) (t : Fin cfg1.N) : (flashDat V c).after 0 t = flashBlock V c 0 t := by dsimp only [flashDat]
theorem flashAfter1 (c : Dev nD) (t : Fin cfg1.N) : (flashDat V c).after 1 t = flashBlock V c 1 t := by dsimp only [flashDat]
theorem flashAfter2 (c : Dev nD) (t : Fin cfg1.N) : (flashDat V c).after 2 t = flashBlock V c 2 t := by dsimp only [flashDat]
theorem flashAfter3 (c : Dev nD) (t : Fin cfg1.N) : (flashDat V c).after 3 t = (flashAt V c t.val t.isLt).1 := by dsimp only [flashDat]

theorem flashBefore0 (c : Dev nD) (t : Fin cfg1.N) (d) : (flashDat V c).before 0 t d = flashBlock V c 0 t :=
  flashBefore0_of V (flashDat V c) (flashA_eq V c 0) (flashAfter0 V c) t d
theorem flashBefore1 (c : Dev nD) (t : Fin cfg1.N) (d) : (flashDat V c).before 1 t d = flashBlock V c 1 t :=
  flashBefore1_of V (flashDat V c) (flashA_eq V c 1) (flashAfter1 V c) t d
theorem flashBefore2 (c : Dev nD) (t : Fin cfg1.N) (d) : (flashDat V c).before 2 t d = flashBlock V c 2 t :=
  flashBefore2_of V (flashDat V c) (flashA_eq V c 2) (flashAfter2 V c) t d

/-! ## The body's obligation -/

def flashPre (c : Dev nD) (t : Fin cfg1.N) : sProp 𝕄 :=
  iprop((flashDat V c).Φ t.castSucc ∗ (flashDat V c).owesAt () t.castSucc
    ∗ (∃ d, owns (c : Thread nD τ) (fm0 t) fullShare ((flashDat V c).before 0 t d))
    ∗ (∃ d, owns (c : Thread nD τ) (fm1 t) fullShare ((flashDat V c).before 1 t d))
    ∗ (∃ d, owns (c : Thread nD τ) (fm2 t) fullShare ((flashDat V c).before 2 t d))
    ∗ (∃ d, owns (c : Thread nD τ) (fm3 t) fullShare ((flashDat V c).before 3 t d)))

def flashPost (c : Dev nD) (t : Fin cfg1.N) : sProp 𝕄 :=
  iprop((flashDat V c).Φ t.succ ∗ (flashDat V c).owesAt () t.succ
    ∗ (flashDat V c).leavesExact 0 t
    ∗ (flashDat V c).leavesExact 1 t
    ∗ (flashDat V c).leavesExact 2 t
    ∗ (flashDat V c).leavesExact 3 t)

set_option maxHeartbeats 8000000 in
theorem flash_body (c : Dev nD) (t : Fin cfg1.N) :
    flashPre V c t ⊢ wp frame (wpE (defs₀ (F := F)) Variants.none c none) Set.univ (bodyAt1 t) (fun _ => flashPost V c t) := by
  unfold flashPre flashPost bodyAt1
  simp only [flashBefore0, flashBefore1, flashBefore2]
  rw [show (flashDat V c).owesAt () t.succ = (flashDat V c).owesAt () t.castSucc from rfl]
  rw [show (flashDat V c).Φ t.succ = flashPhi V c (t.val + 1) t.isLt from rfl, flashPhi_succ]
  have hN : t.val < 128 := lt_of_lt_of_eq t.isLt (show cfg1.N = 128 from N_1)
  rw [show (flashDat V c).leavesExact 0 t = owns (c : Thread nD τ) (fm0 t) fullShare ((flashDat V c).after 0 t) from by
    unfold Dat.leavesExact; rw [flashLive0 t], flashAfter0]
  rw [show (flashDat V c).leavesExact 1 t = owns (c : Thread nD τ) (fm1 t) fullShare ((flashDat V c).after 1 t) from by
    unfold Dat.leavesExact; rw [flashLive1 t], flashAfter1]
  rw [show (flashDat V c).leavesExact 2 t = owns (c : Thread nD τ) (fm2 t) fullShare ((flashDat V c).after 2 t) from by
    unfold Dat.leavesExact; rw [flashLive2 t], flashAfter2]
  by_cases h0 : t.val % 8 = 0
  · have h1 : ¬t.val % 8 = 7 := by omega
    rw [Dat.leavesExact_idle (flashDat V c) 3 t (flashIdle3 t (fun h => h1 ((flashLast_iff t).mp h))) (flashNoFlush3 t (fun h => h1 ((flashLast_iff t).mp h)))]
    rw [flashAt_A V c t h0 h1]
    (try dsimp only)
    by_cases hz : t.val = 0
    · rw [flashPhi_castSucc V c t, flashPhi_zero V c _ _ hz, flashPhiA_eq]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_A V c t h0 h1)
            isplitl [HS1]
            · unfold owns; iexists _; isplitr
              swap; · iexact HS1
              ipureintro; exact View.read_writes_of_cover _ _ _ _ _ (flashCoverL_A V c t h0 h1)
            unfold owns; iexists _; isplitr
            swap; · iexact HS2
            ipureintro; exact View.read_writes_of_cover _ _ _ _ _ (flashCoverA_A V c t h0 h1)
          iexact Hg
        isplitl [Ho]; · iexact Ho
        isplitl [H0]; · iexact H0
        isplitl [H1]; · iexact H1
        isplitl [H2]; · iexact H2
        iexists _; iexact H3)
    · rw [flashPhi_castSucc V c t, flashPhi_pos V c _ _ hz]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_A V c t h0 h1)
            isplitl [HS1]
            · unfold owns; iexists _; isplitr
              swap; · iexact HS1
              ipureintro; exact View.read_writes_of_cover _ _ _ _ _ (flashCoverL_A V c t h0 h1)
            unfold owns; iexists _; isplitr
            swap; · iexact HS2
            ipureintro; exact View.read_writes_of_cover _ _ _ _ _ (flashCoverA_A V c t h0 h1)
          iexact Hg
        isplitl [Ho]; · iexact Ho
        isplitl [H0]; · iexact H0
        isplitl [H1]; · iexact H1
        isplitl [H2]; · iexact H2
        iexists _; iexact H3)
  · by_cases h1 : t.val % 8 = 7
    · rw [show (flashDat V c).leavesExact 3 t = owns (c : Thread nD τ) (fm3 t) fullShare ((flashDat V c).after 3 t) from by
        unfold Dat.leavesExact; rw [flashLive3 t ((flashLast_iff t).mpr h1)], flashAfter3]
      rw [flashAt_C V c t h0 h1]
      (try dsimp only)
      have hz : t.val ≠ 0 := by omega
      rw [flashPhi_castSucc V c t, flashPhi_pos V c _ _ hz]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_C V c t h0 h1)
            isplitl [HS1]
            · unfold owns; iexists _; isplitr
              swap; · iexact HS1
              ipureintro; exact View.read_writes_of_cover _ _ _ _ _ (flashCoverL_C V c t h0 h1)
            unfold owns; iexists _; isplitr
            swap; · iexact HS2
            ipureintro; exact View.read_writes_of_cover _ _ _ _ _ (flashCoverA_C V c t h0 h1)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (flashCoverO_C V c t h0 h1))
    · rw [Dat.leavesExact_idle (flashDat V c) 3 t (flashIdle3 t (fun h => h1 ((flashLast_iff t).mp h))) (flashNoFlush3 t (fun h => h1 ((flashLast_iff t).mp h)))]
      rw [flashAt_B V c t h0 h1]
      (try dsimp only)
      have hz : t.val ≠ 0 := by omega
      rw [flashPhi_castSucc V c t, flashPhi_pos V c _ _ hz]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_B V c t h0 h1)
            isplitl [HS1]
            · unfold owns; iexists _; isplitr
              swap; · iexact HS1
              ipureintro; exact View.read_writes_of_cover _ _ _ _ _ (flashCoverL_B V c t h0 h1)
            unfold owns; iexists _; isplitr
            swap; · iexact HS2
            ipureintro; exact View.read_writes_of_cover _ _ _ _ _ (flashCoverA_B V c t h0 h1)
          iexact Hg
        isplitl [Ho]; · iexact Ho
        isplitl [H0]; · iexact H0
        isplitl [H1]; · iexact H1
        isplitl [H2]; · iexact H2
        iexists _; iexact H3)

theorem flash_obligation (c : Dev nD) : BodyObligation (flashDat (F := F) V c) (defs₀ (F := F)) Variants.none () Set.univ := fun t => by
  rw [bigSep_W1, bigSep_W1]
  exact flash_body V c t

/-- What the launch hands the kernel is the invariant before the first point. -/
theorem flash_in (c : Dev nD) : Pipeline.ΦA spec1 c ⊢ (flashDat V c).Φ 0 := by
  rw [show (flashDat V c).Φ 0 = flashPhi V c 0 (Nat.zero_le _) from rfl, flashPhi_zero V c 0 _ rfl]
  try exact Idealize.SL.BI.Entails.refl _

/-- After the last point the invariant gives the launch's form back: the scratch contents are forgotten. -/
theorem flash_out (c : Dev nD) : (flashDat V c).Φ (Fin.last cfg1.N) ⊢ Pipeline.ΦA spec1 c := by
  have ht : (Fin.last cfg1.N).val ≠ 0 := by rw [Fin.val_last]; have : cfg1.N = 128 := N_1; omega
  rw [show (flashDat V c).Φ (Fin.last cfg1.N) = flashPhi V c (Fin.last cfg1.N).val (Nat.le_of_lt_succ (Fin.last cfg1.N).isLt) from rfl, flashPhi_pos V c _ _ ht, flashPhiA_eq]
  iintro ⟨⟨A1, A2, A3, A4, A5, A6, A7, A8, A9, A10, HS0, HS1, HS2⟩, Hg⟩
  isplitl [A1 A2 A3 A4 A5 A6 A7 A8 A9 A10 HS0 HS1 HS2]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [HS0]; · iexists _; iexact HS0
    isplitl [HS1]; · iexists _; iexact HS1
    iexists _; iexact HS2
  iexact Hg

end

end Cert.Kernel.Hand

end
-- ==== Proof.K.Run.lean ====
/-
  The whole program, for any float instance: the host operations that flatten X and stack the weights and biases,
  the projection kernel, the three reshapes back to [4,4096,1024], the attention kernel.  The buffers' contents at
  each boundary are a fold from the launch memory (a host stretch applies its operations; a kernel leaves its
  windows' arrays at what its write-backs folded and every other buffer as entered).  Every weakly fair execution
  terminates with every unscoped buffer at the last boundary's contents: hence the arguments unchanged, and the
  result array at what the attention kernel's write-backs leave.
-/
import proofs.«100597_j51634096833128_2_alg».proof.Proof.K.Qkv
import proofs.«100597_j51634096833128_2_alg».proof.Proof.K.Flash
import proofs.«100597_j51634096833128_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch: the projection kernel's entry. -/
abbrev W1 : Dev nD → Valuation τ sig (Elt F) := fun c => StableHlo.after hostOps0 (W0 m c)
abbrev atQkv : (c : Dev nD) → (b : Ref sig .tc) → Buf (Elt F) ((c : Thread nD τ).loc b) := fun c b => W1 m c b
/-- After the projection kernel. -/
def W2 (c : Dev nD) : Valuation τ sig (Elt F) :=
  Pipeline.withArrays spec0 c (W1 m c) fun w => (qkvDat (atQkv m) c).arrAt w cfg0.N
theorem W2_arr (c : Dev nD) (w : Fin cfg0.W) :
    W2 m c (Proc.devRef .tc (Pipeline.arrRef spec0 w)) = (qkvDat (atQkv m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev atMid : (c : Dev nD) → (b : Ref sig .tc) → Buf (Elt F) ((c : Thread nD τ).loc b) := fun c b => W2 m c b
theorem hF0 (c : Dev nD) (w : Fin cfg0.W) : (qkvDat (atQkv m) c).arrAt w cfg0.N = atMid m c (Pipeline.arrRef spec0 w) :=
  (W2_arr m c w).symm
theorem hrest0 (c : Dev nD) : ∀ b, b ∉ Finset.univ.image (Pipeline.arrRef spec0) → atMid m c b = atQkv m c b :=
  fun b hb => W2_of_ne m c b fun w e => hb (Finset.mem_image.mpr ⟨w, Finset.mem_univ _, e⟩)
/-- After the second host stretch: the attention kernel's entry. -/
abbrev W3 : Dev nD → Valuation τ sig (Elt F) := fun c => StableHlo.after hostOps1 (W2 m c)
abbrev atFlash : (c : Dev nD) → (b : Ref sig .tc) → Buf (Elt F) ((c : Thread nD τ).loc b) := fun c b => W3 m c b
/-- After the attention kernel: the end. -/
def W4 (c : Dev nD) : Valuation τ sig (Elt F) :=
  Pipeline.withArrays spec1 c (W3 m c) fun w => (flashDat (atFlash m) c).arrAt w cfg1.N
theorem W4_arr (c : Dev nD) (w : Fin cfg1.W) :
    W4 m c (Proc.devRef .tc (Pipeline.arrRef spec1 w)) = (flashDat (atFlash m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev atEnd : (c : Dev nD) → (b : Ref sig .tc) → Buf (Elt F) ((c : Thread nD τ).loc b) := fun c b => W4 m c b
theorem hF1 (c : Dev nD) (w : Fin cfg1.W) : (flashDat (atFlash m) c).arrAt w cfg1.N = atEnd m c (Pipeline.arrRef spec1 w) :=
  (W4_arr m c w).symm
theorem hrest1 (c : Dev nD) : ∀ b, b ∉ Finset.univ.image (Pipeline.arrRef spec1) → atEnd m c b = atFlash m c b :=
  fun b hb => W4_of_ne m c b fun w e => hb (Finset.mem_image.mpr ⟨w, Finset.mem_univ _, e⟩)

/-! ## No step writes an argument -/

theorem end_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 (W2 m c) hostOps1_writes (r := main_arg0) (by decide)
    _ = W1 m c (Proc.devRef .tc main_arg0) := W2_of_ne m c main_arg0 (by decide)
    _ = W0 m c (Proc.devRef .tc main_arg0) := StableHlo.after_of_writes_sub hostOps0 (W0 m c) hostOps0_writes (r := main_arg0) (by decide)
    _ = m ((c : Thread nD τ).loc main_arg0) := rfl

theorem end_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 (W2 m c) hostOps1_writes (r := main_arg1) (by decide)
    _ = W1 m c (Proc.devRef .tc main_arg1) := W2_of_ne m c main_arg1 (by decide)
    _ = W0 m c (Proc.devRef .tc main_arg1) := StableHlo.after_of_writes_sub hostOps0 (W0 m c) hostOps0_writes (r := main_arg1) (by decide)
    _ = m ((c : Thread nD τ).loc main_arg1) := rfl

theorem end_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 (W2 m c) hostOps1_writes (r := main_arg2) (by decide)
    _ = W1 m c (Proc.devRef .tc main_arg2) := W2_of_ne m c main_arg2 (by decide)
    _ = W0 m c (Proc.devRef .tc main_arg2) := StableHlo.after_of_writes_sub hostOps0 (W0 m c) hostOps0_writes (r := main_arg2) (by decide)
    _ = m ((c : Thread nD τ).loc main_arg2) := rfl

theorem end_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 (W2 m c) hostOps1_writes (r := main_arg3) (by decide)
    _ = W1 m c (Proc.devRef .tc main_arg3) := W2_of_ne m c main_arg3 (by decide)
    _ = W0 m c (Proc.devRef .tc main_arg3) := StableHlo.after_of_writes_sub hostOps0 (W0 m c) hostOps0_writes (r := main_arg3) (by decide)
    _ = m ((c : Thread nD τ).loc main_arg3) := rfl

theorem end_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 (W2 m c) hostOps1_writes (r := main_arg4) (by decide)
    _ = W1 m c (Proc.devRef .tc main_arg4) := W2_of_ne m c main_arg4 (by decide)
    _ = W0 m c (Proc.devRef .tc main_arg4) := StableHlo.after_of_writes_sub hostOps0 (W0 m c) hostOps0_writes (r := main_arg4) (by decide)
    _ = m ((c : Thread nD τ).loc main_arg4) := rfl

theorem end_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 (W2 m c) hostOps1_writes (r := main_arg5) (by decide)
    _ = W1 m c (Proc.devRef .tc main_arg5) := W2_of_ne m c main_arg5 (by decide)
    _ = W0 m c (Proc.devRef .tc main_arg5) := StableHlo.after_of_writes_sub hostOps0 (W0 m c) hostOps0_writes (r := main_arg5) (by decide)
    _ = m ((c : Thread nD τ).loc main_arg5) := rfl

theorem end_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 (W2 m c) hostOps1_writes (r := main_arg6) (by decide)
    _ = W1 m c (Proc.devRef .tc main_arg6) := W2_of_ne m c main_arg6 (by decide)
    _ = W0 m c (Proc.devRef .tc main_arg6) := StableHlo.after_of_writes_sub hostOps0 (W0 m c) hostOps0_writes (r := main_arg6) (by decide)
    _ = m ((c : Thread nD τ).loc main_arg6) := rfl

/-- The result array ends at what the attention kernel's write-backs leave. -/
theorem end_main_v9 (c : Dev nD) : W4 m c (Proc.devRef .tc main_v9) = (flashDat (atFlash m) c).arrAt 3 cfg1.N :=
  W4_arr m c 3

/-! ## The kernels as segments of the program -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => qkvDat (atQkv m) c
  | ⟨1, _⟩ => fun c => flashDat (atFlash m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qkv_obligation (atQkv m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atQkv m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atQkv m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atQkv m c) (atMid m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (flash_obligation (atFlash m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atFlash m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atFlash m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m 1 c).Φ 0 from flash_in (atFlash m) c)
    unfold Pipeline.ΦA
    isplitl [Hr]; · iexact Hr
    iexact Hp
  hout c := by
    rw [Pipeline.ownSems0_none]
    have hO : (pdats m 1 c).Φ (Fin.last _) ⊢ (Pipeline.ΦA spec1 c : sProp 𝕄) := flash_out (atFlash m) c
    unfold Pipeline.ΦA at hO
    iintro HΦ
    ihave H := hO $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atFlash m c) (atEnd m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution terminates, nothing faulting, with every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c),
     (h c _ (mem_uc main_arg6 (by decide))).trans (end_main_arg6 m c)⟩) (run_all m ρ)

/-- The run with the result named: the result array ends at what the attention kernel's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = (flashDat (atFlash m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9 (by decide))).trans (end_main_v9 m c),
     (h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c),
     (h c _ (mem_uc main_arg6 (by decide))).trans (end_main_arg6 m c)⟩) (run_all m ρ)

end Cert.Kernel.Hand

end
-- ==== Proof.KI.Qkv.lean ====
/-
  The projection kernel (the first of the program's two kernels) at one grid point, for any float instance.
  A point i of the 32-point grid holds rows 512·i … 512·i+511 of the flattened input X [16384,1024], the whole
  stacked weight matrix W [3072,1024] and the stacked bias row [1,3072]; the body forms X_blk · Wᵀ + bias and
  stores its three column thirds (the first scaled by 2⁻⁵) into the three output blocks.  Stated here: what each
  output block holds after the body as a function of the three input blocks, the body's triple, and the
  per-point data the pipeline's launch theorem asks for (every input block found in place, nothing carried
  between points).
-/
import proofs.«100597_j51634096833128_2_alg».proof.Proof.Gen.KernelIdeal.Launch
import proofs.«100597_j51634096833128_2_alg».proof.Proof.Gen.KernelIdeal.Skeleton
import proofs.«100597_j51634096833128_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Qkv
-- the contents of the core's buffers when the kernel is entered
variable (V : (c : Dev nD) → (b : Ref sig .tc) → Buf (Elt F) ((c : Thread nD τ).loc b))

/-- The block of window `w` at grid point `t`, read off the window's array as the kernel finds it. -/
def qkvBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X block is in its staging buffer at every point. -/
theorem qkvBefore0_of {c : Dev nD} (dat : Dat τ (Elt F) Unit ℕ (UR sig nD τ) ℕ cfg0 c) (hA : dat.A 0 = V c (Pipeline.arrRef spec0 0))
    (hafter : ∀ t, dat.after 0 t = qkvBlock V c 0 t) (t : Fin cfg0.N) (d) : dat.before 0 t d = qkvBlock V c 0 t :=
  (dat.before_in_eq_fetched 0 rfl (fun _ => rfl) (fun _ _ _ => rfl) (fun t => by rw [hafter]; unfold Dat.blockOf qkvBlock; rw [hA]; try rfl) t d).trans
    (by unfold Dat.fetched Dat.blockOf qkvBlock; rw [hA]; try rfl)
/-- The weight matrix, fetched once, is in its staging buffer at every point. -/
theorem qkvBefore1_of {c : Dev nD} (dat : Dat τ (Elt F) Unit ℕ (UR sig nD τ) ℕ cfg0 c) (hA : dat.A 1 = V c (Pipeline.arrRef spec0 1))
    (hafter : ∀ t, dat.after 1 t = qkvBlock V c 1 t) (t : Fin cfg0.N) (d) : dat.before 1 t d = qkvBlock V c 1 t :=
  (dat.before_in_eq_fetched 1 rfl (fun _ => rfl) (fun _ _ _ => rfl) (fun t => by rw [hafter]; unfold Dat.blockOf qkvBlock; rw [hA]; try rfl) t d).trans
    (by unfold Dat.fetched Dat.blockOf qkvBlock; rw [hA]; try rfl)
/-- So is the bias row. -/
theorem qkvBefore2_of {c : Dev nD} (dat : Dat τ (Elt F) Unit ℕ (UR sig nD τ) ℕ cfg0 c) (hA : dat.A 2 = V c (Pipeline.arrRef spec0 2))
    (hafter : ∀ t, dat.after 2 t = qkvBlock V c 2 t) (t : Fin cfg0.N) (d) : dat.before 2 t d = qkvBlock V c 2 t :=
  (dat.before_in_eq_fetched 2 rfl (fun _ => rfl) (fun _ _ _ => rfl) (fun t => by rw [hafter]; unfold Dat.blockOf qkvBlock; rw [hA]; try rfl) t d).trans
    (by unfold Dat.fetched Dat.blockOf qkvBlock; rw [hA]; try rfl)

/-- The whole-buffer rectangles the body loads and stores through. -/
abbrev rX : Rect S512x1024 := Rect.unit (s := S512x1024) ![0, 0] S512x1024.size inb_S512x1024_S512x1024_0_0
abbrev rW : Rect S3072x1024 := Rect.unit (s := S3072x1024) ![0, 0] S3072x1024.size inb_S3072x1024_S3072x1024_0_0
abbrev rB : Rect S1x3072 := Rect.unit (s := S1x3072) ![0, 0] S1x3072.size inb_S1x3072_S1x3072_0_0

/-- The query block after the body: one whole store of the scaled first third of X_blk · Wᵀ + bias. -/
def qOut (x0 : Vec F S512x1024 .f32) (x1 : Vec F S3072x1024 .bf16) (x2 : Vec F S1x3072 .f32) : Vec F S512x1024 .bf16 :=
  View.canon [⟨rX, k0_pay2 (View.ld x0 rX) (View.ld x1 rW) (View.ld x2 rB)⟩]
/-- The key block: the second third. -/
def kOut (x0 : Vec F S512x1024 .f32) (x1 : Vec F S3072x1024 .bf16) (x2 : Vec F S1x3072 .f32) : Vec F S512x1024 .bf16 :=
  View.canon [⟨rX, k0_pay3 (View.ld x0 rX) (View.ld x1 rW) (View.ld x2 rB)⟩]
/-- The value block: the last third. -/
def vOut (x0 : Vec F S512x1024 .f32) (x1 : Vec F S3072x1024 .bf16) (x2 : Vec F S1x3072 .f32) : Vec F S512x1024 .bf16 :=
  View.canon [⟨rX, k0_pay4 (View.ld x0 rX) (View.ld x1 rW) (View.ld x2 rB)⟩]

/-- One whole store covers its buffer. -/
theorem qkvCover (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 4000000 in
/-- The body on whole staging buffers: the inputs keep their contents, each output ends at its block of the result. -/
theorem qkv_triple (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qOut x0 x1 x2) ∗ owns (c : Thread nD τ) arg5 fullShare (kOut x0 x1 x2)
            ∗ owns (c : Thread nD τ) arg6 fullShare (vOut x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (qkvCover _)
  isplitl [H4]
  · iexists _; isplitr
    swap; · iexact H4
    ipureintro
    exact View.read_writes_eq_canon _ _ _ (qkvCover _)
  iexists _; isplitr
  swap; · iexact H5
  ipureintro
  exact View.read_writes_eq_canon _ _ _ (qkvCover _)

/-- The per-point data of the projection kernel on core `c`: the arrays as found; after the body every input
    block in place and every output block at its third of the result; nothing kept between points. -/
def qkvDat (c : Dev nD) : Dat τ (Elt F) Unit ℕ (UR sig nD τ) ℕ cfg0 c where
  A w := V c (Pipeline.arrRef spec0 w)
  after w t := match w with
    | ⟨0, _⟩ => qkvBlock V c 0 t
    | ⟨1, _⟩ => qkvBlock V c 1 t
    | ⟨2, _⟩ => qkvBlock V c 2 t
    | ⟨3, _⟩ => qOut (qkvBlock V c 0 t) (qkvBlock V c 1 t) (qkvBlock V c 2 t)
    | ⟨4, _⟩ => kOut (qkvBlock V c 0 t) (qkvBlock V c 1 t) (qkvBlock V c 2 t)
    | ⟨5, _⟩ => vOut (qkvBlock V c 0 t) (qkvBlock V c 1 t) (qkvBlock V c 2 t)
  Φ _ := Pipeline.ΦA spec0 c
  q _ := fullShare
  owed _ := 0

theorem qkvA_eq (c : Dev nD) (w : Fin cfg0.W) : (qkvDat V c).A w = V c (Pipeline.arrRef spec0 w) := by
  dsimp only [qkvDat]

theorem qkvAfter0 (c : Dev nD) (t : Fin cfg0.N) : (qkvDat V c).after 0 t = qkvBlock V c 0 t := by dsimp only [qkvDat]
theorem qkvAfter1 (c : Dev nD) (t : Fin cfg0.N) : (qkvDat V c).after 1 t = qkvBlock V c 1 t := by dsimp only [qkvDat]
theorem qkvAfter2 (c : Dev nD) (t : Fin cfg0.N) : (qkvDat V c).after 2 t = qkvBlock V c 2 t := by dsimp only [qkvDat]
theorem qkvAfter3 (c : Dev nD) (t : Fin cfg0.N) : (qkvDat V c).after 3 t = qOut (qkvBlock V c 0 t) (qkvBlock V c 1 t) (qkvBlock V c 2 t) := by dsimp only [qkvDat]
theorem qkvAfter4 (c : Dev nD) (t : Fin cfg0.N) : (qkvDat V c).after 4 t = kOut (qkvBlock V c 0 t) (qkvBlock V c 1 t) (qkvBlock V c 2 t) := by dsimp only [qkvDat]
theorem qkvAfter5 (c : Dev nD) (t : Fin cfg0.N) : (qkvDat V c).after 5 t = vOut (qkvBlock V c 0 t) (qkvBlock V c 1 t) (qkvBlock V c 2 t) := by dsimp only [qkvDat]

theorem qkvBefore0 (c : Dev nD) (t : Fin cfg0.N) (d) : (qkvDat V c).before 0 t d = qkvBlock V c 0 t :=
  qkvBefore0_of V (qkvDat V c) (qkvA_eq V c 0) (qkvAfter0 V c) t d
theorem qkvBefore1 (c : Dev nD) (t : Fin cfg0.N) (d) : (qkvDat V c).before 1 t d = qkvBlock V c 1 t :=
  qkvBefore1_of V (qkvDat V c) (qkvA_eq V c 1) (qkvAfter1 V c) t d
theorem qkvBefore2 (c : Dev nD) (t : Fin cfg0.N) (d) : (qkvDat V c).before 2 t d = qkvBlock V c 2 t :=
  qkvBefore2_of V (qkvDat V c) (qkvA_eq V c 2) (qkvAfter2 V c) t d

/-- What the body is called with at point `t`. -/
def qkvPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d))
    ∗ (∃ d, owns (c : Thread nD τ) (st0_3 t) fullShare ((qkvDat V c).before 3 t d))
    ∗ (∃ d, owns (c : Thread nD τ) (st0_4 t) fullShare ((qkvDat V c).before 4 t d))
    ∗ (∃ d, owns (c : Thread nD τ) (st0_5 t) fullShare ((qkvDat V c).before 5 t d)))

/-- What it returns. -/
def qkvPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t)
    ∗ owns (c : Thread nD τ) (st0_3 t) fullShare ((qkvDat V c).after 3 t)
    ∗ owns (c : Thread nD τ) (st0_4 t) fullShare ((qkvDat V c).after 4 t)
    ∗ owns (c : Thread nD τ) (st0_5 t) fullShare ((qkvDat V c).after 5 t))

set_option maxHeartbeats 2000000 in
theorem qkv_body (c : Dev nD) (t : Fin cfg0.N) :
    qkvPre V c t ⊢ wp frame (wpE (defs₀ (F := F)) Variants.none c none) Set.univ (bodyAt0 t) (fun _ => qkvPost V c t) := by
  unfold qkvPre qkvPost bodyAt0
  simp only [qkvBefore0, qkvBefore1, qkvBefore2]
  rw [show (qkvDat V c).Φ t.succ = (qkvDat V c).Φ t.castSucc from rfl,
    show (qkvDat V c).owesAt () t.succ = (qkvDat V c).owesAt () t.castSucc from rfl,
    qkvAfter0, qkvAfter1, qkvAfter2, qkvAfter3, qkvAfter4, qkvAfter5]
  iintro ⟨HΦ, Ho, ⟨%d0, H0⟩, ⟨%d1, H1⟩, ⟨%d2, H2⟩, ⟨%d3, H3⟩, ⟨%d4, H4⟩, ⟨%d5, H5⟩⟩
  iapply (qkv_triple c Set.univ _ _ _ _ _ _ _ _ _ _ _ _ _ (qkvBlock V c 0 t) (qkvBlock V c 1 t) (qkvBlock V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's obligation for the projection kernel, at every point. -/
theorem qkv_obligation (c : Dev nD) : BodyObligation (qkvDat (F := F) V c) (defs₀ (F := F)) Variants.none () Set.univ := fun t => by
  rw [bigSep_W0, bigSep_W0]
  exact qkv_body V c t

end Qkv

end Cert.KernelIdeal.Hand

end
-- ==== Proof.KI.FlashBase.lean ====
/-
  The attention kernel (the second of the program's two kernels): what its runs at a grid point share.
  The grid is (batch 4) × (query tiles 4) × (key blocks 8), the key-block coordinate running fastest, so point t
  works on key block t mod 8 of query tile (t / 8) mod 4 of batch t / 32.  The body branches on that coordinate
  twice: at key block 0 it first resets the running maximum, the running sum and the accumulator it keeps in three
  scratch buffers; at key block 7 it finally divides the accumulator by the running sum into the output block.
  Here: the windows' blocks, the two conditions decided over the grid in closed form, where the output window is
  idle, and the kernel's invariant with the three scratch buffers split out.
-/
import proofs.«100597_j51634096833128_2_alg».proof.Proof.Gen.KernelIdeal.Launch
import proofs.«100597_j51634096833128_2_alg».proof.Proof.Gen.KernelIdeal.Skeleton
import proofs.«100597_j51634096833128_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off the window's array as the kernel finds it. -/
def flashBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile, fetched at key block 0 and kept for the other seven, is in its staging buffer at every point. -/
theorem flashBefore0_of {c : Dev nD} (dat : Dat τ (Elt F) Unit ℕ (UR sig nD τ) ℕ cfg1 c) (hA : dat.A 0 = V c (Pipeline.arrRef spec1 0))
    (hafter : ∀ t, dat.after 0 t = flashBlock V c 0 t) (t : Fin cfg1.N) (d) : dat.before 0 t d = flashBlock V c 0 t :=
  (dat.before_in_eq_fetched 0 rfl (fun _ => rfl) (fun _ _ _ => rfl) (fun t => by rw [hafter]; unfold Dat.blockOf flashBlock; rw [hA]; try rfl) t d).trans
    (by unfold Dat.fetched Dat.blockOf flashBlock; rw [hA]; try rfl)
/-- The key block is in its staging buffer at every point. -/
theorem flashBefore1_of {c : Dev nD} (dat : Dat τ (Elt F) Unit ℕ (UR sig nD τ) ℕ cfg1 c) (hA : dat.A 1 = V c (Pipeline.arrRef spec1 1))
    (hafter : ∀ t, dat.after 1 t = flashBlock V c 1 t) (t : Fin cfg1.N) (d) : dat.before 1 t d = flashBlock V c 1 t :=
  (dat.before_in_eq_fetched 1 rfl (fun _ => rfl) (fun _ _ _ => rfl) (fun t => by rw [hafter]; unfold Dat.blockOf flashBlock; rw [hA]; try rfl) t d).trans
    (by unfold Dat.fetched Dat.blockOf flashBlock; rw [hA]; try rfl)
/-- So is the value block. -/
theorem flashBefore2_of {c : Dev nD} (dat : Dat τ (Elt F) Unit ℕ (UR sig nD τ) ℕ cfg1 c) (hA : dat.A 2 = V c (Pipeline.arrRef spec1 2))
    (hafter : ∀ t, dat.after 2 t = flashBlock V c 2 t) (t : Fin cfg1.N) (d) : dat.before 2 t d = flashBlock V c 2 t :=
  (dat.before_in_eq_fetched 2 rfl (fun _ => rfl) (fun _ _ _ => rfl) (fun t => by rw [hafter]; unfold Dat.blockOf flashBlock; rw [hA]; try rfl) t d).trans
    (by unfold Dat.fetched Dat.blockOf flashBlock; rw [hA]; try rfl)
end

/-! ## The two conditions -/

/-- "This is key block 0" as the body computes it from the grid coordinates. -/
abbrev flashFirst (i : grid1.Coords) : Prop := (Scalar.cmpi .ne (Scalar.extui (Scalar.cmpi .eq (BitVec.ofNat 32 (i 2).val) 0#32)) 0#32) = 1#1
theorem flashFirst_iff : ∀ t : Fin cfg1.N, flashFirst (grid1.coords t) ↔ t.val % 8 = 0 :=
  (by decide +kernel : ∀ t : Fin grid1.N, flashFirst (grid1.coords t) ↔ t.val % 8 = 0)
/-- "This is key block 7". -/
abbrev flashLast (i : grid1.Coords) : Prop := k1_cond2 i = 1#1
theorem flashLast_iff : ∀ t : Fin cfg1.N, flashLast (grid1.coords t) ↔ t.val % 8 = 7 :=
  (by decide +kernel : ∀ t : Fin grid1.N, flashLast (grid1.coords t) ↔ t.val % 8 = 7)

/-! ## Where the windows are idle -/

theorem flashLive0 : ∀ t : Fin cfg1.N, cfg1.idle 0 (grid1.coords t) = false := by decide +kernel
theorem flashLive1 : ∀ t : Fin cfg1.N, cfg1.idle 1 (grid1.coords t) = false := by decide +kernel
theorem flashLive2 : ∀ t : Fin cfg1.N, cfg1.idle 2 (grid1.coords t) = false := by decide +kernel
/-- Before key block 7 nothing is stored into the output block, -/
theorem flashIdle3 : ∀ t : Fin cfg1.N, ¬flashLast (grid1.coords t) → cfg1.idle 3 (grid1.coords t) = true := by decide +kernel
/-- and the pipeline does not write it back there. -/
theorem flashNoFlush3 : ∀ t : Fin cfg1.N, ¬flashLast (grid1.coords t) → (cfg1.win 3).flush t = false := by decide +kernel
/-- At key block 7 it is stored. -/
theorem flashLive3 : ∀ t : Fin cfg1.N, flashLast (grid1.coords t) → cfg1.idle 3 (grid1.coords t) = false := by decide +kernel

/-! ## The memrefs the body is called on -/

abbrev flashVO : View sig .tc .vmem S1x1024x1024 .f32 := (Memref.whole cc1_stg3_0 : Memref sig .tc .vmem S1x1024x1024 .f32).view
abbrev fm0 (t : Fin cfg1.N) : Memref sig .tc .vmem S1x1024x1024 .bf16 := win1_0.stage (cfg1.slots t 0)
abbrev fh0 (t : Fin cfg1.N) : (fm0 t).IsWhole := hstage1_0 ((cfg1.slots t 0).cast nbuf1_0)
abbrev fm1 (t : Fin cfg1.N) : Memref sig .tc .vmem S1x512x1024 .bf16 := win1_1.stage (cfg1.slots t 1)
abbrev fh1 (t : Fin cfg1.N) : (fm1 t).IsWhole := hstage1_1 ((cfg1.slots t 1).cast nbuf1_1)
abbrev fm2 (t : Fin cfg1.N) : Memref sig .tc .vmem S1x512x1024 .bf16 := win1_2.stage (cfg1.slots t 2)
abbrev fh2 (t : Fin cfg1.N) : (fm2 t).IsWhole := hstage1_2 ((cfg1.slots t 2).cast nbuf1_2)
abbrev fm3 (t : Fin cfg1.N) : Memref sig .tc .vmem S1x1024x1024 .f32 := win1_3.stage (cfg1.slots t 3)
abbrev fh3 (t : Fin cfg1.N) : (fm3 t).IsWhole := hstage1_3 ((cfg1.slots t 3).cast nbuf1_3)
/-- The running maximum, the running sum and the accumulator: whole scratch buffers of the kernel's own. -/
abbrev scMax : Memref sig .tc .vmem S1x1024x1 .f32 := Memref.whole cc1_scratch0
abbrev scSum : Memref sig .tc .vmem S1x1024x1 .f32 := Memref.whole cc1_scratch1
abbrev scAcc : Memref sig .tc .vmem S1x1024x1024 .f32 := Memref.whole cc1_scratch2
abbrev vMax : View sig .tc .vmem S1x1024x1 .f32 := scMax.view
abbrev vSum : View sig .tc .vmem S1x1024x1 .f32 := scSum.view
abbrev vAcc : View sig .tc .vmem S1x1024x1024 .f32 := scAcc.view

/-- The other kernel's staging buffers, which this kernel never touches: each whole at some contents. -/
def flashOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The kernel's invariant before its first point, the three scratch buffers split out as memrefs owned at some contents. -/
theorem flashPhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

end Cert.KernelIdeal.Hand

end
-- ==== Proof.KI.FlashRunA.lean ====
/-
  The attention kernel's body run at key block 0 (the scratch buffers reset first; nothing stored into the output block, which is handed back as found):
  on whole staging buffers holding the query tile, the key block and the value block it runs to the end, the
  inputs kept, and each buffer it stores into ends with a list of stored pieces, found by running the body.
-/
import proofs.«100597_j51634096833128_2_alg».proof.Proof.KI.FlashBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
noncomputable def flashRunA (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : flashFirst i) (hc1 : ¬flashLast i)
    (x0 : Vec F S1x1024x1024 .bf16) (x1 : Vec F S1x512x1024 .bf16) (x2 : Vec F S1x512x1024 .bf16) :
    Σ' (LO : List (View.Piece (Elt F) S1x1024x1024 .f32)), Σ' (LM : List (View.Piece (Elt F) S1x1024x1 .f32)), Σ' (LL : List (View.Piece (Elt F) S1x1024x1 .f32)), { LA : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LM)
                ∗ (∃ f, arg8.view.loc (c : Thread nD τ) ↦[arg8.view.set]{fullShare} arg8.view.writes (Elt F) f LL)
                ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%dm, %fm, -, HS0⟩, ⟨%dl, %fl, -, HS1⟩, ⟨%da, %fa, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunB.lean ====
/-
  The attention kernel's body run at a key block between the first and the last (the scratch buffers hold what the block before left; nothing stored into the output block, which is handed back as found):
  on whole staging buffers holding the query tile, the key block and the value block it runs to the end, the
  inputs kept, and each buffer it stores into ends with a list of stored pieces, found by running the body.
-/
import proofs.«100597_j51634096833128_2_alg».proof.Proof.KI.FlashBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
noncomputable def flashRunB (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : ¬flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    Σ' (LO : List (View.Piece (Elt F) S1x1024x1024 .f32)), Σ' (LM : List (View.Piece (Elt F) S1x1024x1 .f32)), Σ' (LL : List (View.Piece (Elt F) S1x1024x1 .f32)), { LA : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LM)
                ∗ (∃ f, arg8.view.loc (c : Thread nD τ) ↦[arg8.view.set]{fullShare} arg8.view.writes (Elt F) f LL)
                ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fm, %hfm, HS0⟩, ⟨%fl, %hfl, HS1⟩, ⟨%fa, %hfa, HS2⟩, Hk⟩
    obtain rfl := harg3.eq_unread hf0; obtain rfl := harg4.eq_unread hf1; obtain rfl := harg5.eq_unread hf2; obtain rfl := harg6.eq_unread hf3; obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunC.lean ====
/-
  The attention kernel's body run at key block 7 (the scratch buffers hold what the block before left; the quotient stored into the output block):
  on whole staging buffers holding the query tile, the key block and the value block it runs to the end, the
  inputs kept, and each buffer it stores into ends with a list of stored pieces, found by running the body.
-/
import proofs.«100597_j51634096833128_2_alg».proof.Proof.KI.FlashBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
noncomputable def flashRunC (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    Σ' (LO : List (View.Piece (Elt F) S1x1024x1024 .f32)), Σ' (LM : List (View.Piece (Elt F) S1x1024x1 .f32)), Σ' (LL : List (View.Piece (Elt F) S1x1024x1 .f32)), { LA : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM)
                ∗ (∃ f, arg8.view.loc (c : Thread nD τ) ↦[arg8.view.set]{fullShare} arg8.view.writes (Elt F) f LL)
                ∗ (∃ f, arg9.view.loc (c : Thread nD τ) ↦[arg9.view.set]{fullShare} arg9.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fm, %hfm, HS0⟩, ⟨%fl, %hfl, HS1⟩, ⟨%fa, %hfa, HS2⟩, Hk⟩
    obtain rfl := harg3.eq_unread hf0; obtain rfl := harg4.eq_unread hf1; obtain rfl := harg5.eq_unread hf2; obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Flash.lean ====
/-
  The attention kernel over its whole grid, for any float instance.
  `flashAt n` is what the output block's staging buffer and the three scratch buffers (running maximum, running
  sum, accumulator) hold after the body at point n: at key block 0 the run from reset scratch, at the other key
  blocks the run from what the point before left.  The kernel's invariant carries the scratch contents from one
  point to the next; with it the body's obligation holds at every point.
-/
import proofs.«100597_j51634096833128_2_alg».proof.Proof.KI.FlashRunA
import proofs.«100597_j51634096833128_2_alg».proof.Proof.KI.FlashRunB
import proofs.«100597_j51634096833128_2_alg».proof.Proof.KI.FlashRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The output block's staging buffer, the running maximum, the running sum and the accumulator after the body at
    point `n` (each the stored pieces of that point's run read back). -/
def flashAt (c : Dev nD) : (n : ℕ) → n < cfg1.N → Vec F S1x1024x1024 .f32 × Vec F S1x1024x1 .f32 × Vec F S1x1024x1 .f32 × Vec F S1x1024x1024 .f32
  | 0, hn =>
    have h0 : (⟨0, hn⟩ : Fin cfg1.N).val % 8 = 0 := Nat.zero_mod _
    have h1 : ¬(⟨0, hn⟩ : Fin cfg1.N).val % 8 = 7 := by simp
    (flashVO.read (Elt F) (flashVO.writes (Elt F) flashVO.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).1), vMax.read (Elt F) (vMax.writes (Elt F) vMax.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).2.1), vSum.read (Elt F) (vSum.writes (Elt F) vSum.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).2.2.1), vAcc.read (Elt F) (vAcc.writes (Elt F) vAcc.junk (flashRunA c (grid1.coords ⟨0, hn⟩) (fm0 ⟨0, hn⟩) (fh0 ⟨0, hn⟩) (fm1 ⟨0, hn⟩) (fh1 ⟨0, hn⟩) (fm2 ⟨0, hn⟩) (fh2 ⟨0, hn⟩) (fm3 ⟨0, hn⟩) (fh3 ⟨0, hn⟩) scMax (Memref.isWhole_whole _) scSum (Memref.isWhole_whole _) scAcc (Memref.isWhole_whole _) ((flashFirst_iff ⟨0, hn⟩).mpr h0) (fun h => h1 ((flashLast_iff ⟨0, hn⟩).mp h)) (flashBlock V c 0 ⟨0, hn⟩) (flashBlock V c 1 ⟨0, hn⟩) (flashBlock V c 2 ⟨0, hn⟩)).2.2.2.1))
  | n + 1, hn =>
    if h0 : (n + 1) % 8 = 0 then
      have h1 : ¬(n + 1) % 8 = 7 := by omega
      (flashVO.read (Elt F) (flashVO.writes (Elt F) flashVO.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).1), vMax.read (Elt F) (vMax.writes (Elt F) vMax.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).2.1), vSum.read (Elt F) (vSum.writes (Elt F) vSum.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).2.2.1), vAcc.read (Elt F) (vAcc.writes (Elt F) vAcc.junk (flashRunA c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) ((flashFirst_iff ⟨n + 1, hn⟩).mpr h0) (fun h => h1 ((flashLast_iff ⟨n + 1, hn⟩).mp h)) (flashBlock V c 0 ⟨n + 1, hn⟩) (flashBlock V c 1 ⟨n + 1, hn⟩) (flashBlock V c 2 ⟨n + 1, hn⟩)).2.2.2.1))
    else
      if h1 : (n + 1) % 8 = 7 then
        (flashVO.read (Elt F) (flashVO.writes (Elt F) flashVO.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).1), vMax.read (Elt F) (vMax.writes (Elt F) vMax.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.1), vSum.read (Elt F) (vSum.writes (Elt F) vSum.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.1), vAcc.read (Elt F) (vAcc.writes (Elt F) vAcc.junk (flashRunC c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) ((flashLast_iff ⟨n + 1, hn⟩).mpr h1) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.2.1))
      else
        (flashVO.read (Elt F) (flashVO.writes (Elt F) flashVO.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).1), vMax.read (Elt F) (vMax.writes (Elt F) vMax.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.1), vSum.read (Elt F) (vSum.writes (Elt F) vSum.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.1), vAcc.read (Elt F) (vAcc.writes (Elt F) vAcc.junk (flashRunB c (grid1.coords ⟨n + 1, hn⟩) (fm0 ⟨n + 1, hn⟩) (fh0 ⟨n + 1, hn⟩) (fm1 ⟨n + 1, hn⟩) (fh1 ⟨n + 1, hn⟩) (fm2 ⟨n + 1, hn⟩) (fh2 ⟨n + 1, hn⟩) (fm3 ⟨n + 1, hn⟩) (fh3 ⟨n + 1, hn⟩) scMax (Memref.isWhole_whole _) scSum (Memref.isWhole_whole _) scAcc (Memref.isWhole_whole _) (fun h => h0 ((flashFirst_iff ⟨n + 1, hn⟩).mp h)) (fun h => h1 ((flashLast_iff ⟨n + 1, hn⟩).mp h)) (flashBlock V c 0 ⟨n + 1, hn⟩) (flashBlock V c 1 ⟨n + 1, hn⟩) (flashBlock V c 2 ⟨n + 1, hn⟩) (flashAt c n (Nat.lt_of_succ_lt hn)).2.1 (flashAt c n (Nat.lt_of_succ_lt hn)).2.2.1 (flashAt c n (Nat.lt_of_succ_lt hn)).2.2.2).2.2.2.1))

theorem flashAt_A (c : Dev nD) (t : Fin cfg1.N) (h0 : t.val % 8 = 0) (h1 : ¬t.val % 8 = 7) :
    flashAt V c t.val t.isLt = (flashVO.read (Elt F) (flashVO.writes (Elt F) flashVO.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).1), vMax.read (Elt F) (vMax.writes (Elt F) vMax.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.1), vSum.read (Elt F) (vSum.writes (Elt F) vSum.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.1), vAcc.read (Elt F) (vAcc.writes (Elt F) vAcc.junk (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.1)) := by
  obtain ⟨n, hn⟩ := t
  cases n with
  | zero => exact rfl
  | succ n => exact (dif_pos h0).trans rfl

theorem flashAt_B (c : Dev nD) (t : Fin cfg1.N) (h0 : ¬t.val % 8 = 0) (h1 : ¬t.val % 8 = 7) :
    flashAt V c t.val t.isLt = (flashVO.read (Elt F) (flashVO.writes (Elt F) flashVO.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1), vMax.read (Elt F) (vMax.writes (Elt F) vMax.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1), vSum.read (Elt F) (vSum.writes (Elt F) vSum.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1), vAcc.read (Elt F) (vAcc.writes (Elt F) vAcc.junk (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1)) := by
  obtain ⟨n, hn⟩ := t
  cases n with
  | zero => exact (by exfalso; (try dsimp only at h0); exact absurd (Nat.zero_mod _) h0)
  | succ n => exact (dif_neg h0).trans ((dif_neg h1).trans rfl)

theorem flashAt_C (c : Dev nD) (t : Fin cfg1.N) (h0 : ¬t.val % 8 = 0) (h1 : t.val % 8 = 7) :
    flashAt V c t.val t.isLt = (flashVO.read (Elt F) (flashVO.writes (Elt F) flashVO.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1), vMax.read (Elt F) (vMax.writes (Elt F) vMax.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1), vSum.read (Elt F) (vSum.writes (Elt F) vSum.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1), vAcc.read (Elt F) (vAcc.writes (Elt F) vAcc.junk (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1)) := by
  obtain ⟨n, hn⟩ := t
  cases n with
  | zero => exact (by exfalso; (try dsimp only at h0); exact absurd (Nat.zero_mod _) h0)
  | succ n => exact (dif_neg h0).trans ((dif_pos h1).trans rfl)

/-! ## Every run's stored pieces cover the buffer they were stored into -/

theorem flashCoverM_A (c : Dev nD) (t : Fin cfg1.N) (h0 : t.val % 8 = 0) (h1 : ¬t.val % 8 = 7) (y : S1x1024x1.Idx) :
    ∃ pc ∈ (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.1, y ∈ pc.1.set :=
  View.cover_of_tiledL ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.1) S1x1024x1.size (by sl_kernel_rfl) y

theorem flashCoverL_A (c : Dev nD) (t : Fin cfg1.N) (h0 : t.val % 8 = 0) (h1 : ¬t.val % 8 = 7) (y : S1x1024x1.Idx) :
    ∃ pc ∈ (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.1, y ∈ pc.1.set :=
  View.cover_of_tiledL ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.1) S1x1024x1.size (by sl_kernel_rfl) y

theorem flashCoverA_A (c : Dev nD) (t : Fin cfg1.N) (h0 : t.val % 8 = 0) (h1 : ¬t.val % 8 = 7) (y : S1x1024x1024.Idx) :
    ∃ pc ∈ (flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.1, y ∈ pc.1.set :=
  View.cover_of_tiledL ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.1) S1x1024x1024.size (by sl_kernel_rfl) y

theorem flashCoverM_B (c : Dev nD) (t : Fin cfg1.N) (h0 : ¬t.val % 8 = 0) (h1 : ¬t.val % 8 = 7) (y : S1x1024x1.Idx) :
    ∃ pc ∈ (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1, y ∈ pc.1.set :=
  View.cover_of_tiledL ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1) S1x1024x1.size (by sl_kernel_rfl) y

theorem flashCoverL_B (c : Dev nD) (t : Fin cfg1.N) (h0 : ¬t.val % 8 = 0) (h1 : ¬t.val % 8 = 7) (y : S1x1024x1.Idx) :
    ∃ pc ∈ (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1, y ∈ pc.1.set :=
  View.cover_of_tiledL ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1) S1x1024x1.size (by sl_kernel_rfl) y

theorem flashCoverA_B (c : Dev nD) (t : Fin cfg1.N) (h0 : ¬t.val % 8 = 0) (h1 : ¬t.val % 8 = 7) (y : S1x1024x1024.Idx) :
    ∃ pc ∈ (flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1, y ∈ pc.1.set :=
  View.cover_of_tiledL ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1) S1x1024x1024.size (by sl_kernel_rfl) y

theorem flashCoverM_C (c : Dev nD) (t : Fin cfg1.N) (h0 : ¬t.val % 8 = 0) (h1 : t.val % 8 = 7) (y : S1x1024x1.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.1) S1x1024x1.size (by sl_kernel_rfl) y

theorem flashCoverL_C (c : Dev nD) (t : Fin cfg1.N) (h0 : ¬t.val % 8 = 0) (h1 : t.val % 8 = 7) (y : S1x1024x1.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.1) S1x1024x1.size (by sl_kernel_rfl) y

theorem flashCoverA_C (c : Dev nD) (t : Fin cfg1.N) (h0 : ¬t.val % 8 = 0) (h1 : t.val % 8 = 7) (y : S1x1024x1024.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.1) S1x1024x1024.size (by sl_kernel_rfl) y

theorem flashCoverO_C (c : Dev nD) (t : Fin cfg1.N) (h0 : ¬t.val % 8 = 0) (h1 : t.val % 8 = 7) (y : S1x1024x1024.Idx) :
    ∃ pc ∈ (flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1, y ∈ pc.1.set :=
  View.cover_of_tiledL ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).1) S1x1024x1024.size (by sl_kernel_rfl) y

/-! ## The invariant -/

/-- Before point `n`: before the first point whatever the launch hands the kernel; afterwards the three scratch
    buffers at what point n-1 left in them, the other kernel's staging buffers and the generator register at anything. -/
def flashPhi (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) scMax fullShare (flashAt V c n hn).2.1 ∗ owns (c : Thread nD τ) scSum fullShare (flashAt V c n hn).2.2.1 ∗ owns (c : Thread nD τ) scAcc fullShare (flashAt V c n hn).2.2.2) ∗ (∃ r, prngReg c r))

theorem flashPhi_zero (c : Dev nD) (n : ℕ) (h : n ≤ cfg1.N) (hz : n = 0) : flashPhi V c n h = Pipeline.ΦA spec1 c := by
  subst hz; rfl

theorem flashPhi_succ (c : Dev nD) (n : ℕ) (hn : n < cfg1.N) :
    flashPhi V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) scMax fullShare (flashAt V c n hn).2.1 ∗ owns (c : Thread nD τ) scSum fullShare (flashAt V c n hn).2.2.1 ∗ owns (c : Thread nD τ) scAcc fullShare (flashAt V c n hn).2.2.2) ∗ (∃ r, prngReg c r)) := rfl

theorem flashPhi_pos (c : Dev nD) (n : ℕ) (h : n ≤ cfg1.N) (hz : n ≠ 0) :
    flashPhi V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) scMax fullShare (flashAt V c (n - 1) (by omega)).2.1 ∗ owns (c : Thread nD τ) scSum fullShare (flashAt V c (n - 1) (by omega)).2.2.1 ∗ owns (c : Thread nD τ) scAcc fullShare (flashAt V c (n - 1) (by omega)).2.2.2) ∗ (∃ r, prngReg c r)) := by
  cases n with
  | zero => exact absurd rfl hz
  | succ n => rfl

/-! ## The per-point data -/

def flashDat (c : Dev nD) : Dat τ (Elt F) Unit ℕ (UR sig nD τ) ℕ cfg1 c where
  A w := V c (Pipeline.arrRef spec1 w)
  after w t := match w with
    | ⟨0, _⟩ => flashBlock V c 0 t
    | ⟨1, _⟩ => flashBlock V c 1 t
    | ⟨2, _⟩ => flashBlock V c 2 t
    | ⟨3, _⟩ => (flashAt V c t.val t.isLt).1
  Φ t := flashPhi V c t.val (Nat.le_of_lt_succ t.isLt)
  q _ := fullShare
  owed _ := 0

theorem flashA_eq (c : Dev nD) (w : Fin cfg1.W) : (flashDat V c).A w = V c (Pipeline.arrRef spec1 w) := by
  dsimp only [flashDat]

theorem flashPhi_castSucc (c : Dev nD) (t : Fin cfg1.N) :
    (flashDat V c).Φ t.castSucc = flashPhi V c t.val (Nat.le_of_lt t.isLt) := by
  dsimp only [flashDat]; simp only [Fin.coe_castSucc]

theorem flashAfter0 (c : Dev nD) (t : Fin cfg1.N) : (flashDat V c).after 0 t = flashBlock V c 0 t := by dsimp only [flashDat]
theorem flashAfter1 (c : Dev nD) (t : Fin cfg1.N) : (flashDat V c).after 1 t = flashBlock V c 1 t := by dsimp only [flashDat]
theorem flashAfter2 (c : Dev nD) (t : Fin cfg1.N) : (flashDat V c).after 2 t = flashBlock V c 2 t := by dsimp only [flashDat]
theorem flashAfter3 (c : Dev nD) (t : Fin cfg1.N) : (flashDat V c).after 3 t = (flashAt V c t.val t.isLt).1 := by dsimp only [flashDat]

theorem flashBefore0 (c : Dev nD) (t : Fin cfg1.N) (d) : (flashDat V c).before 0 t d = flashBlock V c 0 t :=
  flashBefore0_of V (flashDat V c) (flashA_eq V c 0) (flashAfter0 V c) t d
theorem flashBefore1 (c : Dev nD) (t : Fin cfg1.N) (d) : (flashDat V c).before 1 t d = flashBlock V c 1 t :=
  flashBefore1_of V (flashDat V c) (flashA_eq V c 1) (flashAfter1 V c) t d
theorem flashBefore2 (c : Dev nD) (t : Fin cfg1.N) (d) : (flashDat V c).before 2 t d = flashBlock V c 2 t :=
  flashBefore2_of V (flashDat V c) (flashA_eq V c 2) (flashAfter2 V c) t d

/-! ## The body's obligation -/

def flashPre (c : Dev nD) (t : Fin cfg1.N) : sProp 𝕄 :=
  iprop((flashDat V c).Φ t.castSucc ∗ (flashDat V c).owesAt () t.castSucc
    ∗ (∃ d, owns (c : Thread nD τ) (fm0 t) fullShare ((flashDat V c).before 0 t d))
    ∗ (∃ d, owns (c : Thread nD τ) (fm1 t) fullShare ((flashDat V c).before 1 t d))
    ∗ (∃ d, owns (c : Thread nD τ) (fm2 t) fullShare ((flashDat V c).before 2 t d))
    ∗ (∃ d, owns (c : Thread nD τ) (fm3 t) fullShare ((flashDat V c).before 3 t d)))

def flashPost (c : Dev nD) (t : Fin cfg1.N) : sProp 𝕄 :=
  iprop((flashDat V c).Φ t.succ ∗ (flashDat V c).owesAt () t.succ
    ∗ (flashDat V c).leavesExact 0 t
    ∗ (flashDat V c).leavesExact 1 t
    ∗ (flashDat V c).leavesExact 2 t
    ∗ (flashDat V c).leavesExact 3 t)

set_option maxHeartbeats 8000000 in
theorem flash_body (c : Dev nD) (t : Fin cfg1.N) :
    flashPre V c t ⊢ wp frame (wpE (defs₀ (F := F)) Variants.none c none) Set.univ (bodyAt1 t) (fun _ => flashPost V c t) := by
  unfold flashPre flashPost bodyAt1
  simp only [flashBefore0, flashBefore1, flashBefore2]
  rw [show (flashDat V c).owesAt () t.succ = (flashDat V c).owesAt () t.castSucc from rfl]
  rw [show (flashDat V c).Φ t.succ = flashPhi V c (t.val + 1) t.isLt from rfl, flashPhi_succ]
  have hN : t.val < 128 := lt_of_lt_of_eq t.isLt (show cfg1.N = 128 from N_1)
  rw [show (flashDat V c).leavesExact 0 t = owns (c : Thread nD τ) (fm0 t) fullShare ((flashDat V c).after 0 t) from by
    unfold Dat.leavesExact; rw [flashLive0 t], flashAfter0]
  rw [show (flashDat V c).leavesExact 1 t = owns (c : Thread nD τ) (fm1 t) fullShare ((flashDat V c).after 1 t) from by
    unfold Dat.leavesExact; rw [flashLive1 t], flashAfter1]
  rw [show (flashDat V c).leavesExact 2 t = owns (c : Thread nD τ) (fm2 t) fullShare ((flashDat V c).after 2 t) from by
    unfold Dat.leavesExact; rw [flashLive2 t], flashAfter2]
  by_cases h0 : t.val % 8 = 0
  · have h1 : ¬t.val % 8 = 7 := by omega
    rw [Dat.leavesExact_idle (flashDat V c) 3 t (flashIdle3 t (fun h => h1 ((flashLast_iff t).mp h))) (flashNoFlush3 t (fun h => h1 ((flashLast_iff t).mp h)))]
    rw [flashAt_A V c t h0 h1]
    (try dsimp only)
    by_cases hz : t.val = 0
    · rw [flashPhi_castSucc V c t, flashPhi_zero V c _ _ hz, flashPhiA_eq]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_A V c t h0 h1)
            isplitl [HS1]
            · unfold owns; iexists _; isplitr
              swap; · iexact HS1
              ipureintro; exact View.read_writes_of_cover _ _ _ _ _ (flashCoverL_A V c t h0 h1)
            unfold owns; iexists _; isplitr
            swap; · iexact HS2
            ipureintro; exact View.read_writes_of_cover _ _ _ _ _ (flashCoverA_A V c t h0 h1)
          iexact Hg
        isplitl [Ho]; · iexact Ho
        isplitl [H0]; · iexact H0
        isplitl [H1]; · iexact H1
        isplitl [H2]; · iexact H2
        iexists _; iexact H3)
    · rw [flashPhi_castSucc V c t, flashPhi_pos V c _ _ hz]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunA c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_A V c t h0 h1)
            isplitl [HS1]
            · unfold owns; iexists _; isplitr
              swap; · iexact HS1
              ipureintro; exact View.read_writes_of_cover _ _ _ _ _ (flashCoverL_A V c t h0 h1)
            unfold owns; iexists _; isplitr
            swap; · iexact HS2
            ipureintro; exact View.read_writes_of_cover _ _ _ _ _ (flashCoverA_A V c t h0 h1)
          iexact Hg
        isplitl [Ho]; · iexact Ho
        isplitl [H0]; · iexact H0
        isplitl [H1]; · iexact H1
        isplitl [H2]; · iexact H2
        iexists _; iexact H3)
  · by_cases h1 : t.val % 8 = 7
    · rw [show (flashDat V c).leavesExact 3 t = owns (c : Thread nD τ) (fm3 t) fullShare ((flashDat V c).after 3 t) from by
        unfold Dat.leavesExact; rw [flashLive3 t ((flashLast_iff t).mpr h1)], flashAfter3]
      rw [flashAt_C V c t h0 h1]
      (try dsimp only)
      have hz : t.val ≠ 0 := by omega
      rw [flashPhi_castSucc V c t, flashPhi_pos V c _ _ hz]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunC c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_C V c t h0 h1)
            isplitl [HS1]
            · unfold owns; iexists _; isplitr
              swap; · iexact HS1
              ipureintro; exact View.read_writes_of_cover _ _ _ _ _ (flashCoverL_C V c t h0 h1)
            unfold owns; iexists _; isplitr
            swap; · iexact HS2
            ipureintro; exact View.read_writes_of_cover _ _ _ _ _ (flashCoverA_C V c t h0 h1)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (flashCoverO_C V c t h0 h1))
    · rw [Dat.leavesExact_idle (flashDat V c) 3 t (flashIdle3 t (fun h => h1 ((flashLast_iff t).mp h))) (flashNoFlush3 t (fun h => h1 ((flashLast_iff t).mp h)))]
      rw [flashAt_B V c t h0 h1]
      (try dsimp only)
      have hz : t.val ≠ 0 := by omega
      rw [flashPhi_castSucc V c t, flashPhi_pos V c _ _ hz]
      first
      | (
        iintro ⟨⟨⟨A1, A2, A3, A4, A5, A6, A7, A8, A9, A10, HS0, HS1, HS2⟩, Hg⟩, Ho, ⟨%d0, H0⟩, ⟨%d1, H1⟩, ⟨%d2, H2⟩, ⟨%d3, H3⟩⟩
        iapply ((flashRunB c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [A1 A2 A3 A4 A5 A6 A7 A8 A9 A10 HS0 HS1 HS2 Hg]
        · isplitl [A1 A2 A3 A4 A5 A6 A7 A8 A9 A10 HS0 HS1 HS2]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            isplitl [HS0]
            · unfold owns; iexists _; isplitr
              swap; · iexact HS0
              ipureintro; exact View.read_writes_of_cover _ _ _ _ _ (flashCoverM_B V c t h0 h1)
            isplitl [HS1]
            · unfold owns; iexists _; isplitr
              swap; · iexact HS1
              ipureintro; exact View.read_writes_of_cover _ _ _ _ _ (flashCoverL_B V c t h0 h1)
            unfold owns; iexists _; isplitr
            swap; · iexact HS2
            ipureintro; exact View.read_writes_of_cover _ _ _ _ _ (flashCoverA_B V c t h0 h1)
          iexact Hg
        isplitl [Ho]; · iexact Ho
        isplitl [H0]; · iexact H0
        isplitl [H1]; · iexact H1
        isplitl [H2]; · iexact H2
        iexists _; iexact H3)

theorem flash_obligation (c : Dev nD) : BodyObligation (flashDat (F := F) V c) (defs₀ (F := F)) Variants.none () Set.univ := fun t => by
  rw [bigSep_W1, bigSep_W1]
  exact flash_body V c t

/-- What the launch hands the kernel is the invariant before the first point. -/
theorem flash_in (c : Dev nD) : Pipeline.ΦA spec1 c ⊢ (flashDat V c).Φ 0 := by
  rw [show (flashDat V c).Φ 0 = flashPhi V c 0 (Nat.zero_le _) from rfl, flashPhi_zero V c 0 _ rfl]
  try exact Idealize.SL.BI.Entails.refl _

/-- After the last point the invariant gives the launch's form back: the scratch contents are forgotten. -/
theorem flash_out (c : Dev nD) : (flashDat V c).Φ (Fin.last cfg1.N) ⊢ Pipeline.ΦA spec1 c := by
  have ht : (Fin.last cfg1.N).val ≠ 0 := by rw [Fin.val_last]; have : cfg1.N = 128 := N_1; omega
  rw [show (flashDat V c).Φ (Fin.last cfg1.N) = flashPhi V c (Fin.last cfg1.N).val (Nat.le_of_lt_succ (Fin.last cfg1.N).isLt) from rfl, flashPhi_pos V c _ _ ht, flashPhiA_eq]
  iintro ⟨⟨A1, A2, A3, A4, A5, A6, A7, A8, A9, A10, HS0, HS1, HS2⟩, Hg⟩
  isplitl [A1 A2 A3 A4 A5 A6 A7 A8 A9 A10 HS0 HS1 HS2]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [HS0]; · iexists _; iexact HS0
    isplitl [HS1]; · iexists _; iexact HS1
    iexists _; iexact HS2
  iexact Hg

end

end Cert.KernelIdeal.Hand

end
-- ==== Proof.KI.Run.lean ====
/-
  The whole program, for any float instance: the host operations that flatten X and stack the weights and biases,
  the projection kernel, the three reshapes back to [4,4096,1024], the attention kernel.  The buffers' contents at
  each boundary are a fold from the launch memory (a host stretch applies its operations; a kernel leaves its
  windows' arrays at what its write-backs folded and every other buffer as entered).  Every weakly fair execution
  terminates with every unscoped buffer at the last boundary's contents: hence the arguments unchanged, and the
  result array at what the attention kernel's write-backs leave.
-/
import proofs.«100597_j51634096833128_2_alg».proof.Proof.KI.Qkv
import proofs.«100597_j51634096833128_2_alg».proof.Proof.KI.Flash
import proofs.«100597_j51634096833128_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch: the projection kernel's entry. -/
abbrev W1 : Dev nD → Valuation τ sig (Elt F) := fun c => StableHlo.after hostOps0 (W0 m c)
abbrev atQkv : (c : Dev nD) → (b : Ref sig .tc) → Buf (Elt F) ((c : Thread nD τ).loc b) := fun c b => W1 m c b
/-- After the projection kernel. -/
def W2 (c : Dev nD) : Valuation τ sig (Elt F) :=
  Pipeline.withArrays spec0 c (W1 m c) fun w => (qkvDat (atQkv m) c).arrAt w cfg0.N
theorem W2_arr (c : Dev nD) (w : Fin cfg0.W) :
    W2 m c (Proc.devRef .tc (Pipeline.arrRef spec0 w)) = (qkvDat (atQkv m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev atMid : (c : Dev nD) → (b : Ref sig .tc) → Buf (Elt F) ((c : Thread nD τ).loc b) := fun c b => W2 m c b
theorem hF0 (c : Dev nD) (w : Fin cfg0.W) : (qkvDat (atQkv m) c).arrAt w cfg0.N = atMid m c (Pipeline.arrRef spec0 w) :=
  (W2_arr m c w).symm
theorem hrest0 (c : Dev nD) : ∀ b, b ∉ Finset.univ.image (Pipeline.arrRef spec0) → atMid m c b = atQkv m c b :=
  fun b hb => W2_of_ne m c b fun w e => hb (Finset.mem_image.mpr ⟨w, Finset.mem_univ _, e⟩)
/-- After the second host stretch: the attention kernel's entry. -/
abbrev W3 : Dev nD → Valuation τ sig (Elt F) := fun c => StableHlo.after hostOps1 (W2 m c)
abbrev atFlash : (c : Dev nD) → (b : Ref sig .tc) → Buf (Elt F) ((c : Thread nD τ).loc b) := fun c b => W3 m c b
/-- After the attention kernel: the end. -/
def W4 (c : Dev nD) : Valuation τ sig (Elt F) :=
  Pipeline.withArrays spec1 c (W3 m c) fun w => (flashDat (atFlash m) c).arrAt w cfg1.N
theorem W4_arr (c : Dev nD) (w : Fin cfg1.W) :
    W4 m c (Proc.devRef .tc (Pipeline.arrRef spec1 w)) = (flashDat (atFlash m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev atEnd : (c : Dev nD) → (b : Ref sig .tc) → Buf (Elt F) ((c : Thread nD τ).loc b) := fun c b => W4 m c b
theorem hF1 (c : Dev nD) (w : Fin cfg1.W) : (flashDat (atFlash m) c).arrAt w cfg1.N = atEnd m c (Pipeline.arrRef spec1 w) :=
  (W4_arr m c w).symm
theorem hrest1 (c : Dev nD) : ∀ b, b ∉ Finset.univ.image (Pipeline.arrRef spec1) → atEnd m c b = atFlash m c b :=
  fun b hb => W4_of_ne m c b fun w e => hb (Finset.mem_image.mpr ⟨w, Finset.mem_univ _, e⟩)

/-! ## No step writes an argument -/

theorem end_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 (W2 m c) hostOps1_writes (r := main_arg0) (by decide)
    _ = W1 m c (Proc.devRef .tc main_arg0) := W2_of_ne m c main_arg0 (by decide)
    _ = W0 m c (Proc.devRef .tc main_arg0) := StableHlo.after_of_writes_sub hostOps0 (W0 m c) hostOps0_writes (r := main_arg0) (by decide)
    _ = m ((c : Thread nD τ).loc main_arg0) := rfl

theorem end_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 (W2 m c) hostOps1_writes (r := main_arg1) (by decide)
    _ = W1 m c (Proc.devRef .tc main_arg1) := W2_of_ne m c main_arg1 (by decide)
    _ = W0 m c (Proc.devRef .tc main_arg1) := StableHlo.after_of_writes_sub hostOps0 (W0 m c) hostOps0_writes (r := main_arg1) (by decide)
    _ = m ((c : Thread nD τ).loc main_arg1) := rfl

theorem end_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 (W2 m c) hostOps1_writes (r := main_arg2) (by decide)
    _ = W1 m c (Proc.devRef .tc main_arg2) := W2_of_ne m c main_arg2 (by decide)
    _ = W0 m c (Proc.devRef .tc main_arg2) := StableHlo.after_of_writes_sub hostOps0 (W0 m c) hostOps0_writes (r := main_arg2) (by decide)
    _ = m ((c : Thread nD τ).loc main_arg2) := rfl

theorem end_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 (W2 m c) hostOps1_writes (r := main_arg3) (by decide)
    _ = W1 m c (Proc.devRef .tc main_arg3) := W2_of_ne m c main_arg3 (by decide)
    _ = W0 m c (Proc.devRef .tc main_arg3) := StableHlo.after_of_writes_sub hostOps0 (W0 m c) hostOps0_writes (r := main_arg3) (by decide)
    _ = m ((c : Thread nD τ).loc main_arg3) := rfl

theorem end_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 (W2 m c) hostOps1_writes (r := main_arg4) (by decide)
    _ = W1 m c (Proc.devRef .tc main_arg4) := W2_of_ne m c main_arg4 (by decide)
    _ = W0 m c (Proc.devRef .tc main_arg4) := StableHlo.after_of_writes_sub hostOps0 (W0 m c) hostOps0_writes (r := main_arg4) (by decide)
    _ = m ((c : Thread nD τ).loc main_arg4) := rfl

theorem end_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 (W2 m c) hostOps1_writes (r := main_arg5) (by decide)
    _ = W1 m c (Proc.devRef .tc main_arg5) := W2_of_ne m c main_arg5 (by decide)
    _ = W0 m c (Proc.devRef .tc main_arg5) := StableHlo.after_of_writes_sub hostOps0 (W0 m c) hostOps0_writes (r := main_arg5) (by decide)
    _ = m ((c : Thread nD τ).loc main_arg5) := rfl

theorem end_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 (W2 m c) hostOps1_writes (r := main_arg6) (by decide)
    _ = W1 m c (Proc.devRef .tc main_arg6) := W2_of_ne m c main_arg6 (by decide)
    _ = W0 m c (Proc.devRef .tc main_arg6) := StableHlo.after_of_writes_sub hostOps0 (W0 m c) hostOps0_writes (r := main_arg6) (by decide)
    _ = m ((c : Thread nD τ).loc main_arg6) := rfl

/-- The result array ends at what the attention kernel's write-backs leave. -/
theorem end_main_v9 (c : Dev nD) : W4 m c (Proc.devRef .tc main_v9) = (flashDat (atFlash m) c).arrAt 3 cfg1.N :=
  W4_arr m c 3

/-! ## The kernels as segments of the program -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => qkvDat (atQkv m) c
  | ⟨1, _⟩ => fun c => flashDat (atFlash m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qkv_obligation (atQkv m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atQkv m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atQkv m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atQkv m c) (atMid m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (flash_obligation (atFlash m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atFlash m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atFlash m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m 1 c).Φ 0 from flash_in (atFlash m) c)
    unfold Pipeline.ΦA
    isplitl [Hr]; · iexact Hr
    iexact Hp
  hout c := by
    rw [Pipeline.ownSems0_none]
    have hO : (pdats m 1 c).Φ (Fin.last _) ⊢ (Pipeline.ΦA spec1 c : sProp 𝕄) := flash_out (atFlash m) c
    unfold Pipeline.ΦA at hO
    iintro HΦ
    ihave H := hO $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atFlash m c) (atEnd m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution terminates, nothing faulting, with every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c),
     (h c _ (mem_uc main_arg6 (by decide))).trans (end_main_arg6 m c)⟩) (run_all m ρ)

/-- The run with the result named: the result array ends at what the attention kernel's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = (flashDat (atFlash m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v9 (by decide))).trans (end_main_v9 m c),
     (h c _ (mem_uc main_arg0 (by decide))).trans (end_main_arg0 m c),
     (h c _ (mem_uc main_arg1 (by decide))).trans (end_main_arg1 m c),
     (h c _ (mem_uc main_arg2 (by decide))).trans (end_main_arg2 m c),
     (h c _ (mem_uc main_arg3 (by decide))).trans (end_main_arg3 m c),
     (h c _ (mem_uc main_arg4 (by decide))).trans (end_main_arg4 m c),
     (h c _ (mem_uc main_arg5 (by decide))).trans (end_main_arg5 m c),
     (h c _ (mem_uc main_arg6 (by decide))).trans (end_main_arg6 m c)⟩) (run_all m ρ)

end Cert.KernelIdeal.Hand

end
-- ==== Proof.KI.FlashPieces.lean ====
/-
  What the attention kernel's runs leave in the scratch buffers and the output block, as the body's arithmetic:
  the running maximum becomes max(m, the block's row maxima), the running sum and the accumulator are rescaled
  and added to — from the reset values at key block 0, from what the block before left otherwise — and at key
  block 7 the output block receives accumulator / running sum.
-/
import proofs.«100597_j51634096833128_2_alg».proof.Proof.KI.FlashRunA
import proofs.«100597_j51634096833128_2_alg».proof.Proof.KI.FlashRunB
import proofs.«100597_j51634096833128_2_alg».proof.Proof.KI.FlashRunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem hz3 : (![0, 0, 0] : Fin 3 → ℕ) = fun _ => 0 := by
  funext a; match a with | ⟨0, _⟩ => rfl | ⟨1, _⟩ => rfl | ⟨2, _⟩ => rfl

/-! ## Key block case A -/

theorem pieceA_max (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : flashFirst i) (hc1 : ¬flashLast i)
    (x0 : Vec F S1x1024x1024 .bf16) (x1 : Vec F S1x512x1024 .bf16) (x2 : Vec F S1x512x1024 .bf16) :
    vMax.read (Elt F) (vMax.writes (Elt F) vMax.junk (flashRunA c i arg3 harg3 arg4 harg4 arg5 harg5 arg6 harg6 arg7 harg7 arg8 harg8 arg9 harg9 hc0 hc1 x0 x1 x2).2.1) = k1_pay2 (k1_pay9 x0 x1 k1_pay4) := by
  rw [View.read_writes_eq_canon _ _ _ (fun y => View.cover_of_tiledL _ S1x1024x1.size (by sl_kernel_rfl) y)]
  unfold flashRunA; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceA_sum (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : flashFirst i) (hc1 : ¬flashLast i)
    (x0 : Vec F S1x1024x1024 .bf16) (x1 : Vec F S1x512x1024 .bf16) (x2 : Vec F S1x512x1024 .bf16) :
    vSum.read (Elt F) (vSum.writes (Elt F) vSum.junk (flashRunA c i arg3 harg3 arg4 harg4 arg5 harg5 arg6 harg6 arg7 harg7 arg8 harg8 arg9 harg9 hc0 hc1 x0 x1 x2).2.2.1) = k1_pay12 x0 x1 k1_pay4 k1_pay4 k1_pay5 := by
  rw [View.read_writes_eq_canon _ _ _ (fun y => View.cover_of_tiledL _ S1x1024x1.size (by sl_kernel_rfl) y)]
  unfold flashRunA; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceA_acc (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : flashFirst i) (hc1 : ¬flashLast i)
    (x0 : Vec F S1x1024x1024 .bf16) (x1 : Vec F S1x512x1024 .bf16) (x2 : Vec F S1x512x1024 .bf16) :
    vAcc.read (Elt F) (vAcc.writes (Elt F) vAcc.junk (flashRunA c i arg3 harg3 arg4 harg4 arg5 harg5 arg6 harg6 arg7 harg7 arg8 harg8 arg9 harg9 hc0 hc1 x0 x1 x2).2.2.2.1) = k1_pay1 (k1_pay7 x2) (k1_pay10 x0 x1 k1_pay4 k1_pay4) (k1_pay11 x0 x1 k1_pay4) k1_pay6 := by
  rw [View.read_writes_eq_canon _ _ _ (fun y => View.cover_of_tiledL _ S1x1024x1024.size (by sl_kernel_rfl) y)]
  unfold flashRunA; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

/-! ## Key block case B -/

theorem pieceB_max (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : ¬flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    vMax.read (Elt F) (vMax.writes (Elt F) vMax.junk (flashRunB c i arg3 harg3 arg4 harg4 arg5 harg5 arg6 harg6 arg7 harg7 arg8 harg8 arg9 harg9 hc0 hc1 x0 x1 x2 xm xl xa).2.1) = k1_pay2 (k1_pay9 x0 x1 xm) := by
  rw [View.read_writes_eq_canon _ _ _ (fun y => View.cover_of_tiledL _ S1x1024x1.size (by sl_kernel_rfl) y)]
  unfold flashRunB; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceB_sum (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : ¬flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    vSum.read (Elt F) (vSum.writes (Elt F) vSum.junk (flashRunB c i arg3 harg3 arg4 harg4 arg5 harg5 arg6 harg6 arg7 harg7 arg8 harg8 arg9 harg9 hc0 hc1 x0 x1 x2 xm xl xa).2.2.1) = k1_pay12 x0 x1 xm xm xl := by
  rw [View.read_writes_eq_canon _ _ _ (fun y => View.cover_of_tiledL _ S1x1024x1.size (by sl_kernel_rfl) y)]
  unfold flashRunB; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceB_acc (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : ¬flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    vAcc.read (Elt F) (vAcc.writes (Elt F) vAcc.junk (flashRunB c i arg3 harg3 arg4 harg4 arg5 harg5 arg6 harg6 arg7 harg7 arg8 harg8 arg9 harg9 hc0 hc1 x0 x1 x2 xm xl xa).2.2.2.1) = k1_pay1 (k1_pay7 x2) (k1_pay10 x0 x1 xm xm) (k1_pay11 x0 x1 xm) xa := by
  rw [View.read_writes_eq_canon _ _ _ (fun y => View.cover_of_tiledL _ S1x1024x1024.size (by sl_kernel_rfl) y)]
  unfold flashRunB; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

/-! ## Key block case C -/

theorem pieceC_max (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    vMax.read (Elt F) (vMax.writes (Elt F) vMax.junk (flashRunC c i arg3 harg3 arg4 harg4 arg5 harg5 arg6 harg6 arg7 harg7 arg8 harg8 arg9 harg9 hc0 hc1 x0 x1 x2 xm xl xa).2.1) = k1_pay2 (k1_pay9 x0 x1 xm) := by
  rw [View.read_writes_eq_canon _ _ _ (fun y => View.cover_of_tiledL _ S1x1024x1.size (by sl_kernel_rfl) y)]
  unfold flashRunC; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceC_sum (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    vSum.read (Elt F) (vSum.writes (Elt F) vSum.junk (flashRunC c i arg3 harg3 arg4 harg4 arg5 harg5 arg6 harg6 arg7 harg7 arg8 harg8 arg9 harg9 hc0 hc1 x0 x1 x2 xm xl xa).2.2.1) = k1_pay12 x0 x1 xm xm xl := by
  rw [View.read_writes_eq_canon _ _ _ (fun y => View.cover_of_tiledL _ S1x1024x1.size (by sl_kernel_rfl) y)]
  unfold flashRunC; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceC_acc (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    vAcc.read (Elt F) (vAcc.writes (Elt F) vAcc.junk (flashRunC c i arg3 harg3 arg4 harg4 arg5 harg5 arg6 harg6 arg7 harg7 arg8 harg8 arg9 harg9 hc0 hc1 x0 x1 x2 xm xl xa).2.2.2.1) = k1_pay1 (k1_pay7 x2) (k1_pay10 x0 x1 xm xm) (k1_pay11 x0 x1 xm) xa := by
  rw [View.read_writes_eq_canon _ _ _ (fun y => View.cover_of_tiledL _ S1x1024x1024.size (by sl_kernel_rfl) y)]
  unfold flashRunC; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

theorem pieceC_out (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬flashFirst i) (hc1 : flashLast i)
    (x0 : Vec F S1x1024x1024 .bf16) (x1 : Vec F S1x512x1024 .bf16) (x2 : Vec F S1x512x1024 .bf16) (xm : Vec F S1x1024x1 .f32) (xl : Vec F S1x1024x1 .f32) (xa : Vec F S1x1024x1024 .f32) :
    flashVO.read (Elt F) (flashVO.writes (Elt F) flashVO.junk (flashRunC c i arg3 harg3 arg4 harg4 arg5 harg5 arg6 harg6 arg7 harg7 arg8 harg8 arg9 harg9 hc0 hc1 x0 x1 x2 xm xl xa).1)
      = k1_pay3 (k1_pay1 (k1_pay7 x2) (k1_pay10 x0 x1 xm xm) (k1_pay11 x0 x1 xm) xa) (k1_pay12 x0 x1 xm xm xl) := by
  rw [View.read_writes_eq_canon _ _ _ (fun y => View.cover_of_tiledL _ S1x1024x1024.size (by sl_kernel_rfl) y)]
  unfold flashRunC; dsimp only; sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1024x1) hz3, View.readCov_unit_zero (S := S1x1024x1) _ hz3, View.readCov_unit_zero (S := S1x1024x1024) _ hz3]
  try rfl

end Cert.KernelIdeal.Hand

end
-- ==== Proof.KI.FlashState.lean ====
/-
  The attention kernel's state after each grid point, as the body's arithmetic, for any float instance: at key
  block 0 the update of the reset values, at the other key blocks the update of what the point before left, and at
  key block 7 the output block is the accumulator divided by the running sum.
-/
import proofs.«100597_j51634096833128_2_alg».proof.Proof.KI.Flash
import proofs.«100597_j51634096833128_2_alg».proof.Proof.KI.FlashPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]
variable (V : (c : Dev nD) → (b : Ref sig .tc) → Buf (Elt F) ((c : Thread nD τ).loc b)) (c : Dev nD)

set_option maxHeartbeats 1000000 in
theorem flashAt_first (t : Fin cfg1.N) (h0 : t.val % 8 = 0) :
      (flashAt V c t.val t.isLt).2.1 = k1_pay2 (k1_pay9 (flashBlock V c 0 t) (flashBlock V c 1 t) k1_pay4)
    ∧ (flashAt V c t.val t.isLt).2.2.1 = k1_pay12 (flashBlock V c 0 t) (flashBlock V c 1 t) k1_pay4 k1_pay4 k1_pay5
    ∧ (flashAt V c t.val t.isLt).2.2.2 = k1_pay1 (k1_pay7 (flashBlock V c 2 t)) (k1_pay10 (flashBlock V c 0 t) (flashBlock V c 1 t) k1_pay4 k1_pay4) (k1_pay11 (flashBlock V c 0 t) (flashBlock V c 1 t) k1_pay4) k1_pay6 := by
  have h1 : ¬t.val % 8 = 7 := by omega
  have e := flashAt_A V c t h0 h1
  first
  | (
    refine ⟨?_, ?_, ?_⟩
    · refine (congrArg (fun x => x.2.1) e).trans ?_
      dsimp only
      exact pieceA_max c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)
    · refine (congrArg (fun x => x.2.2.1) e).trans ?_
      dsimp only
      exact pieceA_sum c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t)
    · refine (congrArg (fun x => x.2.2.2) e).trans ?_
      dsimp only
      exact pieceA_acc c (grid1.coords t) (fm0 t) (fh0 t) (fm1 t) (fh1 t) (fm2 t) (fh2 t) (fm3 t) (fh3 t) scMax (Memref.isWhole_whole _) scSum (Memref.isWhole_whole _) scAcc (Memref.isWhole_whole _) ((flashFirst_iff t).mpr h0) (fun h => h1 ((flashLast_iff t).mp h)) (flashBlock V c 0 t) (flashBlock V c 1 t) (flashBlock V c 2 t))

set_option maxHeartbeats 2000000 in
theorem flashAt_next (t : Fin cfg1.N) (h0 : ¬t.val % 8 = 0) :
      (flashAt V c t.val t.isLt).2.1 = k1_pay2 (k1_pay9 (flashBlock V c 0 t) (flashBlock V c 1 t) (flashAt V c (t.val - 1) (Nat.lt_of_le_of_lt (Nat.sub_le _ _) t.isLt)).2.1)
    ∧ (flashAt V c t.val t.isLt).2.2.1 = k1_pay12 (flashBlock V c 0 t) (flashBlock V c 1 t) (flashAt V c (t.val - 1) (Nat.lt_of_le_of_lt (Nat.sub_le _ _) t.isLt)).2.1 (flashAt V c (t.val - 1) (Nat.lt_of_le_of_lt (Nat.sub_le _ _) t.isLt)).2.1 (flashAt V c (t.val - 1) (Nat.lt_of_le_of_lt (Nat.sub_le _ _) t.isLt)).2.2.1
    ∧ (flashAt V c t.val t.isLt).2.2.2 = k1_pay1 (k1_pay7 (flashBlock V c 2 t)) (k1_pay10 (flashBlock V c 0 t) (flashBlock V c 1 t) (flashAt V c (t.val - 1) (Nat.lt_of_le_of_lt (Nat.sub_le _ _) t.isLt)).2.1 (flashAt V c (t.val - 1) (Nat.lt_of_le_of_lt (Nat.sub_le _ _) t.isLt)).2.1) (k1_pay11 (flashBlock V c 0 t) (flashBlock V c 1 t) (flashAt V c (t.val - 1) (Nat.lt_of_le_of_lt (Nat.sub_le _ _) t.isLt)).2.1) (flashAt V c (t.val - 1) (Nat.lt_of_le_of_lt (Nat.sub_le _ _) t.isLt)).2.2.2 := by
  by_cases h1 : t.val % 8 = 7
  · have e := flashAt_C V c t h0 h1
    refine ⟨?_, ?_, ?_⟩
    · refine (congrArg (fun x => x.2.1) e).trans ?_
      dsimp only
      exact pieceC_max c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2
    · refine (congrArg (fun x => x.2.2.1) e).trans ?_
      dsimp only
      exact pieceC_sum c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2
    · refine (congrArg (fun x => x.2.2.2) e).trans ?_
      dsimp only
      exact pieceC_acc c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2
  · have e := flashAt_B V c t h0 h1
    refine ⟨?_, ?_, ?_⟩
    · refine (congrArg (fun x => x.2.1) e).trans ?_
      dsimp only
      exact pieceB_max c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2
    · refine (congrArg (fun x => x.2.2.1) e).trans ?_
      dsimp only
      exact pieceB_sum c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2
    · refine (congrArg (fun x => x.2.2.2) e).trans ?_
      dsimp only
      exact pieceB_acc c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) (fun h => h1 ((flashLast_iff t).mp h)) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2

set_option maxHeartbeats 1000000 in
theorem flashAt_last (t : Fin cfg1.N) (h1 : t.val % 8 = 7) :
    (flashAt V c t.val t.isLt).1 = k1_pay3 (flashAt V c t.val t.isLt).2.2.2 (flashAt V c t.val t.isLt).2.2.1 := by
  have h0 : ¬t.val % 8 = 0 := by omega
  obtain ⟨-, hl, ha⟩ := flashAt_next V c t h0
  rw [hl, ha]
  have e := flashAt_C V c t h0 h1
  refine (congrArg (fun x => x.1) e).trans ?_
  dsimp only
  exact pieceC_out c (grid1.coords t) (fm0 t) (fh0 t) (fm1 t) (fh1 t) (fm2 t) (fh2 t) (fm3 t) (fh3 t) scMax (Memref.isWhole_whole _) scSum (Memref.isWhole_whole _) scAcc (Memref.isWhole_whole _) (fun h => h0 ((flashFirst_iff t).mp h)) ((flashLast_iff t).mpr h1) (flashBlock V c 0 t) (flashBlock V c 1 t) (flashBlock V c 2 t) (flashAt V c (t.val - 1) (Nat.lt_of_le_of_lt (Nat.sub_le _ _) t.isLt)).2.1 (flashAt V c (t.val - 1) (Nat.lt_of_le_of_lt (Nat.sub_le _ _) t.isLt)).2.2.1 (flashAt V c (t.val - 1) (Nat.lt_of_le_of_lt (Nat.sub_le _ _) t.isLt)).2.2.2

end Cert.KernelIdeal.Hand

end
-- ==== Proof.OnlineDefs.lean ====
/-
  The online (block by block) softmax of one query row, as functions on the extended reals.
  A block of scores `s : Fin n → EReal` updates a running maximum `m`, a running sum `l` of
  exponentials and, per output column, a running weighted sum `a` of the values `v`:
    m' = max m (max over the block of s)
    l' = exp (m - m') * l + Σ_k exp (s k - m')
    a' = exp (m - m') * a + Σ_k exp (s k - m') * v k
  started from m = -∞, l = 0, a = 0.  `runM`, `runL`, `runA` are the state after the first `j` blocks.
-/
import Idealize.ShloMosaic.PureOps.Ideal

noncomputable section

open scoped BigOperators

namespace Cert.Online

open Idealize.ShloMosaic

variable {n : ℕ}

/-- The maximum of one block of scores, folded from minus infinity. -/
def blockMax (s : Fin n → EReal) : EReal := (Finset.univ : Finset (Fin n)).fold max ⊥ s

/-- The running maximum after one more block. -/
def newMax (m : EReal) (s : Fin n → EReal) : EReal := max m (blockMax s)

/-- The running sum of exponentials after one more block: the old sum rescaled to the new maximum,
    plus the block's exponentials. -/
def newSum (m l : EReal) (s : Fin n → EReal) : EReal :=
  Ideal.exp (m - newMax m s) * l + ∑ k : Fin n, Ideal.exp (s k - newMax m s)

/-- The running weighted sum of one value column after one more block. -/
def newAcc (m a : EReal) (s v : Fin n → EReal) : EReal :=
  Ideal.exp (m - newMax m s) * a + ∑ k : Fin n, Ideal.exp (s k - newMax m s) * v k

variable {B : ℕ}

/-- The running maximum after the first `j` blocks. -/
def runM (x : Fin B → Fin n → EReal) : (j : ℕ) → j ≤ B → EReal
  | 0, _ => ⊥
  | j + 1, h => newMax (runM x j (Nat.le_of_succ_le h)) (x ⟨j, h⟩)

/-- The running sum of exponentials after the first `j` blocks. -/
def runL (x : Fin B → Fin n → EReal) : (j : ℕ) → j ≤ B → EReal
  | 0, _ => 0
  | j + 1, h => newSum (runM x j (Nat.le_of_succ_le h)) (runL x j (Nat.le_of_succ_le h)) (x ⟨j, h⟩)

/-- The running weighted sum of the value column `v` after the first `j` blocks. -/
def runA (x v : Fin B → Fin n → EReal) : (j : ℕ) → j ≤ B → EReal
  | 0, _ => 0
  | j + 1, h => newAcc (runM x j (Nat.le_of_succ_le h)) (runA x v j (Nat.le_of_succ_le h)) (x ⟨j, h⟩) (v ⟨j, h⟩)

end Cert.Online

end
-- ==== Proof.LibUnitAxes.lean ====
/-
  Layout operations around a unit axis, read at an index written by coordinates.

  A rank-2 array `[a, b]` cast to `[a, b, 1]` keeps every element where it was (the new axis has one
  coordinate); a broadcast of `[a, b, 1]` to `[a, b, c]` repeats each element along the new last axis; a
  broadcast of `[1, a, b]` to `[m, a, b]` repeats the one slab along the new first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j ⟨0, Nat.one_pos⟩) :=
  broadcastTo_apply x h _ _ (fun d => match d with
    | ⟨0, _⟩ => by
        show i.val = if a = 1 then 0 else i.val
        split
        · omega
        · rfl
    | ⟨1, _⟩ => by
        show j.val = if b = 1 then 0 else j.val
        split
        · omega
        · rfl
    | ⟨2, _⟩ => by
        show 0 = if (1 : ℕ) = 1 then 0 else k.val
        rw [if_pos rfl])

/-- A `[1, a, b]` array broadcast to `[m, a, b]` reads, at `(k, i, j)`, the operand at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 ⟨0, Nat.one_pos⟩ i j) :=
  broadcastTo_apply x h _ _ (fun d => match d with
    | ⟨0, _⟩ => by
        show 0 = if (1 : ℕ) = 1 then 0 else k.val
        rw [if_pos rfl]
    | ⟨1, _⟩ => by
        show i.val = if a = 1 then 0 else i.val
        split
        · omega
        · rfl
    | ⟨2, _⟩ => by
        show j.val = if b = 1 then 0 else j.val
        split
        · omega
        · rfl)

end Idealize.ShloMosaic.ValueIdx
-- ==== Proof.LibIdeal.lean ====
import Idealize.ShloMosaic.PureOps.Ideal.Laws
import Idealize.ShloMosaic.Lib.IdealHost

/-!
# Small facts about the exact extended-real reading of float operations

Bit patterns of a few single-precision constants as extended reals; the 0/1 value of a disjunction of two
"not equal" tests; a maximum folded over two entries; a finite sum of real numbers embedded in the extended reals.
-/

noncomputable section

namespace Cert.LibIdeal

open Idealize.ShloMosaic
open scoped BigOperators

/-- The single-precision pattern `0xBF000000` is `-1/2`. -/
theorem ofBits_neg_half_f32 : Ideal.ofBits .f32 0xBF000000#32 = ((-1 / 2 : ℝ) : EReal) := by
  simp [Ideal.ofBits, Ideal.ieee, -EReal.coe_mul]; norm_num

/-- The single-precision pattern `0xFF800000` is `-∞`. -/
theorem ofBits_neg_inf_f32 : Ideal.ofBits .f32 0xFF800000#32 = (⊥ : EReal) := by
  simp [Ideal.ofBits, Ideal.ieee]

/-- Two "not equal to `z`" tests, or-ed and read as a float, give `1` when either holds and `0` otherwise. -/
theorem uitofp_ori_une (a b z : EReal) :
    (FloatOps.uitofp (F := Ideal) .f32 (IntOp.ori (FloatOps.cmpf (F := Ideal) (φ := .f32) .une a z)
      (FloatOps.cmpf (F := Ideal) (φ := .f32) .une b z)) : EReal) = if a ≠ z ∨ b ≠ z then 1 else 0 := by
  show (((IntOp.ori (Ideal.cmp .une a z) (Ideal.cmp .une b z)).toNat : ℝ) : EReal) = _
  unfold Ideal.cmp IntOp.ori
  by_cases ha : a = z <;> by_cases hb : b = z <;> simp [ha, hb]

/-- A maximum folded over two entries from `b`. -/
theorem fold_max_fin2 (b : EReal) (f : Fin 2 → EReal) :
    (Finset.univ : Finset (Fin 2)).fold max b f = max b (max (f 0) (f 1)) := by
  apply le_antisymm
  · refine (Finset.fold_max_le _).mpr ⟨le_max_left _ _, fun k _ => ?_⟩
    fin_cases k
    · exact le_max_of_le_right (le_max_left _ _)
    · exact le_max_of_le_right (le_max_right _ _)
  · refine max_le ((Finset.le_fold_max _).mpr (Or.inl le_rfl)) (max_le ?_ ?_)
    · exact (Finset.le_fold_max _).mpr (Or.inr ⟨0, Finset.mem_univ _, le_rfl⟩)
    · exact (Finset.le_fold_max _).mpr (Or.inr ⟨1, Finset.mem_univ _, le_rfl⟩)

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.LibIdeal

end
-- ==== Proof.FlashValue.lean ====
/-
  The flash-attention kernel body's arithmetic, read at an index on the extended reals.

  Each payload of the body is a pure term over the vectors read before it.  At the exact instance the
  floats are extended reals, every operation is exact and a format change is the identity, so each
  payload read at an index `(0, r, c)` is an expression in the entries of its operands:
    * the scores of query row `r` against the block's keys are dot products over the features;
    * the new running maximum is the old one against the block's maximum;
    * the new running sum and accumulator rescale the old ones to the new maximum and add the block's
      exponentials (weighted by the value column for the accumulator).
-/
import proofs.«100597_j51634096833128_2_alg».proof.Proof.Gen.KernelIdeal.Skeleton
import proofs.«100597_j51634096833128_2_alg».proof.Proof.OnlineDefs
import proofs.«100597_j51634096833128_2_alg».proof.Proof.LibUnitAxes
import proofs.«100597_j51634096833128_2_alg».proof.Proof.LibIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FlashValue

open Idealize.ShloMosaic Idealize.ShloMosaic.ValueIdx Cert.KernelIdeal Cert.KernelIdeal.Gen Cert.Online

/-- The scores of query row `r` against the block's 512 keys: dot products over the 1024 features. -/
def scores (q : Vec Ideal S1x1024x1024 .bf16) (kb : Vec Ideal S1x512x1024 .bf16) (r : Fin 1024) : Fin 512 → EReal :=
  fun k => ∑ h : Fin 1024, q (ix3 (0 : Fin 1) r h) * kb (ix3 (0 : Fin 1) k h)

/-- Equal second summands give equal sums. -/
theorem add_eq_add_left_of_eq {a b c : EReal} (h : b = c) : a + b = a + c := congrArg (fun z => a + z) h

/-- The running maximum starts at minus infinity. -/
theorem pay4_apply (j : S1x1024x1.Idx) : k1_pay4 (F := Ideal) j = ⊥ := by
  unfold k1_pay4
  rw [shapeCast_self]
  exact Cert.LibIdeal.ofBits_neg_inf_f32

/-- The running sum starts at zero. -/
theorem pay5_apply (j : S1x1024x1.Idx) : k1_pay5 (F := Ideal) j = 0 := by
  unfold k1_pay5
  rw [shapeCast_self]
  exact Ideal.ofBits_zero_f32

/-- The accumulator starts at zero. -/
theorem pay6_apply (j : S1x1024x1024.Idx) : k1_pay6 (F := Ideal) j = 0 := by
  unfold k1_pay6
  rw [shapeCast_self]
  exact Ideal.ofBits_zero_f32

/-- Storing the running maximum casts it to its own shape: the identity. -/
theorem pay2_apply (x : FVec Ideal S1x1024x1 .f32) : k1_pay2 (F := Ideal) x = x := by
  unfold k1_pay2
  exact shapeCast_self _ _

/-- The final division: each accumulator entry over its row's running sum. -/
theorem pay3_apply (acc : Vec Ideal S1x1024x1024 .f32) (l : Vec Ideal S1x1024x1 .f32) (r d : Fin 1024) :
    k1_pay3 (F := Ideal) acc l (ix3 (0 : Fin 1) r d) = Ideal.div (acc (ix3 (0 : Fin 1) r d)) (l (ix3 (0 : Fin 1) r (0 : Fin 1))) := by
  unfold k1_pay3
  rw [divf_apply]
  exact congrArg _ (broadcastTo_ab1_abc_apply l _ (0 : Fin 1) r d)

/-! ## The first matmul: queries against the block's keys -/

theorem dot1_lhs_0 (i : S1x1024x512.Idx) (c : dot_S1x1024x1024_S1x512x1024_S1x1024x512_2_2_1_1_0_0.contr.Idx) : (dot_S1x1024x1024_S1x512x1024_S1x1024x512_2_2_1_1_0_0.lhsIdx i c 0).val = (i 0).val := by
  unfold DotDims.lhsIdx
  rw [dif_pos (show (0 : Fin S1x1024x1024.rank) ∈ dot_S1x1024x1024_S1x512x1024_S1x1024x512_2_2_1_1_0_0.lhsBatch by decide)]
  rfl
theorem dot1_lhs_1 (i : S1x1024x512.Idx) (c : dot_S1x1024x1024_S1x512x1024_S1x1024x512_2_2_1_1_0_0.contr.Idx) : (dot_S1x1024x1024_S1x512x1024_S1x1024x512_2_2_1_1_0_0.lhsIdx i c 1).val = (i 1).val := by
  unfold DotDims.lhsIdx
  rw [dif_neg (show ¬(1 : Fin S1x1024x1024.rank) ∈ dot_S1x1024x1024_S1x512x1024_S1x1024x512_2_2_1_1_0_0.lhsBatch by decide),
    dif_pos (show (1 : Fin S1x1024x1024.rank) ∈ dot_S1x1024x1024_S1x512x1024_S1x1024x512_2_2_1_1_0_0.lhsNonContracting by decide)]
  rfl
theorem dot1_lhs_2 (i : S1x1024x512.Idx) (c : dot_S1x1024x1024_S1x512x1024_S1x1024x512_2_2_1_1_0_0.contr.Idx) : (dot_S1x1024x1024_S1x512x1024_S1x1024x512_2_2_1_1_0_0.lhsIdx i c 2).val = (c ⟨0, by decide⟩).val :=
  dot_S1x1024x1024_S1x512x1024_S1x1024x512_2_2_1_1_0_0.lhsIdx_val_of_single rfl i c
theorem dot1_rhs_0 (i : S1x1024x512.Idx) (c : dot_S1x1024x1024_S1x512x1024_S1x1024x512_2_2_1_1_0_0.contr.Idx) : (dot_S1x1024x1024_S1x512x1024_S1x1024x512_2_2_1_1_0_0.rhsIdx i c 0).val = (i 0).val := by
  unfold DotDims.rhsIdx
  rw [dif_pos (show (0 : Fin S1x512x1024.rank) ∈ dot_S1x1024x1024_S1x512x1024_S1x1024x512_2_2_1_1_0_0.rhsBatch by decide)]
  rfl
theorem dot1_rhs_1 (i : S1x1024x512.Idx) (c : dot_S1x1024x1024_S1x512x1024_S1x1024x512_2_2_1_1_0_0.contr.Idx) : (dot_S1x1024x1024_S1x512x1024_S1x1024x512_2_2_1_1_0_0.rhsIdx i c 1).val = (i 2).val := by
  unfold DotDims.rhsIdx
  rw [dif_neg (show ¬(1 : Fin S1x512x1024.rank) ∈ dot_S1x1024x1024_S1x512x1024_S1x1024x512_2_2_1_1_0_0.rhsBatch by decide),
    dif_pos (show (1 : Fin S1x512x1024.rank) ∈ dot_S1x1024x1024_S1x512x1024_S1x1024x512_2_2_1_1_0_0.rhsNonContracting by decide)]
  rfl
theorem dot1_rhs_2 (i : S1x1024x512.Idx) (c : dot_S1x1024x1024_S1x512x1024_S1x1024x512_2_2_1_1_0_0.contr.Idx) : (dot_S1x1024x1024_S1x512x1024_S1x1024x512_2_2_1_1_0_0.rhsIdx i c 2).val = (c ⟨0, by decide⟩).val :=
  dot_S1x1024x1024_S1x512x1024_S1x1024x512_2_2_1_1_0_0.rhsIdx_val_of_single rfl i c

/-- The left operand's index of the first matmul at output `(0, r, k)` and feature `h` is `(0, r, h)`. -/
theorem dot1_lhsIdx (r : Fin 1024) (k : Fin 512) (h : Fin 1024) :
    dot_S1x1024x1024_S1x512x1024_S1x1024x512_2_2_1_1_0_0.lhsIdx (ix3 (0 : Fin 1) r k) ((contrEquiv1 dot_S1x1024x1024_S1x512x1024_S1x1024x512_2_2_1_1_0_0 1024 rfl rfl).symm h) = ix3 (0 : Fin 1) r h := by
  have hk := contrEquiv1_symm_val dot_S1x1024x1024_S1x512x1024_S1x1024x512_2_2_1_1_0_0 1024 rfl rfl h
  refine funext fun a => Fin.ext ?_
  match a with
  | ⟨0, _⟩ => exact dot1_lhs_0 _ _
  | ⟨1, _⟩ => exact dot1_lhs_1 _ _
  | ⟨2, _⟩ => exact (dot1_lhs_2 _ _).trans hk

/-- The right operand's index of the first matmul at output `(0, r, k)` and feature `h` is `(0, k, h)`. -/
theorem dot1_rhsIdx (r : Fin 1024) (k : Fin 512) (h : Fin 1024) :
    dot_S1x1024x1024_S1x512x1024_S1x1024x512_2_2_1_1_0_0.rhsIdx (ix3 (0 : Fin 1) r k) ((contrEquiv1 dot_S1x1024x1024_S1x512x1024_S1x1024x512_2_2_1_1_0_0 1024 rfl rfl).symm h) = ix3 (0 : Fin 1) k h := by
  have hk := contrEquiv1_symm_val dot_S1x1024x1024_S1x512x1024_S1x1024x512_2_2_1_1_0_0 1024 rfl rfl h
  refine funext fun a => Fin.ext ?_
  match a with
  | ⟨0, _⟩ => exact dot1_rhs_0 _ _
  | ⟨1, _⟩ => exact dot1_rhs_1 _ _
  | ⟨2, _⟩ => exact (dot1_rhs_2 _ _).trans hk

/-- The first matmul into the zero splat, read at `(0, r, k)`: the dot product of query row `r` and key `k`. -/
theorem matmul1_apply (x : FVec Ideal S1x1024x1024 .bf16) (y : FVec Ideal S1x512x1024 .bf16) (r : Fin 1024) (k : Fin 512) :
    matmul dot_S1x1024x1024_S1x512x1024_S1x1024x512_2_2_1_1_0_0 none x y (constant S1x1024x512 .f32 0x00000000#32) (ix3 (0 : Fin 1) r k)
      = ∑ h : Fin 1024, x (ix3 (0 : Fin 1) r h) * y (ix3 (0 : Fin 1) k h) := by
  simp only [matmul]
  rw [Ideal.matmul_constant_zero_apply, ← Equiv.sum_comp (contrEquiv1 dot_S1x1024x1024_S1x512x1024_S1x1024x512_2_2_1_1_0_0 1024 rfl rfl).symm]
  refine Finset.sum_congr rfl fun h _ => ?_
  rw [dot1_lhsIdx, dot1_rhsIdx]

/-- The block's scores, read at `(0, r, k)`. -/
theorem pay8_apply (q : Vec Ideal S1x1024x1024 .bf16) (kb : Vec Ideal S1x512x1024 .bf16) (r : Fin 1024) (k : Fin 512) :
    k1_pay8 (F := Ideal) q kb (ix3 (0 : Fin 1) r k) = scores q kb r k := by
  unfold k1_pay8
  rw [shapeCast_self, shapeCast_self]
  exact matmul1_apply q kb r k

/-! ## The lane reductions, the cast that restores the unit axis, and the broadcasts along the lanes -/

/-- The source index over `(0, r)` with lane coordinate `k` is `(0, r, k)`. -/
theorem lane_lift (r : Fin 1024) (k : Fin 512) :
    reduces_S1x1024x512_S1x1024.lift (ix2 (0 : Fin 1) r) k = ix3 (0 : Fin 1) r k := by
  refine funext fun a => Fin.ext ?_
  match a with
  | ⟨0, _⟩ => rfl
  | ⟨1, _⟩ => rfl
  | ⟨2, _⟩ => rfl

/-- The lane maximum from minus infinity, read at row `r`: the block maximum of the row's entries. -/
theorem laneMax_apply (x : FVec Ideal S1x1024x512 .f32) (hφ : FKind.Formats .f32)
    (hacc : (0xFF800000#32 : BitVec 32) = FKind.maximumf.neutral .f32 hφ) (r : Fin 1024) :
    multiReduction .maximumf [2] S1x1024 x 0xFF800000#32 reduces_S1x1024x512_S1x1024 hφ hacc (ix2 (0 : Fin 1) r)
      = blockMax (fun k : Fin 512 => x (ix3 (0 : Fin 1) r k)) := by
  rw [Ideal.multiReduction_maximumf_single]
  have h1 : (FloatOps.ofBits .f32 0xFF800000#32 : Ideal .f32) = (⊥ : EReal) := Cert.LibIdeal.ofBits_neg_inf_f32
  have h2 : (x ∘ reduces_S1x1024x512_S1x1024.lift (ix2 (0 : Fin 1) r)) = fun k : Fin 512 => x (ix3 (0 : Fin 1) r k) :=
    funext fun k => congrArg x (lane_lift r k)
  exact congrArg₂ (fun b f => (Finset.univ : Finset (Fin 512)).fold max b f) h1 h2

/-- The lane sum from zero, read at row `r`: the sum of the row's entries. -/
theorem laneSum_apply (x : FVec Ideal S1x1024x512 .f32) (hφ : FKind.Formats .f32)
    (hacc : (0x00000000#32 : BitVec 32) = FKind.add.neutral .f32 hφ) (r : Fin 1024) :
    multiReduction .add [2] S1x1024 x 0x00000000#32 reduces_S1x1024x512_S1x1024 hφ hacc (ix2 (0 : Fin 1) r)
      = ∑ k : Fin 512, x (ix3 (0 : Fin 1) r k) := by
  rw [Ideal.multiReduction_add_single]
  exact Finset.sum_congr rfl fun k _ => congrArg x (lane_lift r k)

/-- A `[1, 1024, 1]` column broadcast along `c` lanes reads, at `(0, r, k)`, the column at `(0, r, 0)`. -/
theorem bcastLane_apply {c : ℕ} (x : (⟨3, ![1, 1024, 1]⟩ : Shape).Idx → EReal)
    (h : (⟨3, ![1, 1024, 1]⟩ : Shape).Broadcasts ⟨3, ![1, 1024, c]⟩) (r : Fin 1024) (k : Fin c) :
    broadcastTo ⟨3, ![1, 1024, c]⟩ x h (ix3 (0 : Fin 1) r k) = x (ix3 (0 : Fin 1) r (0 : Fin 1)) :=
  broadcastTo_ab1_abc_apply x h (0 : Fin 1) r k

/-- The new running maximum of row `r`: the old one against the block's maximum score. -/
theorem pay9_apply (q : Vec Ideal S1x1024x1024 .bf16) (kb : Vec Ideal S1x512x1024 .bf16) (m : Vec Ideal S1x1024x1 .f32) (r : Fin 1024) :
    k1_pay9 (F := Ideal) q kb m (ix3 (0 : Fin 1) r (0 : Fin 1)) = newMax (m (ix3 (0 : Fin 1) r (0 : Fin 1))) (scores q kb r) := by
  unfold k1_pay9
  rw [maximumf_apply]
  unfold newMax
  refine congrArg (max _) ?_
  refine (shapeCast_ab_ab1_apply _ _ (0 : Fin 1) r (0 : Fin 1)).trans ?_
  refine (laneMax_apply _ _ _ r).trans ?_
  exact congrArg blockMax (funext fun k => pay8_apply q kb r k)

/-- The factor that rescales row `r`'s old sum and accumulator to the new maximum. -/
theorem pay10_apply (q : Vec Ideal S1x1024x1024 .bf16) (kb : Vec Ideal S1x512x1024 .bf16) (m : Vec Ideal S1x1024x1 .f32) (r : Fin 1024) :
    k1_pay10 (F := Ideal) q kb m m (ix3 (0 : Fin 1) r (0 : Fin 1))
      = Ideal.exp (m (ix3 (0 : Fin 1) r (0 : Fin 1)) - newMax (m (ix3 (0 : Fin 1) r (0 : Fin 1))) (scores q kb r)) := by
  unfold k1_pay10
  show Ideal.exp (m (ix3 (0 : Fin 1) r (0 : Fin 1)) - k1_pay9 (F := Ideal) q kb m (ix3 (0 : Fin 1) r (0 : Fin 1))) = _
  rw [pay9_apply]

/-- The block's exponentials: each score of row `r` against the new maximum. -/
theorem pay11_apply (q : Vec Ideal S1x1024x1024 .bf16) (kb : Vec Ideal S1x512x1024 .bf16) (m : Vec Ideal S1x1024x1 .f32) (r : Fin 1024) (k : Fin 512) :
    k1_pay11 (F := Ideal) q kb m (ix3 (0 : Fin 1) r k)
      = Ideal.exp (scores q kb r k - newMax (m (ix3 (0 : Fin 1) r (0 : Fin 1))) (scores q kb r)) := by
  unfold k1_pay11
  show Ideal.exp (k1_pay8 (F := Ideal) q kb (ix3 (0 : Fin 1) r k)
      - broadcastTo S1x1024x512 (k1_pay9 (F := Ideal) q kb m) broadcasts_S1x1024x1_S1x1024x512 (ix3 (0 : Fin 1) r k)) = _
  rw [pay8_apply, bcastLane_apply, pay9_apply]

/-- The new running sum of row `r`. -/
theorem pay12_apply (q : Vec Ideal S1x1024x1024 .bf16) (kb : Vec Ideal S1x512x1024 .bf16) (m l : Vec Ideal S1x1024x1 .f32) (r : Fin 1024) :
    k1_pay12 (F := Ideal) q kb m m l (ix3 (0 : Fin 1) r (0 : Fin 1))
      = newSum (m (ix3 (0 : Fin 1) r (0 : Fin 1))) (l (ix3 (0 : Fin 1) r (0 : Fin 1))) (scores q kb r) := by
  unfold k1_pay12
  rw [shapeCast_self, addf_apply, mulf_apply, pay10_apply]
  unfold newSum
  refine add_eq_add_left_of_eq ?_
  refine (shapeCast_ab_ab1_apply _ _ (0 : Fin 1) r (0 : Fin 1)).trans ?_
  refine (laneSum_apply _ _ _ r).trans ?_
  exact Finset.sum_congr rfl fun k _ => pay11_apply q kb m r k

/-! ## The second matmul: the block's exponentials against the value columns -/

theorem dot2_lhs_0 (i : S1x1024x1024.Idx) (c : dot_S1x1024x512_S1x512x1024_S1x1024x1024_2_1_1_2_0_0.contr.Idx) : (dot_S1x1024x512_S1x512x1024_S1x1024x1024_2_1_1_2_0_0.lhsIdx i c 0).val = (i 0).val := by
  unfold DotDims.lhsIdx
  rw [dif_pos (show (0 : Fin S1x1024x512.rank) ∈ dot_S1x1024x512_S1x512x1024_S1x1024x1024_2_1_1_2_0_0.lhsBatch by decide)]
  rfl
theorem dot2_lhs_1 (i : S1x1024x1024.Idx) (c : dot_S1x1024x512_S1x512x1024_S1x1024x1024_2_1_1_2_0_0.contr.Idx) : (dot_S1x1024x512_S1x512x1024_S1x1024x1024_2_1_1_2_0_0.lhsIdx i c 1).val = (i 1).val := by
  unfold DotDims.lhsIdx
  rw [dif_neg (show ¬(1 : Fin S1x1024x512.rank) ∈ dot_S1x1024x512_S1x512x1024_S1x1024x1024_2_1_1_2_0_0.lhsBatch by decide),
    dif_pos (show (1 : Fin S1x1024x512.rank) ∈ dot_S1x1024x512_S1x512x1024_S1x1024x1024_2_1_1_2_0_0.lhsNonContracting by decide)]
  rfl
theorem dot2_lhs_2 (i : S1x1024x1024.Idx) (c : dot_S1x1024x512_S1x512x1024_S1x1024x1024_2_1_1_2_0_0.contr.Idx) : (dot_S1x1024x512_S1x512x1024_S1x1024x1024_2_1_1_2_0_0.lhsIdx i c 2).val = (c ⟨0, by decide⟩).val :=
  dot_S1x1024x512_S1x512x1024_S1x1024x1024_2_1_1_2_0_0.lhsIdx_val_of_single rfl i c
theorem dot2_rhs_0 (i : S1x1024x1024.Idx) (c : dot_S1x1024x512_S1x512x1024_S1x1024x1024_2_1_1_2_0_0.contr.Idx) : (dot_S1x1024x512_S1x512x1024_S1x1024x1024_2_1_1_2_0_0.rhsIdx i c 0).val = (i 0).val := by
  unfold DotDims.rhsIdx
  rw [dif_pos (show (0 : Fin S1x512x1024.rank) ∈ dot_S1x1024x512_S1x512x1024_S1x1024x1024_2_1_1_2_0_0.rhsBatch by decide)]
  rfl
theorem dot2_rhs_1 (i : S1x1024x1024.Idx) (c : dot_S1x1024x512_S1x512x1024_S1x1024x1024_2_1_1_2_0_0.contr.Idx) : (dot_S1x1024x512_S1x512x1024_S1x1024x1024_2_1_1_2_0_0.rhsIdx i c 1).val = (c ⟨0, by decide⟩).val :=
  dot_S1x1024x512_S1x512x1024_S1x1024x1024_2_1_1_2_0_0.rhsIdx_val_of_single rfl i c
theorem dot2_rhs_2 (i : S1x1024x1024.Idx) (c : dot_S1x1024x512_S1x512x1024_S1x1024x1024_2_1_1_2_0_0.contr.Idx) : (dot_S1x1024x512_S1x512x1024_S1x1024x1024_2_1_1_2_0_0.rhsIdx i c 2).val = (i 2).val := by
  unfold DotDims.rhsIdx
  rw [dif_neg (show ¬(2 : Fin S1x512x1024.rank) ∈ dot_S1x1024x512_S1x512x1024_S1x1024x1024_2_1_1_2_0_0.rhsBatch by decide),
    dif_pos (show (2 : Fin S1x512x1024.rank) ∈ dot_S1x1024x512_S1x512x1024_S1x1024x1024_2_1_1_2_0_0.rhsNonContracting by decide)]
  rfl

/-- The left operand's index of the second matmul at output `(0, r, d)` and key `k` is `(0, r, k)`. -/
theorem dot2_lhsIdx (r d : Fin 1024) (k : Fin 512) :
    dot_S1x1024x512_S1x512x1024_S1x1024x1024_2_1_1_2_0_0.lhsIdx (ix3 (0 : Fin 1) r d) ((contrEquiv1 dot_S1x1024x512_S1x512x1024_S1x1024x1024_2_1_1_2_0_0 512 rfl rfl).symm k) = ix3 (0 : Fin 1) r k := by
  have hk := contrEquiv1_symm_val dot_S1x1024x512_S1x512x1024_S1x1024x1024_2_1_1_2_0_0 512 rfl rfl k
  refine funext fun a => Fin.ext ?_
  match a with
  | ⟨0, _⟩ => exact dot2_lhs_0 _ _
  | ⟨1, _⟩ => exact dot2_lhs_1 _ _
  | ⟨2, _⟩ => exact (dot2_lhs_2 _ _).trans hk

/-- The right operand's index of the second matmul at output `(0, r, d)` and key `k` is `(0, k, d)`. -/
theorem dot2_rhsIdx (r d : Fin 1024) (k : Fin 512) :
    dot_S1x1024x512_S1x512x1024_S1x1024x1024_2_1_1_2_0_0.rhsIdx (ix3 (0 : Fin 1) r d) ((contrEquiv1 dot_S1x1024x512_S1x512x1024_S1x1024x1024_2_1_1_2_0_0 512 rfl rfl).symm k) = ix3 (0 : Fin 1) k d := by
  have hk := contrEquiv1_symm_val dot_S1x1024x512_S1x512x1024_S1x1024x1024_2_1_1_2_0_0 512 rfl rfl k
  refine funext fun a => Fin.ext ?_
  match a with
  | ⟨0, _⟩ => exact dot2_rhs_0 _ _
  | ⟨1, _⟩ => exact (dot2_rhs_1 _ _).trans hk
  | ⟨2, _⟩ => exact dot2_rhs_2 _ _

/-- The second matmul into the zero splat, read at `(0, r, d)`: row `r` of the left operand against column `d` of the values. -/
theorem matmul2_apply (p : FVec Ideal S1x1024x512 .bf16) (v : FVec Ideal S1x512x1024 .bf16) (r d : Fin 1024) :
    matmul dot_S1x1024x512_S1x512x1024_S1x1024x1024_2_1_1_2_0_0 none p v (constant S1x1024x1024 .f32 0x00000000#32) (ix3 (0 : Fin 1) r d)
      = ∑ k : Fin 512, p (ix3 (0 : Fin 1) r k) * v (ix3 (0 : Fin 1) k d) := by
  simp only [matmul]
  rw [Ideal.matmul_constant_zero_apply, ← Equiv.sum_comp (contrEquiv1 dot_S1x1024x512_S1x512x1024_S1x1024x1024_2_1_1_2_0_0 512 rfl rfl).symm]
  refine Finset.sum_congr rfl fun k _ => ?_
  rw [dot2_lhsIdx, dot2_rhsIdx]

/-- The new accumulator entry `(r, d)`: the old one rescaled to the new maximum, plus the block's exponentials
    weighted by value column `d`. -/
theorem pay1_apply (q : Vec Ideal S1x1024x1024 .bf16) (kb vb : Vec Ideal S1x512x1024 .bf16) (m : Vec Ideal S1x1024x1 .f32)
    (acc : Vec Ideal S1x1024x1024 .f32) (r d : Fin 1024) :
    k1_pay1 (F := Ideal) (k1_pay7 vb) (k1_pay10 q kb m m) (k1_pay11 q kb m) acc (ix3 (0 : Fin 1) r d)
      = newAcc (m (ix3 (0 : Fin 1) r (0 : Fin 1))) (acc (ix3 (0 : Fin 1) r d)) (scores q kb r) (fun k => vb (ix3 (0 : Fin 1) k d)) := by
  unfold k1_pay1 k1_pay7
  rw [shapeCast_self, shapeCast_self, addf_apply, mulf_apply, bcastLane_apply, pay10_apply, matmul2_apply]
  unfold newAcc
  refine add_eq_add_left_of_eq (Finset.sum_congr rfl fun k _ => ?_)
  rw [truncf_apply, pay11_apply]

end Cert.KernelIdeal.FlashValue

end
-- ==== Proof.FlashInduct.lean ====
/-
  The flash-attention kernel over its eight key blocks, as an induction on an abstract state family.

  The grid has 4 batches, 4 query tiles and 8 key blocks, the key block running fastest: point `t` has
  batch `t / 32`, query tile `(t / 8) % 4` and key block `t % 8`.  A point keeps a running maximum `m`,
  a running sum `l` and an accumulator `acc`; key block 0 starts them from minus infinity, zero and
  zero, every point updates them with its block of keys and values, and key block 7 divides the
  accumulator by the sum into the output block.  Row by row this is the online softmax recursion
  `runM`, `runL`, `runA` over the eight blocks of scores of that row, so the output entry is the
  quotient of `runA` and `runL` after all eight blocks.
-/
import proofs.«100597_j51634096833128_2_alg».proof.Proof.FlashValue

noncomputable section

open scoped BigOperators

namespace Cert.KernelIdeal.FlashInduct

open Idealize.ShloMosaic Idealize.ShloMosaic.ValueIdx Cert.KernelIdeal Cert.KernelIdeal.Gen Cert.Online Cert.KernelIdeal.FlashValue

/-- The state after a point: the output block, the running maximum, the running sum and the accumulator. -/
abbrev St := Vec Ideal S1x1024x1024 .f32 × Vec Ideal S1x1024x1 .f32 × Vec Ideal S1x1024x1 .f32 × Vec Ideal S1x1024x1024 .f32

/-- The state family at equal point numbers is the same state. -/
theorem st_congr (st : (n : ℕ) → n < 128 → St) {n n' : ℕ} (h : n = n') (hn : n < 128) (hn' : n' < 128) :
    st n hn = st n' hn' := by
  subst h; rfl

/-- Rank-3 indices with equal coordinates are equal. -/
theorem ix3_congr {n0 n1 n2 : ℕ} {a a' : Fin n0} {b b' : Fin n1} {c c' : Fin n2} (ha : a = a') (hb : b = b') (hc : c = c') :
    ix3 a b c = ix3 a' b' c' := by
  subst ha hb hc; rfl

/-- The induction over the key blocks of one query tile, at one row `r` and one column `d`: after key block `j`
    the three running quantities are the online recursion's after `j + 1` blocks. -/
theorem core
      (qb : Fin 128 → Vec Ideal S1x1024x1024 .bf16) (kb vb : Fin 128 → Vec Ideal S1x512x1024 .bf16)
      (st : (n : ℕ) → n < 128 → St)
      (hfirst : ∀ t : Fin 128, t.val % 8 = 0 →
          (st t.val t.isLt).2.1 = k1_pay2 (F := Ideal) (k1_pay9 (qb t) (kb t) (k1_pay4 (F := Ideal)))
        ∧ (st t.val t.isLt).2.2.1 = k1_pay12 (F := Ideal) (qb t) (kb t) (k1_pay4 (F := Ideal)) (k1_pay4 (F := Ideal)) (k1_pay5 (F := Ideal))
        ∧ (st t.val t.isLt).2.2.2 = k1_pay1 (F := Ideal) (k1_pay7 (vb t)) (k1_pay10 (qb t) (kb t) (k1_pay4 (F := Ideal)) (k1_pay4 (F := Ideal))) (k1_pay11 (qb t) (kb t) (k1_pay4 (F := Ideal))) (k1_pay6 (F := Ideal)))
      (hnext : ∀ (t : Fin 128) (h0 : ¬t.val % 8 = 0),
          (st t.val t.isLt).2.1 = k1_pay2 (F := Ideal) (k1_pay9 (qb t) (kb t) (st (t.val - 1) (by omega)).2.1)
        ∧ (st t.val t.isLt).2.2.1 = k1_pay12 (F := Ideal) (qb t) (kb t) (st (t.val - 1) (by omega)).2.1 (st (t.val - 1) (by omega)).2.1 (st (t.val - 1) (by omega)).2.2.1
        ∧ (st t.val t.isLt).2.2.2 = k1_pay1 (F := Ideal) (k1_pay7 (vb t)) (k1_pay10 (qb t) (kb t) (st (t.val - 1) (by omega)).2.1 (st (t.val - 1) (by omega)).2.1) (k1_pay11 (qb t) (kb t) (st (t.val - 1) (by omega)).2.1) (st (t.val - 1) (by omega)).2.2.2)
      (base : ℕ) (hbase : base % 8 = 0) (hb' : base + 7 < 128) (r d : Fin 1024) (x v : Fin 8 → Fin 512 → EReal)
      (hx : ∀ (j : ℕ) (hj : j < 8), scores (qb ⟨base + j, by omega⟩) (kb ⟨base + j, by omega⟩) r = x ⟨j, hj⟩)
      (hv : ∀ (j : ℕ) (hj : j < 8), (fun k : Fin 512 => vb ⟨base + j, by omega⟩ (ix3 (0 : Fin 1) k d)) = v ⟨j, hj⟩) :
      ∀ (j : ℕ) (hj : j < 8),
          (st (base + j) (by omega)).2.1 (ix3 (0 : Fin 1) r (0 : Fin 1)) = runM x (j + 1) (by omega)
        ∧ (st (base + j) (by omega)).2.2.1 (ix3 (0 : Fin 1) r (0 : Fin 1)) = runL x (j + 1) (by omega)
        ∧ (st (base + j) (by omega)).2.2.2 (ix3 (0 : Fin 1) r d) = runA x v (j + 1) (by omega) := by
  intro j
  induction j with
  | zero =>
    intro hj
    obtain ⟨h1, h2, h3⟩ := hfirst ⟨base + 0, by omega⟩ (by dsimp only; omega)
    dsimp only at h1 h2 h3
    refine ⟨?_, ?_, ?_⟩
    · rw [h1, pay2_apply, pay9_apply, pay4_apply, hx 0 hj]; rfl
    · rw [h2, pay12_apply, pay4_apply, pay5_apply, hx 0 hj]; rfl
    · rw [h3, pay1_apply, pay4_apply, pay6_apply, hx 0 hj, hv 0 hj]; rfl
  | succ j ih =>
    intro hj
    obtain ⟨i1, i2, i3⟩ := ih (by omega)
    obtain ⟨h1, h2, h3⟩ := hnext ⟨base + (j + 1), by omega⟩ (by dsimp only; omega)
    have e : st ((⟨base + (j + 1), by omega⟩ : Fin 128).val - 1) (by dsimp only; omega) = st (base + j) (by omega) :=
      st_congr st (by dsimp only; omega) _ _
    rw [e] at h1 h2 h3
    dsimp only at h1 h2 h3
    refine ⟨?_, ?_, ?_⟩
    · rw [h1, pay2_apply, pay9_apply, i1, hx (j + 1) hj]; rfl
    · rw [h2, pay12_apply, i1, i2, hx (j + 1) hj]; rfl
    · rw [h3, pay1_apply, i1, i3, hx (j + 1) hj, hv (j + 1) hj]; rfl

/-- THE CLOSED FORM: the output entry of batch `b`, query row `s` and column `d`, stored at key block 7 of the
    row's query tile, is the online recursion's weighted sum over its sum of exponentials after all eight key
    blocks of the row's scores against the batch's keys. -/
theorem flash_closed
      (qb : Fin 128 → Vec Ideal S1x1024x1024 .bf16) (kb vb : Fin 128 → Vec Ideal S1x512x1024 .bf16)
      (st : (n : ℕ) → n < 128 → St)
      (hfirst : ∀ t : Fin 128, t.val % 8 = 0 →
          (st t.val t.isLt).2.1 = k1_pay2 (F := Ideal) (k1_pay9 (qb t) (kb t) (k1_pay4 (F := Ideal)))
        ∧ (st t.val t.isLt).2.2.1 = k1_pay12 (F := Ideal) (qb t) (kb t) (k1_pay4 (F := Ideal)) (k1_pay4 (F := Ideal)) (k1_pay5 (F := Ideal))
        ∧ (st t.val t.isLt).2.2.2 = k1_pay1 (F := Ideal) (k1_pay7 (vb t)) (k1_pay10 (qb t) (kb t) (k1_pay4 (F := Ideal)) (k1_pay4 (F := Ideal))) (k1_pay11 (qb t) (kb t) (k1_pay4 (F := Ideal))) (k1_pay6 (F := Ideal)))
      (hnext : ∀ (t : Fin 128) (h0 : ¬t.val % 8 = 0),
          (st t.val t.isLt).2.1 = k1_pay2 (F := Ideal) (k1_pay9 (qb t) (kb t) (st (t.val - 1) (by omega)).2.1)
        ∧ (st t.val t.isLt).2.2.1 = k1_pay12 (F := Ideal) (qb t) (kb t) (st (t.val - 1) (by omega)).2.1 (st (t.val - 1) (by omega)).2.1 (st (t.val - 1) (by omega)).2.2.1
        ∧ (st t.val t.isLt).2.2.2 = k1_pay1 (F := Ideal) (k1_pay7 (vb t)) (k1_pay10 (qb t) (kb t) (st (t.val - 1) (by omega)).2.1 (st (t.val - 1) (by omega)).2.1) (k1_pay11 (qb t) (kb t) (st (t.val - 1) (by omega)).2.1) (st (t.val - 1) (by omega)).2.2.2)
      (hlast : ∀ t : Fin 128, t.val % 8 = 7 → (st t.val t.isLt).1 = k1_pay3 (F := Ideal) (st t.val t.isLt).2.2.2 (st t.val t.isLt).2.2.1)
      (Q K Vv : S4x4096x1024.Idx → EReal)
      (hq : ∀ (t : Fin 128) (r h : Fin 1024), qb t (ix3 (0 : Fin 1) r h) = Q (ix3 (⟨t.val / 32, by omega⟩ : Fin 4) (⟨1024 * ((t.val / 8) % 4) + r.val, by omega⟩ : Fin 4096) h))
      (hk : ∀ (t : Fin 128) (k : Fin 512) (h : Fin 1024), kb t (ix3 (0 : Fin 1) k h) = K (ix3 (⟨t.val / 32, by omega⟩ : Fin 4) (⟨512 * (t.val % 8) + k.val, by omega⟩ : Fin 4096) h))
      (hv : ∀ (t : Fin 128) (k : Fin 512) (h : Fin 1024), vb t (ix3 (0 : Fin 1) k h) = Vv (ix3 (⟨t.val / 32, by omega⟩ : Fin 4) (⟨512 * (t.val % 8) + k.val, by omega⟩ : Fin 4096) h))
      (b : Fin 4) (s : Fin 4096) (d : Fin 1024) :
      (st (32 * b.val + 8 * (s.val / 1024) + 7) (by omega)).1 (ix3 (0 : Fin 1) (⟨s.val % 1024, Nat.mod_lt _ (by norm_num)⟩ : Fin 1024) d)
        = Ideal.div (runA (fun (j : Fin 8) (k : Fin 512) => ∑ h : Fin 1024, Q (ix3 b s h) * K (ix3 b (⟨512 * j.val + k.val, by omega⟩ : Fin 4096) h))
                          (fun (j : Fin 8) (k : Fin 512) => Vv (ix3 b (⟨512 * j.val + k.val, by omega⟩ : Fin 4096) d)) 8 le_rfl)
                    (runL (fun (j : Fin 8) (k : Fin 512) => ∑ h : Fin 1024, Q (ix3 b s h) * K (ix3 b (⟨512 * j.val + k.val, by omega⟩ : Fin 4096) h)) 8 le_rfl) := by
  have hbv := b.isLt
  have hsv := s.isLt
  have hbase : (32 * b.val + 8 * (s.val / 1024)) % 8 = 0 := by omega
  have hb' : 32 * b.val + 8 * (s.val / 1024) + 7 < 128 := by omega
  obtain ⟨c1, c2, c3⟩ := core qb kb vb st hfirst hnext (32 * b.val + 8 * (s.val / 1024)) hbase hb'
    (⟨s.val % 1024, Nat.mod_lt _ (by norm_num)⟩ : Fin 1024) d
    (fun (j : Fin 8) (k : Fin 512) => ∑ h : Fin 1024, Q (ix3 b s h) * K (ix3 b (⟨512 * j.val + k.val, by omega⟩ : Fin 4096) h))
    (fun (j : Fin 8) (k : Fin 512) => Vv (ix3 b (⟨512 * j.val + k.val, by omega⟩ : Fin 4096) d))
    (fun j hj => by
      funext k
      have hkv := k.isLt
      show ∑ h : Fin 1024, qb _ (ix3 (0 : Fin 1) _ h) * kb _ (ix3 (0 : Fin 1) k h)
        = ∑ h : Fin 1024, Q (ix3 b s h) * K (ix3 b (⟨512 * j + k.val, by omega⟩ : Fin 4096) h)
      refine Finset.sum_congr rfl fun h _ => ?_
      rw [hq, hk]
      refine congrArg₂ (fun y z : EReal => y * z)
        (congrArg Q (ix3_congr (Fin.ext ?_) (Fin.ext ?_) rfl)) (congrArg K (ix3_congr (Fin.ext ?_) (Fin.ext ?_) rfl))
      all_goals (dsimp only; omega))
    (fun j hj => by
      funext k
      have hkv := k.isLt
      show vb _ (ix3 (0 : Fin 1) k d) = Vv (ix3 b (⟨512 * j + k.val, by omega⟩ : Fin 4096) d)
      rw [hv]
      refine congrArg Vv (ix3_congr (Fin.ext ?_) (Fin.ext ?_) rfl)
      all_goals (dsimp only; omega))
    7 (by norm_num)
  have hl := hlast ⟨32 * b.val + 8 * (s.val / 1024) + 7, hb'⟩ (by dsimp only; omega)
  dsimp only at hl
  rw [hl, pay3_apply, c3, c2]

end Cert.KernelIdeal.FlashInduct

end
-- ==== Proof.FlashBlocks.lean ====
/-
  The attention kernel's input blocks, read at an index.  The grid is (batch 4) × (query tiles 4) × (key blocks 8),
  the key-block coordinate running fastest: point t works on batch t / 32, query tile (t / 8) mod 4 and key block
  t mod 8.  The query window's block at point t is rows 1024 · ((t / 8) mod 4) … + 1023 of batch t / 32 of the
  query array; the key and value windows' blocks are rows 512 · (t mod 8) … + 511 of the same batch of theirs.
  An element of a block sits in its array, on each axis, at block index × block size + its coordinate in the block.
-/
import proofs.«100597_j51634096833128_2_alg».proof.Proof.KI.FlashBase
import Idealize.ShloMosaic.Lib.ValueIdx
import Idealize.ShloMosaic.Lib.Pipeline.Value

set_option maxRecDepth 16384

noncomputable section

namespace Cert.KernelIdeal.FlashBlocks

open Idealize.ShloMosaic Idealize.ShloMosaic.TcCoe Idealize.ShloMosaic.ValueIdx
open Idealize.SL Idealize.SL.Sem
open Cert.KernelIdeal Cert.KernelIdeal.Gen Cert.KernelIdeal.Hand

/-! ## Bounds of the coordinates a point works on -/

/-- The batch of point t is below 4. -/
theorem batch_lt (t : Fin cfg1.N) : t.val / 32 < 4 := by
  have hN : t.val < 128 := lt_of_lt_of_eq t.isLt N_1
  omega

/-- Row r of point t's query tile is a row of the array. -/
theorem qrow_lt (t : Fin cfg1.N) (r : Fin 1024) : 1024 * ((t.val / 8) % 4) + r.val < 4096 := by
  have hr : r.val < 1024 := r.isLt
  omega

/-- Row k of point t's key block is a row of the array. -/
theorem krow_lt (t : Fin cfg1.N) (k : Fin 512) : 512 * (t.val % 8) + k.val < 4096 := by
  have hk : k.val < 512 := k.isLt
  omega

/-! ## The printed index maps, decided once over the grid -/

theorem idxQ : ∀ t : Fin cfg1.N, win1_0.index t (0 : Fin 3) = t.val / 32 ∧ win1_0.index t (1 : Fin 3) = (t.val / 8) % 4
    ∧ win1_0.index t (2 : Fin 3) = 0 :=
  (by decide +kernel : ∀ t : Fin grid1.N, _)

theorem idxK : ∀ t : Fin cfg1.N, win1_1.index t (0 : Fin 3) = t.val / 32 ∧ win1_1.index t (1 : Fin 3) = t.val % 8
    ∧ win1_1.index t (2 : Fin 3) = 0 :=
  (by decide +kernel : ∀ t : Fin grid1.N, _)

theorem idxV : ∀ t : Fin cfg1.N, win1_2.index t (0 : Fin 3) = t.val / 32 ∧ win1_2.index t (1 : Fin 3) = t.val % 8
    ∧ win1_2.index t (2 : Fin 3) = 0 :=
  (by decide +kernel : ∀ t : Fin grid1.N, _)

section
variable (V : (c : Dev nD) → (b : Ref sig .tc) → Buf (Elt Ideal) ((c : Thread nD τ).loc b))

/-- The query block at point t, entry (r, h): the query array at (t / 32, 1024 · ((t / 8) mod 4) + r, h). -/
theorem blockQ_apply (c : Dev nD) (t : Fin cfg1.N) (r h : Fin 1024) :
    (flashBlock (F := Ideal) V c 0 t : S1x1024x1024.Idx → EReal) (ix3 (0 : Fin 1) r h)
      = (V c main_v6 : S4x4096x1024.Idx → EReal)
          (ix3 (⟨t.val / 32, batch_lt t⟩ : Fin 4) (⟨1024 * ((t.val / 8) % 4) + r.val, qrow_lt t r⟩ : Fin 4096) h) := by
  obtain ⟨e0, e1, e2⟩ := idxQ t
  unfold flashBlock
  rw [View.read_apply]
  show (V c main_v6 : S4x4096x1024.Idx → EReal) (((cfg1.win 0).blk t).view.emb (ix3 (0 : Fin 1) r h)) = _
  refine congrArg (V c main_v6 : S4x4096x1024.Idx → EReal) ?_
  funext a; apply Fin.ext
  match a with
  | ⟨0, _⟩ => show win1_0.index t (0 : Fin 3) * 1 + 1 * 0 = t.val / 32; omega
  | ⟨1, _⟩ => show win1_0.index t (1 : Fin 3) * 1024 + 1 * r.val = 1024 * ((t.val / 8) % 4) + r.val; omega
  | ⟨2, _⟩ => show win1_0.index t (2 : Fin 3) * 1024 + 1 * h.val = h.val; omega

/-- The key block at point t, entry (k, h): the key array at (t / 32, 512 · (t mod 8) + k, h). -/
theorem blockK_apply (c : Dev nD) (t : Fin cfg1.N) (k : Fin 512) (h : Fin 1024) :
    (flashBlock (F := Ideal) V c 1 t : S1x512x1024.Idx → EReal) (ix3 (0 : Fin 1) k h)
      = (V c main_v7 : S4x4096x1024.Idx → EReal)
          (ix3 (⟨t.val / 32, batch_lt t⟩ : Fin 4) (⟨512 * (t.val % 8) + k.val, krow_lt t k⟩ : Fin 4096) h) := by
  obtain ⟨e0, e1, e2⟩ := idxK t
  unfold flashBlock
  rw [View.read_apply]
  show (V c main_v7 : S4x4096x1024.Idx → EReal) (((cfg1.win 1).blk t).view.emb (ix3 (0 : Fin 1) k h)) = _
  refine congrArg (V c main_v7 : S4x4096x1024.Idx → EReal) ?_
  funext a; apply Fin.ext
  match a with
  | ⟨0, _⟩ => show win1_1.index t (0 : Fin 3) * 1 + 1 * 0 = t.val / 32; omega
  | ⟨1, _⟩ => show win1_1.index t (1 : Fin 3) * 512 + 1 * k.val = 512 * (t.val % 8) + k.val; omega
  | ⟨2, _⟩ => show win1_1.index t (2 : Fin 3) * 1024 + 1 * h.val = h.val; omega

/-- The value block at point t, entry (k, h): the value array at (t / 32, 512 · (t mod 8) + k, h). -/
theorem blockV_apply (c : Dev nD) (t : Fin cfg1.N) (k : Fin 512) (h : Fin 1024) :
    (flashBlock (F := Ideal) V c 2 t : S1x512x1024.Idx → EReal) (ix3 (0 : Fin 1) k h)
      = (V c main_v8 : S4x4096x1024.Idx → EReal)
          (ix3 (⟨t.val / 32, batch_lt t⟩ : Fin 4) (⟨512 * (t.val % 8) + k.val, krow_lt t k⟩ : Fin 4096) h) := by
  obtain ⟨e0, e1, e2⟩ := idxV t
  unfold flashBlock
  rw [View.read_apply]
  show (V c main_v8 : S4x4096x1024.Idx → EReal) (((cfg1.win 2).blk t).view.emb (ix3 (0 : Fin 1) k h)) = _
  refine congrArg (V c main_v8 : S4x4096x1024.Idx → EReal) ?_
  funext a; apply Fin.ext
  match a with
  | ⟨0, _⟩ => show win1_2.index t (0 : Fin 3) * 1 + 1 * 0 = t.val / 32; omega
  | ⟨1, _⟩ => show win1_2.index t (1 : Fin 3) * 512 + 1 * k.val = 512 * (t.val % 8) + k.val; omega
  | ⟨2, _⟩ => show win1_2.index t (2 : Fin 3) * 1024 + 1 * h.val = h.val; omega

end

end Cert.KernelIdeal.FlashBlocks

end
-- ==== Proof.FlashArray.lean ====
/-
  The attention kernel's result array after its run, read at an index.  The output window's block at point t is
  rows 1024 · ((t / 8) mod 4) … + 1023 of batch t / 32, and it is written back only at the points of key block 7
  (t mod 8 = 7).  Those sixteen blocks are pairwise disjoint and tile the array, so the entry (b, s, d) of the array
  after the run is entry (s mod 1024, d) of what the point 32 b + 8 (s / 1024) + 7 left in the output block.
-/
import proofs.«100597_j51634096833128_2_alg».proof.Proof.KI.Flash
import Idealize.ShloMosaic.Lib.ValueIdx
import Idealize.ShloMosaic.Lib.Pipeline.Value

set_option maxRecDepth 16384

noncomputable section

namespace Cert.KernelIdeal.FlashArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-- The point of batch b, query tile s / 1024 and key block 7 is a point of the grid. -/
theorem lastPt_lt (b : Fin 4) (s : Fin 4096) : 32 * b.val + 8 * (s.val / 1024) + 7 < cfg1.N := by
  have hb : b.val < 4 := b.isLt
  have hs : s.val < 4096 := s.isLt
  show _ < grid1.N
  rw [N_1]
  omega

/-- A row's place inside its query tile. -/
theorem tileRow_lt (s : Fin 4096) : s.val % 1024 < 1024 := Nat.mod_lt _ (by decide)

/-- The output window's printed index map, decided once over the grid. -/
theorem idxO : ∀ t : Fin cfg1.N, win1_3.index t (0 : Fin 3) = t.val / 32 ∧ win1_3.index t (1 : Fin 3) = (t.val / 8) % 4
    ∧ win1_3.index t (2 : Fin 3) = 0 :=
  (by decide +kernel : ∀ t : Fin grid1.N, _)

/-- An index of the array is in point t's output block iff each coordinate is in the block's range on its axis. -/
theorem mem_blkO (t : Fin cfg1.N) (i : S4x4096x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v9).slice (win1_3.rect t)).set ↔ _
  rw [View.set_slice_whole, Rect.mem_set_unit]
  exact Iff.rfl

/-- Two different points that write the output block back write disjoint parts of the array. -/
theorem disjO : ∀ t t' : Fin cfg1.N, (cfg1.win 3).flush t = true → (cfg1.win 3).flush t' = true → t ≠ t' →
    Disjoint ((cfg1.win 3).blk t).view.set ((cfg1.win 3).blk t').view.set := by
  intro t t' hf hf' hne
  rw [Finset.disjoint_left]
  intro i hi hi'
  rw [mem_blkO] at hi hi'
  have a0 : win1_3.index t (0 : Fin 3) * 1 ≤ (i 0).val ∧ (i 0).val < win1_3.index t (0 : Fin 3) * 1 + 1 := hi 0
  have a1 : win1_3.index t (1 : Fin 3) * 1024 ≤ (i 1).val ∧ (i 1).val < win1_3.index t (1 : Fin 3) * 1024 + 1024 := hi 1
  have b0 : win1_3.index t' (0 : Fin 3) * 1 ≤ (i 0).val ∧ (i 0).val < win1_3.index t' (0 : Fin 3) * 1 + 1 := hi' 0
  have b1 : win1_3.index t' (1 : Fin 3) * 1024 ≤ (i 1).val ∧ (i 1).val < win1_3.index t' (1 : Fin 3) * 1024 + 1024 := hi' 1
  obtain ⟨e0, e1, e2⟩ := idxO t
  obtain ⟨e0', e1', e2'⟩ := idxO t'
  have h7 : t.val % 8 = 7 := (flush1_3 t).mp hf
  have h7' : t'.val % 8 = 7 := (flush1_3 t').mp hf'
  exact hne (Fin.ext (by omega))

section
variable {c : Dev nD} (dat : Dat τ (Elt Ideal) Unit ℕ (UR sig nD τ) ℕ cfg1 c)

/-- After the run, the entry (b, s, d) of the result array is the entry (s mod 1024, d) of what the last key block's
    point of query tile s / 1024 of batch b left in the output block. -/
theorem arrOut_of (b : Fin 4) (s : Fin 4096) (d : Fin 1024) :
    (dat.arrAt 3 cfg1.N : S4x4096x1024.Idx → EReal) (ix3 b s d)
      = (dat.after 3 ⟨32 * b.val + 8 * (s.val / 1024) + 7, lastPt_lt b s⟩ : S1x1024x1024.Idx → EReal)
          (ix3 (0 : Fin 1) (⟨s.val % 1024, tileRow_lt s⟩ : Fin 1024) d) := by
  have hf : (cfg1.win 3).flush ⟨32 * b.val + 8 * (s.val / 1024) + 7, lastPt_lt b s⟩ = true :=
    (flush1_3 _).mpr (by show (32 * b.val + 8 * (s.val / 1024) + 7) % 8 = 7; omega)
  obtain ⟨e0, e1, e2⟩ := idxO ⟨32 * b.val + 8 * (s.val / 1024) + 7, lastPt_lt b s⟩
  have hb : b.val < 4 := b.isLt
  have hs : s.val < 4096 := s.isLt
  have hemb : ((cfg1.win 3).blk ⟨32 * b.val + 8 * (s.val / 1024) + 7, lastPt_lt b s⟩).view.emb
      (ix3 (0 : Fin 1) (⟨s.val % 1024, tileRow_lt s⟩ : Fin 1024) d) = ix3 b s d := by
    funext a; apply Fin.ext
    match a with
    | ⟨0, _⟩ => show win1_3.index ⟨32 * b.val + 8 * (s.val / 1024) + 7, lastPt_lt b s⟩ (0 : Fin 3) * 1 + 1 * 0 = b.val
                rw [e0]; show (32 * b.val + 8 * (s.val / 1024) + 7) / 32 * 1 + 1 * 0 = b.val; omega
    | ⟨1, _⟩ => show win1_3.index ⟨32 * b.val + 8 * (s.val / 1024) + 7, lastPt_lt b s⟩ (1 : Fin 3) * 1024 + 1 * (s.val % 1024) = s.val
                rw [e1]; show (32 * b.val + 8 * (s.val / 1024) + 7) / 8 % 4 * 1024 + 1 * (s.val % 1024) = s.val; omega
    | ⟨2, _⟩ => show win1_3.index ⟨32 * b.val + 8 * (s.val / 1024) + 7, lastPt_lt b s⟩ (2 : Fin 3) * 1024 + 1 * d.val = d.val
                rw [e2]; omega
  have h := dat.arrAt_emb_eq_flushed 3 disjO ⟨32 * b.val + 8 * (s.val / 1024) + 7, lastPt_lt b s⟩ hf
    (ix3 (0 : Fin 1) (⟨s.val % 1024, tileRow_lt s⟩ : Fin 1024) d)
  rw [hemb] at h
  exact h

end

section
variable (V : (c : Dev nD) → (b : Ref sig .tc) → Buf (Elt Ideal) ((c : Thread nD τ).loc b))

/-- The attention kernel's result array after its run, at (b, s, d): the entry (s mod 1024, d) of what the point of
    batch b, query tile s / 1024 and key block 7 stored into the output block. -/
theorem arrOut_apply (c : Dev nD) (b : Fin 4) (s : Fin 4096) (d : Fin 1024) :
    ((flashDat (F := Ideal) V c).arrAt 3 cfg1.N : S4x4096x1024.Idx → EReal) (ix3 b s d)
      = ((flashAt (F := Ideal) V c (32 * b.val + 8 * (s.val / 1024) + 7) (lastPt_lt b s)).1 : S1x1024x1024.Idx → EReal)
          (ix3 (0 : Fin 1) (⟨s.val % 1024, tileRow_lt s⟩ : Fin 1024) d) :=
  (arrOut_of (flashDat (F := Ideal) V c) b s d).trans
    (congrFun (flashAfter3 V c ⟨32 * b.val + 8 * (s.val / 1024) + 7, lastPt_lt b s⟩) _)

end

end Cert.KernelIdeal.FlashArray

end
-- ==== Proof.FlashResult.lean ====
/-
  The attention kernel's result array, entry by entry, at the ideal instance: entry (b, s, d) is the accumulator
  divided by the running sum after the eight key blocks of query row s of batch b, the running quantities being the
  online-softmax recurrences over the scores of that row against the keys, block by block.
-/
import proofs.«100597_j51634096833128_2_alg».proof.Proof.KI.FlashState
import proofs.«100597_j51634096833128_2_alg».proof.Proof.FlashInduct
import proofs.«100597_j51634096833128_2_alg».proof.Proof.FlashBlocks
import proofs.«100597_j51634096833128_2_alg».proof.Proof.FlashArray

set_option maxRecDepth 16384

noncomputable section

namespace Cert.KernelIdeal.FlashResult

open Idealize.ShloMosaic Idealize.ShloMosaic.TcCoe Idealize.ShloMosaic.ValueIdx
open Idealize.SL Idealize.SL.Sem
open Cert.KernelIdeal Cert.KernelIdeal.Gen Cert.KernelIdeal.Hand Cert.Online
open Cert.KernelIdeal.FlashInduct Cert.KernelIdeal.FlashBlocks Cert.KernelIdeal.FlashArray Cert.KernelIdeal.FlashValue

variable (V : (c : Dev nD) → (b : Ref sig .tc) → Buf (Elt Ideal) ((c : Thread nD τ).loc b)) (c : Dev nD)

/-- The three arrays the kernel reads: the scaled queries, the keys, the values. -/
abbrev inQ : S4x4096x1024.Idx → EReal := V c main_v6
abbrev inK : S4x4096x1024.Idx → EReal := V c main_v7
abbrev inV : S4x4096x1024.Idx → EReal := V c main_v8

/-- A point of the 128-point grid as the pipeline indexes it. -/
abbrev pt (t : Fin 128) : Fin cfg1.N := Fin.cast N_1.symm t

/-- The query tile, the key block and the value block at a point, as vectors of the body's literal shapes. -/
abbrev qBlk (t : Fin 128) : Vec Ideal S1x1024x1024 .bf16 := flashBlock V c 0 (pt t)
abbrev kBlk (t : Fin 128) : Vec Ideal S1x512x1024 .bf16 := flashBlock V c 1 (pt t)
abbrev vBlk (t : Fin 128) : Vec Ideal S1x512x1024 .bf16 := flashBlock V c 2 (pt t)

/-- The kernel's state after each point. -/
abbrev stAt : (n : ℕ) → n < 128 → St := fun n hn => flashAt (F := Ideal) V c n (lt_of_lt_of_eq hn N_1.symm)

set_option maxHeartbeats 2000000 in
/-- Entry (b, s, d) of the result array: the online softmax of row s of batch b over the eight key blocks. -/
theorem flash_result (b : Fin 4) (s : Fin 4096) (d : Fin 1024) :
    ((flashDat (F := Ideal) V c).arrAt 3 cfg1.N : S4x4096x1024.Idx → EReal) (ix3 b s d)
      = Ideal.div (runA (fun (j : Fin 8) (k : Fin 512) => ∑ h : Fin 1024, inQ V c (ix3 b s h) * inK V c (ix3 b (⟨512 * j.val + k.val, by omega⟩ : Fin 4096) h))
                        (fun (j : Fin 8) (k : Fin 512) => inV V c (ix3 b (⟨512 * j.val + k.val, by omega⟩ : Fin 4096) d)) 8 le_rfl)
                  (runL (fun (j : Fin 8) (k : Fin 512) => ∑ h : Fin 1024, inQ V c (ix3 b s h) * inK V c (ix3 b (⟨512 * j.val + k.val, by omega⟩ : Fin 4096) h)) 8 le_rfl) := by
  have hfirst := fun (t : Fin 128) (h0 : t.val % 8 = 0) => flashAt_first (F := Ideal) V c (pt t) h0
  have hnext := fun (t : Fin 128) (h0 : ¬t.val % 8 = 0) => flashAt_next (F := Ideal) V c (pt t) h0
  have hlast := fun (t : Fin 128) (h1 : t.val % 8 = 7) => flashAt_last (F := Ideal) V c (pt t) h1
  exact (arrOut_apply V c b s d).trans
    (flash_closed (qBlk V c) (kBlk V c) (vBlk V c) (stAt V c) hfirst hnext hlast
      (inQ V c) (inK V c) (inV V c)
      (fun t r h => blockQ_apply V c (pt t) r h) (fun t k h => blockK_apply V c (pt t) k h) (fun t k h => blockV_apply V c (pt t) k h) b s d)

end Cert.KernelIdeal.FlashResult

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«100597_j51634096833128_2_alg».proof.Proof.LibPlainDot
import proofs.«100597_j51634096833128_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibLeadingAxes.lean ====
/-
  Row-major shape casts that merge, or split, the two LEADING axes of an array, read at coordinates.

  An [a, b, c] array and an [m, c] array with m = a·b hold the same entries in the same row-major order: the entry at
  (n, k, f) of the first sits at position (n·b + k)·c + f, the entry at (r, f) of the second at r·c + f, and the two agree
  exactly when r = n·b + k. So casting [a, b, c] to [m, c] reads, at (r, f), the operand at (n, k, f), and casting back
  reads, at (n, k, f), the operand at (r, f). A tile of a·b rows viewed as a flat stack of rows, and a flat stack of rows
  viewed again as a stack of tiles of b rows each, are these two casts. The row number is passed with its equation, so the lemmas
  hold for any way the caller names row n·b + k.
-/
import Idealize.ShloMosaic.Lib.Pipeline.Value
import Idealize.ShloMosaic.Lib.ValueIdx

namespace Cert.LeadingAxes

open Idealize.ShloMosaic Idealize.ShloMosaic.ValueIdx

variable {α : Type}

/-- The two leading axes merged: [a, b, c] cast to [m, c] reads, at (r, f) with r = n·b + k, the operand at (n, k, f). -/
theorem merge_apply {a b c m : ℕ} (x : (⟨3, ![a, b, c]⟩ : Shape).Idx → α)
    (h : (⟨3, ![a, b, c]⟩ : Shape).ShapeCasts ⟨2, ![m, c]⟩) (n : Fin a) (k : Fin b) (f : Fin c) (r : Fin m)
    (hr : r.val = n.val * b + k.val) :
    shapeCast ⟨2, ![m, c]⟩ x h (ix2 r f) = x (ix3 n k f) :=
  shapeCast_apply x h _ _ (by
    rw [Shape.rowMajor_val_three, Shape.rowMajor_val_two]
    show (n.val * b + k.val) * c + f.val = r.val * c + f.val
    rw [hr])

/-- The leading axis split in two: [m, c] cast to [a, b, c] reads, at (n, k, f), the operand at (r, f) with r = n·b + k. -/
theorem split_apply {a b c m : ℕ} (x : (⟨2, ![m, c]⟩ : Shape).Idx → α)
    (h : (⟨2, ![m, c]⟩ : Shape).ShapeCasts ⟨3, ![a, b, c]⟩) (n : Fin a) (k : Fin b) (f : Fin c) (r : Fin m)
    (hr : r.val = n.val * b + k.val) :
    shapeCast ⟨3, ![a, b, c]⟩ x h (ix3 n k f) = x (ix2 r f) :=
  shapeCast_apply x h _ _ (by
    rw [Shape.rowMajor_val_two, Shape.rowMajor_val_three]
    show r.val * c + f.val = (n.val * b + k.val) * c + f.val
    rw [hr])

end Cert.LeadingAxes
-- ==== Proof.QkvValue.lean ====
/-
  The fused projection body's arithmetic read at an index, at the ideal values, and the host's layout operations around it
  read at an index.

  The body forms, for a block of 512 rows x and the stacked weights w of shape [3072, 1024], the product x · wᵀ into a zero
  accumulator, adds the bias row, and cuts the [512, 3072] result into three column windows of width 1024; the first is
  scaled by 1/32. At the ideal values every float is an extended real and a format change is the identity, so the entry at
  (p, c) of the stacked result is the plain sum ∑ h, x (p, h) · w (c, h) plus the bias entry c, and each window reads that
  entry at its column moved by the window's offset.

  The host stacks the three weight matrices along axis 0 (rows d, 1024 + d, 2048 + d are row d of the first, second, third),
  stacks the three bias vectors the same way and views the result as one row, and views the [4, 4096, 1024] activations as
  16384 rows (row 4096 · b + s is (b, s)) and back.
-/
import proofs.«100597_j51634096833128_2_alg».proof.Proof.Gen.KernelIdeal.Skeleton
import proofs.«100597_j51634096833128_2_alg».proof.Proof.LibZeroAccDots
import proofs.«100597_j51634096833128_2_alg».proof.Proof.LibLeadingAxes
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.QkvValue

open Idealize.ShloMosaic Idealize.ShloMosaic.ValueIdx Cert.KernelIdeal Cert.KernelIdeal.Gen

/-- entry (p, c) of x · wᵀ + bias row, c a column of the stacked [3072] output -/
def lin (x : Vec Ideal S512x1024 .f32) (w : Vec Ideal S3072x1024 .bf16) (b : Vec Ideal S1x3072 .f32) (p : Fin 512) (c : Fin 3072) : EReal :=
  (∑ h : Fin 1024, x (ix2 p h) * w (ix2 c h)) + b (ix2 (0 : Fin 1) c)

/-- The stacked [512, 3072] value at (p, c): the product into the zero accumulator is the plain sum along row p of x and
    row c of w (the casts to the same shape and the format change are the identity), and the broadcast bias row reads its
    entry c. -/
theorem pay1_apply (x : Vec Ideal S512x1024 .f32) (w : Vec Ideal S3072x1024 .bf16) (b : Vec Ideal S1x3072 .f32)
    (p : Fin 512) (c : Fin 3072) : k0_pay1 (F := Ideal) x w b (ix2 p c) = lin x w b p c := by
  unfold k0_pay1 lin
  rw [shapeCast_self, shapeCast_self, shapeCast_self]
  show addf _ _ (ix2 p c) = _
  rw [addf_apply]
  congr 1
  · exact Cert.ZeroAccDots.rows_rows (A := 512) (K := 1024) (B := 3072) (φ₁ := .bf16) (φ₂ := .bf16)
      dot_S512x1024_S3072x1024_S512x3072_1_1_0_0_n_n rfl rfl rfl rfl rfl rfl rfl rfl none _ _ p c
  · exact broadcastTo_apply b broadcasts_S1x3072_S512x3072 (ix2 p c) (ix2 (0 : Fin 1) c) fun a => by
      match a with
      | ⟨0, _⟩ => rfl
      | ⟨1, _⟩ => rfl

/-- The second window (columns 1024 … 2047) at (p, d): the stacked entry at column 1024 + d. -/
theorem pay3_apply (x : Vec Ideal S512x1024 .f32) (w : Vec Ideal S3072x1024 .bf16) (b : Vec Ideal S1x3072 .f32)
    (p : Fin 512) (d : Fin 1024) :
    k0_pay3 (F := Ideal) x w b (ix2 p d) = lin x w b p ⟨1024 + d.val, by omega⟩ := by
  unfold k0_pay3
  rw [truncf_apply]
  refine (extractStridedSlice_apply ![0, 1024] (k0_pay1 (F := Ideal) x w b) slices_S512x3072_o0_1024_S512x1024 (ix2 p d)
    (ix2 p (⟨1024 + d.val, by omega⟩ : Fin 3072)) fun a => ?_).trans (pay1_apply x w b p _)
  match a with
  | ⟨0, _⟩ => exact (Nat.zero_add _).symm
  | ⟨1, _⟩ => rfl

/-- The third window (columns 2048 … 3071) at (p, d): the stacked entry at column 2048 + d. -/
theorem pay4_apply (x : Vec Ideal S512x1024 .f32) (w : Vec Ideal S3072x1024 .bf16) (b : Vec Ideal S1x3072 .f32)
    (p : Fin 512) (d : Fin 1024) :
    k0_pay4 (F := Ideal) x w b (ix2 p d) = lin x w b p ⟨2048 + d.val, by omega⟩ := by
  unfold k0_pay4
  rw [truncf_apply]
  refine (extractStridedSlice_apply ![0, 2048] (k0_pay1 (F := Ideal) x w b) slices_S512x3072_o0_2048_S512x1024 (ix2 p d)
    (ix2 p (⟨2048 + d.val, by omega⟩ : Fin 3072)) fun a => ?_).trans (pay1_apply x w b p _)
  match a with
  | ⟨0, _⟩ => exact (Nat.zero_add _).symm
  | ⟨1, _⟩ => rfl

/-- The first window (columns 0 … 1023) at (p, d): the stacked entry at column d, times the splat of the word 0x3D000000
    (1/32). -/
theorem pay2_apply (x : Vec Ideal S512x1024 .f32) (w : Vec Ideal S3072x1024 .bf16) (b : Vec Ideal S1x3072 .f32)
    (p : Fin 512) (d : Fin 1024) :
    k0_pay2 (F := Ideal) x w b (ix2 p d)
      = lin x w b p ⟨d.val, by omega⟩ * Ideal.ofBits .f32 0x3D000000#32 := by
  have h : extractStridedSlice S512x1024 ![0, 0] (k0_pay1 (F := Ideal) x w b) slices_S512x3072_o0_0_S512x1024 (ix2 p d)
      = k0_pay1 (F := Ideal) x w b (ix2 p (⟨d.val, by omega⟩ : Fin 3072)) := by
    apply extractStridedSlice_apply
    intro a
    match a with
    | ⟨0, _⟩ => exact (Nat.zero_add _).symm
    | ⟨1, _⟩ => exact (Nat.zero_add _).symm
  have h0 : k0_pay2 (F := Ideal) x w b (ix2 p d)
      = extractStridedSlice S512x1024 ![0, 0] (k0_pay1 (F := Ideal) x w b) slices_S512x3072_o0_0_S512x1024 (ix2 p d)
        * Ideal.ofBits .f32 0x3D000000#32 := rfl
  rw [h0, h, pay1_apply]

/-! ## The host's layout operations around the kernel, read at an index -/

/-- The [4, 4096, 1024] activations viewed as 16384 rows: row 4096 · b + s is (b, s). -/
theorem flatX_apply {α : Type} (x : S4x4096x1024.Idx → α) (b : Fin 4) (s : Fin 4096) (h : Fin 1024) :
    shapeCast S16384x1024 x shapeCasts_S4x4096x1024_S16384x1024 (ix2 (⟨4096 * b.val + s.val, by omega⟩ : Fin 16384) h)
      = x (ix3 b s h) :=
  Cert.LeadingAxes.merge_apply x shapeCasts_S4x4096x1024_S16384x1024 b s h ⟨4096 * b.val + s.val, by omega⟩
    (by show 4096 * b.val + s.val = b.val * 4096 + s.val; omega)

/-- 16384 rows viewed as [4, 4096, 1024]: (b, s) is row 4096 · b + s. -/
theorem unflat_apply {α : Type} (y : S16384x1024.Idx → α) (b : Fin 4) (s : Fin 4096) (h : Fin 1024) :
    shapeCast S4x4096x1024 y shapeCasts_S16384x1024_S4x4096x1024 (ix3 b s h)
      = y (ix2 (⟨4096 * b.val + s.val, by omega⟩ : Fin 16384) h) :=
  Cert.LeadingAxes.split_apply y shapeCasts_S16384x1024_S4x4096x1024 b s h ⟨4096 * b.val + s.val, by omega⟩
    (by show 4096 * b.val + s.val = b.val * 4096 + s.val; omega)

/-- The three weight matrices stacked along axis 0 and read in the narrower format (the identity at the ideal values): rows
    d, 1024 + d, 2048 + d of the stack are row d of the first, the second, the third. -/
theorem stackW_apply (wq wk wv : FVec Ideal S1024x1024 .f32) (d h : Fin 1024) :
    let W := truncf (F := Ideal) .bf16 (concatenate S3072x1024 0 [⟨S1024x1024, wq⟩, ⟨S1024x1024, wk⟩, ⟨S1024x1024, wv⟩] concatenates_S1024x1024_S1024x1024_S1024x1024_S3072x1024_d0) bitsLt_bf16_f32
    W (ix2 ⟨d.val, by omega⟩ h) = wq (ix2 d h) ∧ W (ix2 ⟨1024 + d.val, by omega⟩ h) = wk (ix2 d h)
      ∧ W (ix2 ⟨2048 + d.val, by omega⟩ h) = wv (ix2 d h) := by
  intro W
  have hi : ∀ (j0 : Fin 3072) (b : Fin S1024x1024.rank), b.cast (rfl : S1024x1024.rank = S3072x1024.rank) ≠ (0 : Fin 2) →
      ((ix2 d h : S1024x1024.Idx) b).val = ((ix2 j0 h : S3072x1024.Idx) (b.cast rfl)).val := fun j0 b hb => by
    match b with
    | ⟨0, _⟩ => exact absurd rfl hb
    | ⟨1, _⟩ => rfl
  refine ⟨?_, ?_, ?_⟩
  · exact concatenate_apply_piece (t := S3072x1024) (0 : Fin 2) [⟨S1024x1024, wq⟩, ⟨S1024x1024, wk⟩, ⟨S1024x1024, wv⟩] concatenates_S1024x1024_S1024x1024_S1024x1024_S3072x1024_d0
      (ix2 (⟨d.val, by omega⟩ : Fin 3072) h) 0 (by show (0 : ℕ) < 3; omega) S1024x1024 wq rfl rfl 0 rfl (ix2 d h) (hi _) (Nat.zero_add _)
  · exact concatenate_apply_piece (t := S3072x1024) (0 : Fin 2) [⟨S1024x1024, wq⟩, ⟨S1024x1024, wk⟩, ⟨S1024x1024, wv⟩] concatenates_S1024x1024_S1024x1024_S1024x1024_S3072x1024_d0
      (ix2 (⟨1024 + d.val, by omega⟩ : Fin 3072) h) 1 (by show (1 : ℕ) < 3; omega) S1024x1024 wk rfl rfl 1024 rfl (ix2 d h) (hi _) rfl
  · exact concatenate_apply_piece (t := S3072x1024) (0 : Fin 2) [⟨S1024x1024, wq⟩, ⟨S1024x1024, wk⟩, ⟨S1024x1024, wv⟩] concatenates_S1024x1024_S1024x1024_S1024x1024_S3072x1024_d0
      (ix2 (⟨2048 + d.val, by omega⟩ : Fin 3072) h) 2 (by show (2 : ℕ) < 3; omega) S1024x1024 wv rfl rfl 2048 rfl (ix2 d h) (hi _) rfl

/-- Three vectors of any element type stacked along axis 0 and viewed as one row: entries d, 1024 + d, 2048 + d of the row
    are entry d of the first, the second, the third. -/
theorem stackB_apply_any {α : Type} (bq bk bv : S1024.Idx → α) (d : Fin 1024) :
    let Bv := shapeCast S1x3072 (concatenate S3072 0 [⟨S1024, bq⟩, ⟨S1024, bk⟩, ⟨S1024, bv⟩] concatenates_S1024_S1024_S1024_S3072_d0) shapeCasts_S3072_S1x3072
    Bv (ix2 (0 : Fin 1) ⟨d.val, by omega⟩) = bq (ix1 d) ∧ Bv (ix2 (0 : Fin 1) ⟨1024 + d.val, by omega⟩) = bk (ix1 d)
      ∧ Bv (ix2 (0 : Fin 1) ⟨2048 + d.val, by omega⟩) = bv (ix1 d) := by
  intro Bv
  have hi : ∀ (j0 : Fin 3072) (b : Fin S1024.rank), b.cast (rfl : S1024.rank = S3072.rank) ≠ (0 : Fin 1) →
      ((ix1 d : S1024.Idx) b).val = ((ix1 j0 : S3072.Idx) (b.cast rfl)).val := fun j0 b hb => by
    match b with
    | ⟨0, _⟩ => exact absurd rfl hb
  refine ⟨?_, ?_, ?_⟩
  · exact (shapeCast_a_1a_apply (a := 3072) _ shapeCasts_S3072_S1x3072 0 ⟨d.val, by omega⟩).trans
      (concatenate_apply_piece (t := S3072) (0 : Fin 1) [⟨S1024, bq⟩, ⟨S1024, bk⟩, ⟨S1024, bv⟩] concatenates_S1024_S1024_S1024_S3072_d0
        (ix1 (⟨d.val, by omega⟩ : Fin 3072)) 0 (by show (0 : ℕ) < 3; omega) S1024 bq rfl rfl 0 rfl (ix1 d) (hi _) (Nat.zero_add _))
  · exact (shapeCast_a_1a_apply (a := 3072) _ shapeCasts_S3072_S1x3072 0 ⟨1024 + d.val, by omega⟩).trans
      (concatenate_apply_piece (t := S3072) (0 : Fin 1) [⟨S1024, bq⟩, ⟨S1024, bk⟩, ⟨S1024, bv⟩] concatenates_S1024_S1024_S1024_S3072_d0
        (ix1 (⟨1024 + d.val, by omega⟩ : Fin 3072)) 1 (by show (1 : ℕ) < 3; omega) S1024 bk rfl rfl 1024 rfl (ix1 d) (hi _) rfl)
  · exact (shapeCast_a_1a_apply (a := 3072) _ shapeCasts_S3072_S1x3072 0 ⟨2048 + d.val, by omega⟩).trans
      (concatenate_apply_piece (t := S3072) (0 : Fin 1) [⟨S1024, bq⟩, ⟨S1024, bk⟩, ⟨S1024, bv⟩] concatenates_S1024_S1024_S1024_S3072_d0
        (ix1 (⟨2048 + d.val, by omega⟩ : Fin 3072)) 2 (by show (2 : ℕ) < 3; omega) S1024 bv rfl rfl 2048 rfl (ix1 d) (hi _) rfl)

/-- The three bias vectors stacked along axis 0 and viewed as one row: entries d, 1024 + d, 2048 + d of the row are entry d
    of the first, the second, the third. -/
theorem stackB_apply (bq bk bv : FVec Ideal S1024 .f32) (d : Fin 1024) :
    let Bv := shapeCast S1x3072 (concatenate S3072 0 [⟨S1024, bq⟩, ⟨S1024, bk⟩, ⟨S1024, bv⟩] concatenates_S1024_S1024_S1024_S3072_d0) shapeCasts_S3072_S1x3072
    Bv (ix2 (0 : Fin 1) ⟨d.val, by omega⟩) = bq (ix1 d) ∧ Bv (ix2 (0 : Fin 1) ⟨1024 + d.val, by omega⟩) = bk (ix1 d)
      ∧ Bv (ix2 (0 : Fin 1) ⟨2048 + d.val, by omega⟩) = bv (ix1 d) :=
  stackB_apply_any bq bk bv d

end Cert.KernelIdeal.QkvValue

end
-- ==== Proof.HostStages.lean ====
/-
  The host operations of the kernel's entry function, read through the fold of a run.

  Before the first region the entry function flattens the activations `[4, 4096, 1024]` to
  `[16384, 1024]`, stacks the three weight matrices into one `[3072, 1024]` matrix narrowed to the
  16-bit format, and stacks the three bias vectors into one `[1, 3072]` row.  Between the two regions
  it unflattens the three projections `[16384, 1024]` back to `[4, 4096, 1024]`.  Each of these
  buffers, after the operations have run from contents `W`, holds the operations' term over `W` at
  the argument buffers; read at an index that term is one entry of one argument.
-/
import proofs.«100597_j51634096833128_2_alg».proof.Proof.Gen.KernelIdeal.Launch
import Idealize.ShloMosaic.Lib.StableHlo.Run
import Idealize.ShloMosaic.Lib.ValueIdx
import proofs.«100597_j51634096833128_2_alg».proof.Proof.QkvValue

noncomputable section

namespace Cert.KernelIdeal.HostStages

open Idealize.ShloMosaic Idealize.ShloMosaic.ValueIdx Idealize.ShloMosaic.TcCoe Cert.KernelIdeal Cert.KernelIdeal.Gen

/-! ## The folds as terms -/

/-- The flattened activations after the first stretch of host operations. -/
theorem after_v0 (W : Valuation τ sig (Elt Ideal)) :
    (StableHlo.after (hostOps0 (F := Ideal)) W (Proc.devRef .tc main_v0) : S16384x1024.Idx → EReal)
      = shapeCast S16384x1024 (W (Proc.devRef .tc main_arg0) : S4x4096x1024.Idx → EReal) shapeCasts_S4x4096x1024_S16384x1024 := by
  after_results
  rfl

/-- The stacked, narrowed weights after the first stretch of host operations. -/
theorem after_v2 (W : Valuation τ sig (Elt Ideal)) :
    (StableHlo.after (hostOps0 (F := Ideal)) W (Proc.devRef .tc main_v2) : S3072x1024.Idx → EReal)
      = truncf (F := Ideal) .bf16 (concatenate S3072x1024 0
          [⟨S1024x1024, (W (Proc.devRef .tc main_arg1) : S1024x1024.Idx → EReal)⟩,
           ⟨S1024x1024, (W (Proc.devRef .tc main_arg3) : S1024x1024.Idx → EReal)⟩,
           ⟨S1024x1024, (W (Proc.devRef .tc main_arg5) : S1024x1024.Idx → EReal)⟩]
          concatenates_S1024x1024_S1024x1024_S1024x1024_S3072x1024_d0) bitsLt_bf16_f32 := by
  after_results
  rfl

/-- The stacked biases as a row after the first stretch of host operations. -/
theorem after_v4 (W : Valuation τ sig (Elt Ideal)) :
    (StableHlo.after (hostOps0 (F := Ideal)) W (Proc.devRef .tc main_v4) : S1x3072.Idx → EReal)
      = shapeCast S1x3072 (concatenate S3072 0
          [⟨S1024, (W (Proc.devRef .tc main_arg2) : S1024.Idx → EReal)⟩,
           ⟨S1024, (W (Proc.devRef .tc main_arg4) : S1024.Idx → EReal)⟩,
           ⟨S1024, (W (Proc.devRef .tc main_arg6) : S1024.Idx → EReal)⟩]
          concatenates_S1024_S1024_S1024_S3072_d0) shapeCasts_S3072_S1x3072 := by
  after_results
  rfl

/-- The unflattened queries after the second stretch of host operations. -/
theorem after_v6 (W : Valuation τ sig (Elt Ideal)) :
    (StableHlo.after (hostOps1 (F := Ideal)) W (Proc.devRef .tc main_v6) : S4x4096x1024.Idx → EReal)
      = shapeCast S4x4096x1024 (W (Proc.devRef .tc main_v5_0) : S16384x1024.Idx → EReal) shapeCasts_S16384x1024_S4x4096x1024 := by
  after_results
  rfl

/-- The unflattened keys after the second stretch of host operations. -/
theorem after_v7 (W : Valuation τ sig (Elt Ideal)) :
    (StableHlo.after (hostOps1 (F := Ideal)) W (Proc.devRef .tc main_v7) : S4x4096x1024.Idx → EReal)
      = shapeCast S4x4096x1024 (W (Proc.devRef .tc main_v5_1) : S16384x1024.Idx → EReal) shapeCasts_S16384x1024_S4x4096x1024 := by
  after_results
  rfl

/-- The unflattened values after the second stretch of host operations. -/
theorem after_v8 (W : Valuation τ sig (Elt Ideal)) :
    (StableHlo.after (hostOps1 (F := Ideal)) W (Proc.devRef .tc main_v8) : S4x4096x1024.Idx → EReal)
      = shapeCast S4x4096x1024 (W (Proc.devRef .tc main_v5_2) : S16384x1024.Idx → EReal) shapeCasts_S16384x1024_S4x4096x1024 := by
  after_results
  rfl

/-! ## The folds read at an index -/

/-- Row `4096 · b + s` of the flattened activations is row `(b, s)` of the argument. -/
theorem entryX_of (W : Valuation τ sig (Elt Ideal)) (b : Fin 4) (s : Fin 4096) (h : Fin 1024) :
    (StableHlo.after (hostOps0 (F := Ideal)) W (Proc.devRef .tc main_v0) : S16384x1024.Idx → EReal) (ix2 (⟨4096 * b.val + s.val, by omega⟩ : Fin 16384) h)
      = (W (Proc.devRef .tc main_arg0) : S4x4096x1024.Idx → EReal) (ix3 b s h) :=
  (congrFun (after_v0 W) _).trans (QkvValue.flatX_apply _ b s h)

/-- Rows `d`, `1024 + d`, `2048 + d` of the stacked weights are row `d` of the three weight arguments. -/
theorem entryW_of (W : Valuation τ sig (Elt Ideal)) (d h : Fin 1024) :
    (StableHlo.after (hostOps0 (F := Ideal)) W (Proc.devRef .tc main_v2) : S3072x1024.Idx → EReal) (ix2 (⟨d.val, by omega⟩ : Fin 3072) h)
        = (W (Proc.devRef .tc main_arg1) : S1024x1024.Idx → EReal) (ix2 d h)
    ∧ (StableHlo.after (hostOps0 (F := Ideal)) W (Proc.devRef .tc main_v2) : S3072x1024.Idx → EReal) (ix2 (⟨1024 + d.val, by omega⟩ : Fin 3072) h)
        = (W (Proc.devRef .tc main_arg3) : S1024x1024.Idx → EReal) (ix2 d h)
    ∧ (StableHlo.after (hostOps0 (F := Ideal)) W (Proc.devRef .tc main_v2) : S3072x1024.Idx → EReal) (ix2 (⟨2048 + d.val, by omega⟩ : Fin 3072) h)
        = (W (Proc.devRef .tc main_arg5) : S1024x1024.Idx → EReal) (ix2 d h) := by
  rw [after_v2]
  exact QkvValue.stackW_apply _ _ _ d h

/-- Entries `d`, `1024 + d`, `2048 + d` of the stacked bias row are entry `d` of the three bias arguments. -/
theorem entryB_of (W : Valuation τ sig (Elt Ideal)) (d : Fin 1024) :
    (StableHlo.after (hostOps0 (F := Ideal)) W (Proc.devRef .tc main_v4) : S1x3072.Idx → EReal) (ix2 (0 : Fin 1) (⟨d.val, by omega⟩ : Fin 3072))
        = (W (Proc.devRef .tc main_arg2) : S1024.Idx → EReal) (ix1 d)
    ∧ (StableHlo.after (hostOps0 (F := Ideal)) W (Proc.devRef .tc main_v4) : S1x3072.Idx → EReal) (ix2 (0 : Fin 1) (⟨1024 + d.val, by omega⟩ : Fin 3072))
        = (W (Proc.devRef .tc main_arg4) : S1024.Idx → EReal) (ix1 d)
    ∧ (StableHlo.after (hostOps0 (F := Ideal)) W (Proc.devRef .tc main_v4) : S1x3072.Idx → EReal) (ix2 (0 : Fin 1) (⟨2048 + d.val, by omega⟩ : Fin 3072))
        = (W (Proc.devRef .tc main_arg6) : S1024.Idx → EReal) (ix1 d) := by
  rw [after_v4]
  exact QkvValue.stackB_apply _ _ _ d

/-- The same three, over the launch memory `m` of core `c`. -/
theorem entryX (m : (ℓ : Loc nD τ sig) → Buf (Elt Ideal) ℓ) (c : Dev nD) (b : Fin 4) (s : Fin 4096) (h : Fin 1024) :
    (StableHlo.after (hostOps0 (F := Ideal)) (fun b => m (c, b)) (Proc.devRef .tc main_v0) : S16384x1024.Idx → EReal) (ix2 (⟨4096 * b.val + s.val, by omega⟩ : Fin 16384) h)
      = (m ((c : Thread nD τ).loc main_arg0) : S4x4096x1024.Idx → EReal) (ix3 b s h) :=
  entryX_of (fun b => m (c, b)) b s h

theorem entryW (m : (ℓ : Loc nD τ sig) → Buf (Elt Ideal) ℓ) (c : Dev nD) (d h : Fin 1024) :
    (StableHlo.after (hostOps0 (F := Ideal)) (fun b => m (c, b)) (Proc.devRef .tc main_v2) : S3072x1024.Idx → EReal) (ix2 (⟨d.val, by omega⟩ : Fin 3072) h)
        = (m ((c : Thread nD τ).loc main_arg1) : S1024x1024.Idx → EReal) (ix2 d h)
    ∧ (StableHlo.after (hostOps0 (F := Ideal)) (fun b => m (c, b)) (Proc.devRef .tc main_v2) : S3072x1024.Idx → EReal) (ix2 (⟨1024 + d.val, by omega⟩ : Fin 3072) h)
        = (m ((c : Thread nD τ).loc main_arg3) : S1024x1024.Idx → EReal) (ix2 d h)
    ∧ (StableHlo.after (hostOps0 (F := Ideal)) (fun b => m (c, b)) (Proc.devRef .tc main_v2) : S3072x1024.Idx → EReal) (ix2 (⟨2048 + d.val, by omega⟩ : Fin 3072) h)
        = (m ((c : Thread nD τ).loc main_arg5) : S1024x1024.Idx → EReal) (ix2 d h) :=
  entryW_of (fun b => m (c, b)) d h

theorem entryB (m : (ℓ : Loc nD τ sig) → Buf (Elt Ideal) ℓ) (c : Dev nD) (d : Fin 1024) :
    (StableHlo.after (hostOps0 (F := Ideal)) (fun b => m (c, b)) (Proc.devRef .tc main_v4) : S1x3072.Idx → EReal) (ix2 (0 : Fin 1) (⟨d.val, by omega⟩ : Fin 3072))
        = (m ((c : Thread nD τ).loc main_arg2) : S1024.Idx → EReal) (ix1 d)
    ∧ (StableHlo.after (hostOps0 (F := Ideal)) (fun b => m (c, b)) (Proc.devRef .tc main_v4) : S1x3072.Idx → EReal) (ix2 (0 : Fin 1) (⟨1024 + d.val, by omega⟩ : Fin 3072))
        = (m ((c : Thread nD τ).loc main_arg4) : S1024.Idx → EReal) (ix1 d)
    ∧ (StableHlo.after (hostOps0 (F := Ideal)) (fun b => m (c, b)) (Proc.devRef .tc main_v4) : S1x3072.Idx → EReal) (ix2 (0 : Fin 1) (⟨2048 + d.val, by omega⟩ : Fin 3072))
        = (m ((c : Thread nD τ).loc main_arg6) : S1024.Idx → EReal) (ix1 d) :=
  entryB_of (fun b => m (c, b)) d

/-- Entry `(b, s)` of the unflattened queries is row `4096 · b + s` of the first projection. -/
theorem midQ (W : Valuation τ sig (Elt Ideal)) (b : Fin 4) (s : Fin 4096) (h : Fin 1024) :
    (StableHlo.after (hostOps1 (F := Ideal)) W (Proc.devRef .tc main_v6) : S4x4096x1024.Idx → EReal) (ix3 b s h)
      = (W (Proc.devRef .tc main_v5_0) : S16384x1024.Idx → EReal) (ix2 (⟨4096 * b.val + s.val, by omega⟩ : Fin 16384) h) :=
  (congrFun (after_v6 W) _).trans (QkvValue.unflat_apply _ b s h)

/-- Entry `(b, s)` of the unflattened keys is row `4096 · b + s` of the second projection. -/
theorem midK (W : Valuation τ sig (Elt Ideal)) (b : Fin 4) (s : Fin 4096) (h : Fin 1024) :
    (StableHlo.after (hostOps1 (F := Ideal)) W (Proc.devRef .tc main_v7) : S4x4096x1024.Idx → EReal) (ix3 b s h)
      = (W (Proc.devRef .tc main_v5_1) : S16384x1024.Idx → EReal) (ix2 (⟨4096 * b.val + s.val, by omega⟩ : Fin 16384) h) :=
  (congrFun (after_v7 W) _).trans (QkvValue.unflat_apply _ b s h)

/-- Entry `(b, s)` of the unflattened values is row `4096 · b + s` of the third projection. -/
theorem midV (W : Valuation τ sig (Elt Ideal)) (b : Fin 4) (s : Fin 4096) (h : Fin 1024) :
    (StableHlo.after (hostOps1 (F := Ideal)) W (Proc.devRef .tc main_v8) : S4x4096x1024.Idx → EReal) (ix3 b s h)
      = (W (Proc.devRef .tc main_v5_2) : S16384x1024.Idx → EReal) (ix2 (⟨4096 * b.val + s.val, by omega⟩ : Fin 16384) h) :=
  (congrFun (after_v8 W) _).trans (QkvValue.unflat_apply _ b s h)

end Cert.KernelIdeal.HostStages

end
-- ==== Proof.QkvArray.lean ====
/-
  The projection kernel's three output arrays as functions of its three input arrays, at the ideal values.
  The grid has 32 points; point t holds rows 512·t … 512·t + 511 of the input rows and of each output, and the whole
  weight matrix and bias row. What point t writes back to each output is block t of one function of the whole input
  arrays (the entry (r, col) of X · Wᵀ + bias at the output's column third, the first third scaled by 2^-5); the
  blocks cover the arrays (row r is in the block of point r / 512), so each output array ends holding that function.
-/
import proofs.«100597_j51634096833128_2_alg».proof.Proof.KI.Qkv
import proofs.«100597_j51634096833128_2_alg».proof.Proof.QkvValue
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.QkvArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.QkvValue

variable (V : (c : Dev nD) → (b : Ref sig .tc) → Buf (Elt Ideal) ((c : Thread nD τ).loc b))

/-! ## The grid's index maps -/

theorem hz : (![0, 0] : Fin 2 → Nat) = fun _ => 0 := funext fun a => by fin_cases a <;> rfl

/-- The printed index maps, decided over the 32 points: the row windows (the input rows and the three outputs) sit at
    block (t, 0); the weight matrix and the bias row at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read off their arrays -/

/-- The block of input rows at point `t` is rows 512·t … 512·t + 511 of the array. -/
theorem blockX_apply (c : Dev nD) (t : Fin cfg0.N) (y : S512x1024.Idx) (k : S16384x1024.Idx)
    (hk0 : (k 0).val = 512 * t.val + (y 0).val) (hk1 : (k 1).val = (y 1).val) :
    (qkvBlock V c 0 t : Vec Ideal S512x1024 .f32) y = (V c main_v0 : S16384x1024.Idx → EReal) k := by
  obtain ⟨e0, e1, -⟩ := idx_facts t
  unfold qkvBlock
  rw [View.read_apply]
  show V c main_v0 _ = V c main_v0 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 1024 + 1 * (y 1).val = (k 1).val; rw [e1, hk1]; omega

/-- The weight block at every point is the whole weight array. -/
theorem blockW_eq (c : Dev nD) (t : Fin cfg0.N) :
    (qkvBlock V c 1 t : Vec Ideal S3072x1024 .bf16) = (V c main_v2 : S3072x1024.Idx → EReal) := by
  obtain ⟨-, -, e0, e1, -⟩ := idx_facts t
  funext y
  unfold qkvBlock
  rw [View.read_apply]
  show V c main_v2 _ = V c main_v2 y
  congr 1
  funext a
  apply Fin.ext
  match a with
  | ⟨0, _⟩ => show win0_1.index t (0 : Fin 2) * 3072 + 1 * (y 0).val = (y 0).val; rw [e0]; omega
  | ⟨1, _⟩ => show win0_1.index t (1 : Fin 2) * 1024 + 1 * (y 1).val = (y 1).val; rw [e1]; omega

/-- The bias block at every point is the whole bias row. -/
theorem blockB_eq (c : Dev nD) (t : Fin cfg0.N) :
    (qkvBlock V c 2 t : Vec Ideal S1x3072 .f32) = (V c main_v4 : S1x3072.Idx → EReal) := by
  obtain ⟨-, -, -, -, e0, e1, -⟩ := idx_facts t
  funext y
  unfold qkvBlock
  rw [View.read_apply]
  show V c main_v4 _ = V c main_v4 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 3072 + 1 * (y 1).val = (y 1).val; rw [e1]; omega

/-! ## The three output arrays as functions of the input arrays -/

/-- Entry (r, col) of X · Wᵀ + bias over the whole arrays, col a column of the stacked 3072. -/
def linArr (A0 : S16384x1024.Idx → EReal) (A1 : S3072x1024.Idx → EReal) (A2 : S1x3072.Idx → EReal)
    (r : Fin 16384) (col : Fin 3072) : EReal :=
  (∑ h : Fin 1024, A0 (ix2 r h) * A1 (ix2 col h)) + A2 (ix2 (0 : Fin 1) col)

/-- The query array: the first column third, scaled by the word of 2^-5. -/
def arrQ (A0 : S16384x1024.Idx → EReal) (A1 : S3072x1024.Idx → EReal) (A2 : S1x3072.Idx → EReal) :
    S16384x1024.Idx → EReal :=
  fun i => linArr A0 A1 A2 (i 0) ⟨(i 1).val, by have := idx2_lt1 i; omega⟩ * Ideal.ofBits .f32 0x3D000000#32

/-- The key array: the second column third. -/
def arrK (A0 : S16384x1024.Idx → EReal) (A1 : S3072x1024.Idx → EReal) (A2 : S1x3072.Idx → EReal) :
    S16384x1024.Idx → EReal :=
  fun i => linArr A0 A1 A2 (i 0) ⟨1024 + (i 1).val, by have := idx2_lt1 i; omega⟩

/-- The value array: the last column third. -/
def arrV (A0 : S16384x1024.Idx → EReal) (A1 : S3072x1024.Idx → EReal) (A2 : S1x3072.Idx → EReal) :
    S16384x1024.Idx → EReal :=
  fun i => linArr A0 A1 A2 (i 0) ⟨2048 + (i 1).val, by have := idx2_lt1 i; omega⟩

/-- A block of rows 512·tv … of the array, against the whole weights and bias: the block's entry (p, col) is the
    array's entry (512·tv + p, col). -/
theorem lin_block (x : Vec Ideal S512x1024 .f32) (w : Vec Ideal S3072x1024 .bf16) (b : Vec Ideal S1x3072 .f32)
    (A0 : S16384x1024.Idx → EReal) (tv : ℕ)
    (hx : ∀ (y : S512x1024.Idx) (k : S16384x1024.Idx), (k 0).val = 512 * tv + (y 0).val → (k 1).val = (y 1).val →
      x y = A0 k)
    (p : Fin 512) (r : Fin 16384) (hr : r.val = 512 * tv + p.val) (col : Fin 3072) :
    lin x w b p col = linArr A0 w b r col := by
  unfold lin linArr
  congr 1
  refine Finset.sum_congr rfl fun h _ => ?_
  rw [hx (ix2 p h) (ix2 r h) hr rfl]

/-- What a point's three payloads hold at (p, d), when its row block is rows 512·tv … of the array. -/
theorem pay_block (x : Vec Ideal S512x1024 .f32) (w : Vec Ideal S3072x1024 .bf16) (b : Vec Ideal S1x3072 .f32)
    (A0 : S16384x1024.Idx → EReal) (tv : ℕ)
    (hx : ∀ (y : S512x1024.Idx) (k : S16384x1024.Idx), (k 0).val = 512 * tv + (y 0).val → (k 1).val = (y 1).val →
      x y = A0 k)
    (p : Fin 512) (d : Fin 1024) (i : S16384x1024.Idx) (hi0 : (i 0).val = 512 * tv + p.val) (hi1 : (i 1).val = d.val) :
    k0_pay2 (F := Ideal) x w b (ix2 p d) = arrQ A0 w b i
    ∧ k0_pay3 (F := Ideal) x w b (ix2 p d) = arrK A0 w b i
    ∧ k0_pay4 (F := Ideal) x w b (ix2 p d) = arrV A0 w b i := by
  refine ⟨?_, ?_, ?_⟩
  · rw [pay2_apply, lin_block x w b A0 tv hx p (i 0) hi0]
    unfold arrQ
    congr 2
    exact Fin.ext hi1.symm
  · rw [pay3_apply, lin_block x w b A0 tv hx p (i 0) hi0]
    unfold arrK
    congr 1
    apply Fin.ext
    show 1024 + d.val = 1024 + (i 1).val
    rw [hi1]
  · rw [pay4_apply, lin_block x w b A0 tv hx p (i 0) hi0]
    unfold arrV
    congr 1
    apply Fin.ext
    show 2048 + d.val = 2048 + (i 1).val
    rw [hi1]

/-- What point `t` writes back to the query array is block `t` of the query array's function. -/
theorem flushed3_eq (c : Dev nD) (t : Fin cfg0.N) :
    (qkvDat (F := Ideal) V c).flushed 3 t
      = ((cfg0.win 3).blk t).view.read (Elt Ideal)
          (arrQ (V c main_v0 : S16384x1024.Idx → EReal) (V c main_v2 : S3072x1024.Idx → EReal)
            (V c main_v4 : S1x3072.Idx → EReal)) := by
  show (cfg0.win 3).cut (grid0.coords t) ((qkvDat (F := Ideal) V c).after 3 t) = _
  rw [qkvAfter3]
  unfold qOut
  rw [View.canon_unit_zero hz]
  simp only [View.ld_unit_zero (S := S512x1024) hz, View.ld_unit_zero (S := S3072x1024) hz,
    View.ld_unit_zero (S := S1x3072) hz]
  rw [blockW_eq, blockB_eq]
  obtain ⟨-, -, -, -, -, -, q0, q1, k0, k1, v0, v1⟩ := idx_facts t
  funext j
  obtain ⟨p, d, rfl⟩ : ∃ (p : Fin 512) (d : Fin 1024), j = ix2 p d := ⟨j 0, j 1, eq_ix2 j⟩
  rw [View.read_apply]
  have hi0 : ((((cfg0.win 3).blk t).view.emb (ix2 p d) : S16384x1024.Idx) 0).val = 512 * t.val + p.val := by
    show win0_3.index t (0 : Fin 2) * 512 + 1 * p.val = _
    omega
  have hi1 : ((((cfg0.win 3).blk t).view.emb (ix2 p d) : S16384x1024.Idx) 1).val = d.val := by
    show win0_3.index t (1 : Fin 2) * 1024 + 1 * d.val = _
    omega
  exact (pay_block (qkvBlock V c 0 t) _ _ (V c main_v0) t.val (blockX_apply V c t) p d _ hi0 hi1).1

/-- What point `t` writes back to the key array is block `t` of the key array's function. -/
theorem flushed4_eq (c : Dev nD) (t : Fin cfg0.N) :
    (qkvDat (F := Ideal) V c).flushed 4 t
      = ((cfg0.win 4).blk t).view.read (Elt Ideal)
          (arrK (V c main_v0 : S16384x1024.Idx → EReal) (V c main_v2 : S3072x1024.Idx → EReal)
            (V c main_v4 : S1x3072.Idx → EReal)) := by
  show (cfg0.win 4).cut (grid0.coords t) ((qkvDat (F := Ideal) V c).after 4 t) = _
  rw [qkvAfter4]
  unfold kOut
  rw [View.canon_unit_zero hz]
  simp only [View.ld_unit_zero (S := S512x1024) hz, View.ld_unit_zero (S := S3072x1024) hz,
    View.ld_unit_zero (S := S1x3072) hz]
  rw [blockW_eq, blockB_eq]
  obtain ⟨-, -, -, -, -, -, q0, q1, k0, k1, v0, v1⟩ := idx_facts t
  funext j
  obtain ⟨p, d, rfl⟩ : ∃ (p : Fin 512) (d : Fin 1024), j = ix2 p d := ⟨j 0, j 1, eq_ix2 j⟩
  rw [View.read_apply]
  have hi0 : ((((cfg0.win 4).blk t).view.emb (ix2 p d) : S16384x1024.Idx) 0).val = 512 * t.val + p.val := by
    show win0_4.index t (0 : Fin 2) * 512 + 1 * p.val = _
    omega
  have hi1 : ((((cfg0.win 4).blk t).view.emb (ix2 p d) : S16384x1024.Idx) 1).val = d.val := by
    show win0_4.index t (1 : Fin 2) * 1024 + 1 * d.val = _
    omega
  exact (pay_block (qkvBlock V c 0 t) _ _ (V c main_v0) t.val (blockX_apply V c t) p d _ hi0 hi1).2.1

/-- What point `t` writes back to the value array is block `t` of the value array's function. -/
theorem flushed5_eq (c : Dev nD) (t : Fin cfg0.N) :
    (qkvDat (F := Ideal) V c).flushed 5 t
      = ((cfg0.win 5).blk t).view.read (Elt Ideal)
          (arrV (V c main_v0 : S16384x1024.Idx → EReal) (V c main_v2 : S3072x1024.Idx → EReal)
            (V c main_v4 : S1x3072.Idx → EReal)) := by
  show (cfg0.win 5).cut (grid0.coords t) ((qkvDat (F := Ideal) V c).after 5 t) = _
  rw [qkvAfter5]
  unfold vOut
  rw [View.canon_unit_zero hz]
  simp only [View.ld_unit_zero (S := S512x1024) hz, View.ld_unit_zero (S := S3072x1024) hz,
    View.ld_unit_zero (S := S1x3072) hz]
  rw [blockW_eq, blockB_eq]
  obtain ⟨-, -, -, -, -, -, q0, q1, k0, k1, v0, v1⟩ := idx_facts t
  funext j
  obtain ⟨p, d, rfl⟩ : ∃ (p : Fin 512) (d : Fin 1024), j = ix2 p d := ⟨j 0, j 1, eq_ix2 j⟩
  rw [View.read_apply]
  have hi0 : ((((cfg0.win 5).blk t).view.emb (ix2 p d) : S16384x1024.Idx) 0).val = 512 * t.val + p.val := by
    show win0_5.index t (0 : Fin 2) * 512 + 1 * p.val = _
    omega
  have hi1 : ((((cfg0.win 5).blk t).view.emb (ix2 p d) : S16384x1024.Idx) 1).val = d.val := by
    show win0_5.index t (1 : Fin 2) * 1024 + 1 * d.val = _
    omega
  exact (pay_block (qkvBlock V c 0 t) _ _ (V c main_v0) t.val (blockX_apply V c t) p d _ hi0 hi1).2.2

/-- An index of the query array is in point `t`'s block iff each coordinate is in the block's range on its axis. -/
theorem mem_blk3 (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5_0).slice (win0_3.rect t)).set ↔ _
  rw [View.set_slice_whole, Rect.mem_set_unit]
  exact Iff.rfl

/-- Every index of the query array is in the block of the point its row falls in: row r is point r / 512's. -/
theorem cover3 (i : S16384x1024.Idx) :
    ∃ t : Fin cfg0.N, (cfg0.win 3).flush t = true ∧ i ∈ ((cfg0.win 3).blk t).view.set := by
  have hi0 : (i 0).val < 16384 := idx2_lt0 i
  have hi1 : (i 1).val < 1024 := idx2_lt1 i
  have hlt : (i 0).val / 512 < cfg0.N := by rw [show cfg0.N = 32 from N_0]; omega
  obtain ⟨-, -, -, -, -, -, q0, q1, k0, k1, v0, v1⟩ := idx_facts ⟨(i 0).val / 512, hlt⟩
  refine ⟨⟨(i 0).val / 512, hlt⟩, flush0_3 _, ?_⟩
  rw [mem_blk3]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    have e : win0_3.index ⟨(i 0).val / 512, hlt⟩ (0 : Fin 2) = (i 0).val / 512 := q0
    omega
  | ⟨1, _⟩ =>
    show win0_3.index ⟨(i 0).val / 512, hlt⟩ (1 : Fin 2) * 1024 ≤ (i 1).val
      ∧ (i 1).val < win0_3.index ⟨(i 0).val / 512, hlt⟩ (1 : Fin 2) * 1024 + 1024
    omega

/-- The query array after the projection kernel, as one function of the three input arrays. -/
theorem final3 (c : Dev nD) :
    (qkvDat (F := Ideal) V c).arrAt 3 cfg0.N
      = arrQ (V c main_v0 : S16384x1024.Idx → EReal) (V c main_v2 : S3072x1024.Idx → EReal)
          (V c main_v4 : S1x3072.Idx → EReal) :=
  (qkvDat (F := Ideal) V c).arrAt_eq_of_cover 3 _ (fun t _ => flushed3_eq V c t) cover3

/-- An index of the key array is in point `t`'s block iff each coordinate is in the block's range on its axis. -/
theorem mem_blk4 (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_1).slice (win0_4.rect t)).set ↔ _
  rw [View.set_slice_whole, Rect.mem_set_unit]
  exact Iff.rfl

/-- Every index of the key array is in the block of the point its row falls in: row r is point r / 512's. -/
theorem cover4 (i : S16384x1024.Idx) :
    ∃ t : Fin cfg0.N, (cfg0.win 4).flush t = true ∧ i ∈ ((cfg0.win 4).blk t).view.set := by
  have hi0 : (i 0).val < 16384 := idx2_lt0 i
  have hi1 : (i 1).val < 1024 := idx2_lt1 i
  have hlt : (i 0).val / 512 < cfg0.N := by rw [show cfg0.N = 32 from N_0]; omega
  obtain ⟨-, -, -, -, -, -, q0, q1, k0, k1, v0, v1⟩ := idx_facts ⟨(i 0).val / 512, hlt⟩
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    have e : win0_4.index ⟨(i 0).val / 512, hlt⟩ (0 : Fin 2) = (i 0).val / 512 := k0
    omega
  | ⟨1, _⟩ =>
    show win0_4.index ⟨(i 0).val / 512, hlt⟩ (1 : Fin 2) * 1024 ≤ (i 1).val
      ∧ (i 1).val < win0_4.index ⟨(i 0).val / 512, hlt⟩ (1 : Fin 2) * 1024 + 1024
    omega

/-- The key array after the projection kernel, as one function of the three input arrays. -/
theorem final4 (c : Dev nD) :
    (qkvDat (F := Ideal) V c).arrAt 4 cfg0.N
      = arrK (V c main_v0 : S16384x1024.Idx → EReal) (V c main_v2 : S3072x1024.Idx → EReal)
          (V c main_v4 : S1x3072.Idx → EReal) :=
  (qkvDat (F := Ideal) V c).arrAt_eq_of_cover 4 _ (fun t _ => flushed4_eq V c t) cover4

/-- An index of the value array is in point `t`'s block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5_2).slice (win0_5.rect t)).set ↔ _
  rw [View.set_slice_whole, Rect.mem_set_unit]
  exact Iff.rfl

/-- Every index of the value array is in the block of the point its row falls in: row r is point r / 512's. -/
theorem cover5 (i : S16384x1024.Idx) :
    ∃ t : Fin cfg0.N, (cfg0.win 5).flush t = true ∧ i ∈ ((cfg0.win 5).blk t).view.set := by
  have hi0 : (i 0).val < 16384 := idx2_lt0 i
  have hi1 : (i 1).val < 1024 := idx2_lt1 i
  have hlt : (i 0).val / 512 < cfg0.N := by rw [show cfg0.N = 32 from N_0]; omega
  obtain ⟨-, -, -, -, -, -, q0, q1, k0, k1, v0, v1⟩ := idx_facts ⟨(i 0).val / 512, hlt⟩
  refine ⟨⟨(i 0).val / 512, hlt⟩, flush0_5 _, ?_⟩
  rw [mem_blk5]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    have e : win0_5.index ⟨(i 0).val / 512, hlt⟩ (0 : Fin 2) = (i 0).val / 512 := v0
    omega
  | ⟨1, _⟩ =>
    show win0_5.index ⟨(i 0).val / 512, hlt⟩ (1 : Fin 2) * 1024 ≤ (i 1).val
      ∧ (i 1).val < win0_5.index ⟨(i 0).val / 512, hlt⟩ (1 : Fin 2) * 1024 + 1024
    omega

/-- The value array after the projection kernel, as one function of the three input arrays. -/
theorem final5 (c : Dev nD) :
    (qkvDat (F := Ideal) V c).arrAt 5 cfg0.N
      = arrV (V c main_v0 : S16384x1024.Idx → EReal) (V c main_v2 : S3072x1024.Idx → EReal)
          (V c main_v4 : S1x3072.Idx → EReal) :=
  (qkvDat (F := Ideal) V c).arrAt_eq_of_cover 5 _ (fun t _ => flushed5_eq V c t) cover5

/-! ## The three arrays at an index -/

/-- The three input arrays as the kernel finds them, typed as functions on their index sets. -/
abbrev inX (c : Dev nD) : S16384x1024.Idx → EReal := V c main_v0
abbrev inW (c : Dev nD) : S3072x1024.Idx → EReal := V c main_v2
abbrev inB (c : Dev nD) : S1x3072.Idx → EReal := V c main_v4

/-- The query array at (r, d): the scaled entry (r, d) of X · Wᵀ + bias. -/
theorem arrQ_apply (c : Dev nD) (r : Fin 16384) (d : Fin 1024) :
    (qkvDat (F := Ideal) V c).arrAt 3 cfg0.N (ix2 r d)
      = ((∑ h : Fin 1024, inX V c (ix2 r h) * inW V c (ix2 (⟨d.val, by omega⟩ : Fin 3072) h))
          + inB V c (ix2 (0 : Fin 1) (⟨d.val, by omega⟩ : Fin 3072)))
        * Ideal.ofBits .f32 0x3D000000#32 := by
  rw [final3]; rfl

/-- The key array at (r, d): entry (r, 1024 + d). -/
theorem arrK_apply (c : Dev nD) (r : Fin 16384) (d : Fin 1024) :
    (qkvDat (F := Ideal) V c).arrAt 4 cfg0.N (ix2 r d)
      = (∑ h : Fin 1024, inX V c (ix2 r h) * inW V c (ix2 (⟨1024 + d.val, by omega⟩ : Fin 3072) h))
          + inB V c (ix2 (0 : Fin 1) (⟨1024 + d.val, by omega⟩ : Fin 3072)) := by
  rw [final4]; rfl

/-- The value array at (r, d): entry (r, 2048 + d). -/
theorem arrV_apply (c : Dev nD) (r : Fin 16384) (d : Fin 1024) :
    (qkvDat (F := Ideal) V c).arrAt 5 cfg0.N (ix2 r d)
      = (∑ h : Fin 1024, inX V c (ix2 r h) * inW V c (ix2 (⟨2048 + d.val, by omega⟩ : Fin 3072) h))
          + inB V c (ix2 (0 : Fin 1) (⟨2048 + d.val, by omega⟩ : Fin 3072)) := by
  rw [final5]; rfl

/-- The same three readings with the input arrays given by name: whatever functions the three arrays are known to be. -/
theorem arrQ_apply_of (c : Dev nD) (X : S16384x1024.Idx → EReal) (W : S3072x1024.Idx → EReal) (Bv : S1x3072.Idx → EReal)
    (hX : V c main_v0 = X) (hW : V c main_v2 = W) (hB : V c main_v4 = Bv) (r : Fin 16384) (d : Fin 1024) :
    (qkvDat (F := Ideal) V c).arrAt 3 cfg0.N (ix2 r d)
      = ((∑ h : Fin 1024, X (ix2 r h) * W (ix2 (⟨d.val, by omega⟩ : Fin 3072) h))
          + Bv (ix2 (0 : Fin 1) (⟨d.val, by omega⟩ : Fin 3072)))
        * Ideal.ofBits .f32 0x3D000000#32 := by
  subst hX hW hB; exact arrQ_apply V c r d

theorem arrK_apply_of (c : Dev nD) (X : S16384x1024.Idx → EReal) (W : S3072x1024.Idx → EReal) (Bv : S1x3072.Idx → EReal)
    (hX : V c main_v0 = X) (hW : V c main_v2 = W) (hB : V c main_v4 = Bv) (r : Fin 16384) (d : Fin 1024) :
    (qkvDat (F := Ideal) V c).arrAt 4 cfg0.N (ix2 r d)
      = (∑ h : Fin 1024, X (ix2 r h) * W (ix2 (⟨1024 + d.val, by omega⟩ : Fin 3072) h))
          + Bv (ix2 (0 : Fin 1) (⟨1024 + d.val, by omega⟩ : Fin 3072)) := by
  subst hX hW hB; exact arrK_apply V c r d

theorem arrV_apply_of (c : Dev nD) (X : S16384x1024.Idx → EReal) (W : S3072x1024.Idx → EReal) (Bv : S1x3072.Idx → EReal)
    (hX : V c main_v0 = X) (hW : V c main_v2 = W) (hB : V c main_v4 = Bv) (r : Fin 16384) (d : Fin 1024) :
    (qkvDat (F := Ideal) V c).arrAt 5 cfg0.N (ix2 r d)
      = (∑ h : Fin 1024, X (ix2 r h) * W (ix2 (⟨2048 + d.val, by omega⟩ : Fin 3072) h))
          + Bv (ix2 (0 : Fin 1) (⟨2048 + d.val, by omega⟩ : Fin 3072)) := by
  subst hX hW hB; exact arrV_apply V c r d

end Cert.KernelIdeal.QkvArray

end
-- ==== Proof.RefValue.lean ====
/-
  The reference program's result, read at an index at the ideal instance (floats are extended reals,
  every operation exact).  Q, K and V are linear layers of the input X: one entry is a sum over the
  hidden axis plus a bias.  The scaled score of query s against key t is the dot product of the rows
  Q(s,·) and K(t,·) divided by sqrt 1024; the row maximum is the maximum over all keys, taken from
  minus infinity; the result is the softmax-weighted sum of the rows of V.
-/
import proofs.«100597_j51634096833128_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-- one entry of a linear layer: Σ_h X(b,s,h) · W(d,h) + bias(d) -/
def proj (X : (⟨S4x4096x1024, .f32⟩ : BufTy).Contents (Elt Ideal)) (W : (⟨S1024x1024, .f32⟩ : BufTy).Contents (Elt Ideal))
    (bias : (⟨S1024, .f32⟩ : BufTy).Contents (Elt Ideal)) (b : Fin 4) (s : Fin 4096) (d : Fin 1024) : EReal :=
  (∑ h : Fin 1024, X (ix3 b s h) * W (ix2 d h)) + bias (ix1 d)

/-! ## Index equations: the composed index functions of the read lemmas, at coordinates -/

/-- The left operand of a projection's contraction is read at (b, s, k). -/
theorem lidx_proj (b : Fin 4) (s : Fin 4096) (d : Fin 1024) (k : Fin 1024) :
    lidx_main_v0 (ix3 b s d) k = ix3 b s k :=
  funext fun a => Fin.ext (by match a with | ⟨0, _⟩ => rfl | ⟨1, _⟩ => rfl | ⟨2, _⟩ => rfl)

/-- The weight of a projection's contraction is read at (d, k). -/
theorem ridx_proj (b : Fin 4) (s : Fin 4096) (d : Fin 1024) (k : Fin 1024) :
    ridx_main_v0 (ix3 b s d) k = ix2 d k :=
  funext fun a => Fin.ext (by match a with | ⟨0, _⟩ => rfl | ⟨1, _⟩ => rfl)

/-- The bias, broadcast twice, is read at d. -/
theorem bidx_proj (b : Fin 4) (s : Fin 4096) (d : Fin 1024) :
    idx_main_v1 (idx_main_v2 (ix3 b s d)) = ix1 d :=
  funext fun a => Fin.ext (by match a with | ⟨0, _⟩ => rfl)

/-- Q at (b, s, d). -/
theorem projQ_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (b : Fin 4) (s : Fin 4096) (d : Fin 1024) :
    val_main_v3 (F := Ideal) x0 x1 x2 (ix3 b s d) = proj x0 x1 x2 b s d := by
  rw [val_main_v3_apply, val_main_v0_apply, val_main_v2_apply, val_main_v1_apply]
  simp only [lidx_proj, ridx_proj, bidx_proj, Ideal.addf_def]
  rfl

/-- The same three index equations for the K projection's read lemmas. -/
theorem lidx_projK (b : Fin 4) (s : Fin 4096) (d : Fin 1024) (k : Fin 1024) :
    lidx_main_v4 (ix3 b s d) k = ix3 b s k :=
  funext fun a => Fin.ext (by match a with | ⟨0, _⟩ => rfl | ⟨1, _⟩ => rfl | ⟨2, _⟩ => rfl)
theorem ridx_projK (b : Fin 4) (s : Fin 4096) (d : Fin 1024) (k : Fin 1024) :
    ridx_main_v4 (ix3 b s d) k = ix2 d k :=
  funext fun a => Fin.ext (by match a with | ⟨0, _⟩ => rfl | ⟨1, _⟩ => rfl)
theorem bidx_projK (b : Fin 4) (s : Fin 4096) (d : Fin 1024) :
    idx_main_v5 (idx_main_v6 (ix3 b s d)) = ix1 d :=
  funext fun a => Fin.ext (by match a with | ⟨0, _⟩ => rfl)

/-- K at (b, s, d). -/
theorem projK_apply (x0 : (⟨S4x4096x1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 4096) (d : Fin 1024) :
    val_main_v7 (F := Ideal) x0 x3 x4 (ix3 b s d) = proj x0 x3 x4 b s d := by
  rw [val_main_v7_apply, val_main_v4_apply, val_main_v6_apply, val_main_v5_apply]
  simp only [lidx_projK, ridx_projK, bidx_projK, Ideal.addf_def]
  rfl

/-- The same three index equations for the V projection's read lemmas. -/
theorem lidx_projV (b : Fin 4) (s : Fin 4096) (d : Fin 1024) (k : Fin 1024) :
    lidx_main_v8 (ix3 b s d) k = ix3 b s k :=
  funext fun a => Fin.ext (by match a with | ⟨0, _⟩ => rfl | ⟨1, _⟩ => rfl | ⟨2, _⟩ => rfl)
theorem ridx_projV (b : Fin 4) (s : Fin 4096) (d : Fin 1024) (k : Fin 1024) :
    ridx_main_v8 (ix3 b s d) k = ix2 d k :=
  funext fun a => Fin.ext (by match a with | ⟨0, _⟩ => rfl | ⟨1, _⟩ => rfl)
theorem bidx_projV (b : Fin 4) (s : Fin 4096) (d : Fin 1024) :
    idx_main_v9 (idx_main_v10 (ix3 b s d)) = ix1 d :=
  funext fun a => Fin.ext (by match a with | ⟨0, _⟩ => rfl)

/-- V at (b, s, d). -/
theorem projV_apply (x0 : (⟨S4x4096x1024, .f32⟩ : BufTy).Contents (Elt Ideal)) (x5 : (⟨S1024x1024, .f32⟩ : BufTy).Contents (Elt Ideal))
    (x6 : (⟨S1024, .f32⟩ : BufTy).Contents (Elt Ideal)) (b : Fin 4) (s : Fin 4096) (d : Fin 1024) :
    val_main_v11 (F := Ideal) x0 x5 x6 (ix3 b s d) = proj x0 x5 x6 b s d := by
  rw [val_main_v11_apply, val_main_v8_apply, val_main_v10_apply, val_main_v9_apply]
  simp only [lidx_projV, ridx_projV, bidx_projV, Ideal.addf_def]
  rfl

/-! ## Scores, the row maximum, and the softmax-weighted sum -/

/-- the reference's scaled score of query s against key t -/
def refScore (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 4096) : EReal :=
  Ideal.div (∑ h : Fin 1024, proj x0 x1 x2 b s h * proj x0 x3 x4 b t h) (Ideal.sqrt (Ideal.ofBits .f32 0x44800000#32))

/-- the reference's row maximum -/
def refMax (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 4096) : EReal :=
  max ⊥ ((Finset.univ : Finset (Fin 4096)).fold max ⊥ (refScore x0 x1 x2 x3 x4 b s))

/-- The single-precision pattern of minus infinity is the bottom of the extended reals. -/
theorem ofBits_negInf : Ideal.ofBits .f32 0xFF800000#32 = (⊥ : EReal) := by
  simp [Ideal.ofBits, Ideal.ieee]

/-- The query row of the score contraction is read at (b, s, k). -/
theorem lidx_score (b : Fin 4) (s t : Fin 4096) (k : Fin 1024) :
    lidx_main_v12 (ix3 b s t) k = ix3 b s k :=
  funext fun a => Fin.ext (by match a with | ⟨0, _⟩ => rfl | ⟨1, _⟩ => rfl | ⟨2, _⟩ => rfl)

/-- The key row of the score contraction is read at (b, t, k). -/
theorem ridx_score (b : Fin 4) (s t : Fin 4096) (k : Fin 1024) :
    ridx_main_v12 (ix3 b s t) k = ix3 b t k :=
  funext fun a => Fin.ext (by match a with | ⟨0, _⟩ => rfl | ⟨1, _⟩ => rfl | ⟨2, _⟩ => rfl)

/-- The scaled score at (b, s, t). -/
theorem score_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 4096) :
    val_main_v15 (F := Ideal) x0 x1 x2 x3 x4 (ix3 b s t) = refScore x0 x1 x2 x3 x4 b s t := by
  rw [val_main_v15_apply, val_main_v12_apply, val_main_v14_apply, val_main_v13_apply, val_main_cst_apply]
  simp only [lidx_score, ridx_score, projQ_apply, projK_apply, Ideal.hostDivf_def, Ideal.hostUnary_sqrt_def, Ideal.ofBits_def]
  rfl

/-- A reduced row index (b, s) of the score array with the key coordinate k put back is (b, s, k). -/
theorem lift_row (hR : S4x4096x4096.Reduces [2] S4x4096) (b : Fin 4) (s : Fin 4096) (k : Fin 4096) :
    hR.lift (ix2 b s) k = ix3 b s k :=
  funext fun a => Fin.ext (by match a with | ⟨0, _⟩ => rfl | ⟨1, _⟩ => rfl | ⟨2, _⟩ => rfl)

/-- The maximum over the key axis of any array of scores, started from minus infinity: at the row (b, s)
    it is the maximum folded over the keys. -/
theorem rowMax_apply (y : (⟨S4x4096x4096, .f32⟩ : BufTy).Contents (Elt Ideal)) (b : Fin 4) (s : Fin 4096) :
    Host.reduce (FloatOps.maximumf (F := Ideal) (φ := .f32)) y (val_main_cst_0 (F := Ideal)) reducesTo_S4x4096x4096_S4x4096_d2 h_S_ (ix2 b s)
      = (Finset.univ : Finset (Fin 4096)).fold max ⊥ (fun k => y (ix3 b s k)) := by
  have hR : S4x4096x4096.Reduces [2] S4x4096 := by decide
  rw [Host.reduce_eq_fold_single (FloatOps.maximumf (F := Ideal) (φ := .f32)) y _ reducesTo_S4x4096x4096_S4x4096_d2 hR h_S_]
  rw [val_main_cst_0_apply, Ideal.ofBits_def, ofBits_negInf]
  have hf : (y ∘ hR.lift (ix2 b s)) = fun k : Fin 4096 => y (ix3 b s k) :=
    funext fun k => congrArg y (lift_row hR b s k)
  exact congrArg (fun f => Finset.fold max ⊥ f (Finset.univ : Finset (Fin 4096))) hf

/-- The row maximum at (b, s). -/
theorem max_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 4096) :
    val_main_v18 (F := Ideal) x0 x1 x2 x3 x4 (ix2 b s) = refMax x0 x1 x2 x3 x4 b s := by
  rw [val_main_v18_apply, val_main_v17_apply, val_main_cst_1_apply]
  unfold val_main_v16
  rw [rowMax_apply]
  simp only [score_apply, Ideal.maximumf_def, Ideal.ofBits_def, ofBits_negInf]
  rfl

/-- An entry (b, s, t) reads the row maximum, broadcast along the keys, at the row (b, s). -/
theorem midx_row (b : Fin 4) (s t : Fin 4096) : idx_main_v19 (idx_main_v20 (ix3 b s t)) = ix2 b s :=
  funext fun a => Fin.ext (by match a with | ⟨0, _⟩ => rfl | ⟨1, _⟩ => rfl)

/-- The exponential of a score less its row maximum, at (b, s, t). -/
theorem exp_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 4096) :
    val_main_v22 (F := Ideal) x0 x1 x2 x3 x4 (ix3 b s t)
      = Ideal.exp (refScore x0 x1 x2 x3 x4 b s t - refMax x0 x1 x2 x3 x4 b s) := by
  rw [val_main_v22_apply, val_main_v21_apply, val_main_v20_apply, val_main_v19_apply]
  simp only [midx_row, score_apply, max_apply, Ideal.hostUnary_exp_def, Ideal.subf_def]

/-- The row sum reads the exponentials of the row (b, s) at (b, s, k). -/
theorem sidx_row (b : Fin 4) (s : Fin 4096) (k : Fin 4096) : idx_main_v23 (ix2 b s) k = ix3 b s k :=
  funext fun a => Fin.ext (by match a with | ⟨0, _⟩ => rfl | ⟨1, _⟩ => rfl | ⟨2, _⟩ => rfl)

/-- The sum of a row's exponentials, started from zero, at (b, s). -/
theorem sum_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 4096) :
    val_main_v23 (F := Ideal) x0 x1 x2 x3 x4 (ix2 b s)
      = 0 + ∑ t' : Fin 4096, Ideal.exp (refScore x0 x1 x2 x3 x4 b s t' - refMax x0 x1 x2 x3 x4 b s) := by
  rw [val_main_v23_apply, val_main_cst_2_apply]
  simp only [sidx_row, exp_apply, Ideal.ofBits_def, Ideal.ofBits_zero_f32]

/-- An entry (b, s, t) reads the row sum, broadcast along the keys, at the row (b, s). -/
theorem didx_row (b : Fin 4) (s t : Fin 4096) : idx_main_v24 (idx_main_v25 (ix3 b s t)) = ix2 b s :=
  funext fun a => Fin.ext (by match a with | ⟨0, _⟩ => rfl | ⟨1, _⟩ => rfl)

/-- The softmax weight of key t for query s. -/
theorem attn_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 4096) :
    val_main_v26 (F := Ideal) x0 x1 x2 x3 x4 (ix3 b s t)
      = Ideal.div (Ideal.exp (refScore x0 x1 x2 x3 x4 b s t - refMax x0 x1 x2 x3 x4 b s))
          (0 + ∑ t' : Fin 4096, Ideal.exp (refScore x0 x1 x2 x3 x4 b s t' - refMax x0 x1 x2 x3 x4 b s)) := by
  rw [val_main_v26_apply, val_main_v25_apply, val_main_v24_apply]
  simp only [didx_row, exp_apply, sum_apply, Ideal.hostDivf_def]

/-- The weights of the last contraction are read at (b, s, k). -/
theorem lidx_out (b : Fin 4) (s : Fin 4096) (d : Fin 1024) (k : Fin 4096) :
    lidx_main_v27 (ix3 b s d) k = ix3 b s k :=
  funext fun a => Fin.ext (by match a with | ⟨0, _⟩ => rfl | ⟨1, _⟩ => rfl | ⟨2, _⟩ => rfl)

/-- The values of the last contraction are read at (b, k, d). -/
theorem ridx_out (b : Fin 4) (s : Fin 4096) (d : Fin 1024) (k : Fin 4096) :
    ridx_main_v27 (ix3 b s d) k = ix3 b k d :=
  funext fun a => Fin.ext (by match a with | ⟨0, _⟩ => rfl | ⟨1, _⟩ => rfl | ⟨2, _⟩ => rfl)

/-- The reference's result at (b, s, d): the softmax-weighted sum of the value rows. -/
theorem ref_apply (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (s : Fin 4096) (d : Fin 1024) :
    val_main_v27 (F := Ideal) x0 x1 x2 x3 x4 x5 x6 (ix3 b s d)
      = ∑ t : Fin 4096,
          Ideal.div (Ideal.exp (refScore x0 x1 x2 x3 x4 b s t - refMax x0 x1 x2 x3 x4 b s))
                    (0 + ∑ t' : Fin 4096, Ideal.exp (refScore x0 x1 x2 x3 x4 b s t' - refMax x0 x1 x2 x3 x4 b s))
            * proj x0 x5 x6 b t d := by
  rw [val_main_v27_apply]
  simp only [lidx_out, ridx_out, attn_apply, projV_apply]

end Cert.ReferenceIdeal.RefValue

end
-- ==== Proof.EntryValues.lean ====
/-
  The entries of the attention kernel's three input arrays, in terms of the program's arguments, at the ideal values.
  The attention kernel finds each array as the reshape to [4, 4096, 1024] of one output array of the projection
  kernel; that output array holds, at row 4096·b + s and column h, one entry of X · Wᵀ + bias over the flattened
  activations and the stacked weights and biases (the queries scaled by 2^-5); and a row of the flattened
  activations, of the stacked weights, and an entry of the stacked bias row is a row or an entry of one argument.
  Chained: each entry is one entry of a linear layer of the argument X.
-/
import proofs.«100597_j51634096833128_2_alg».proof.Proof.KI.Run
import proofs.«100597_j51634096833128_2_alg».proof.Proof.HostStages
import proofs.«100597_j51634096833128_2_alg».proof.Proof.QkvArray
import proofs.«100597_j51634096833128_2_alg».proof.Proof.RefValue

set_option maxRecDepth 16384

open scoped BigOperators

noncomputable section

namespace Cert.KernelIdeal.EntryValues

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (proj)

variable (m : (ℓ : Loc nD τ sig) → Buf (Elt Ideal) ℓ)

/-- The seven argument arrays as launched on core `c`, typed as functions on their index sets:
    the activations, then weight and bias of the query, key and value layers. -/
abbrev A0 (c : Dev nD) : S4x4096x1024.Idx → EReal := m ((c : Thread nD τ).loc main_arg0)
abbrev A1 (c : Dev nD) : S1024x1024.Idx → EReal := m ((c : Thread nD τ).loc main_arg1)
abbrev A2 (c : Dev nD) : S1024.Idx → EReal := m ((c : Thread nD τ).loc main_arg2)
abbrev A3 (c : Dev nD) : S1024x1024.Idx → EReal := m ((c : Thread nD τ).loc main_arg3)
abbrev A4 (c : Dev nD) : S1024.Idx → EReal := m ((c : Thread nD τ).loc main_arg4)
abbrev A5 (c : Dev nD) : S1024x1024.Idx → EReal := m ((c : Thread nD τ).loc main_arg5)
abbrev A6 (c : Dev nD) : S1024.Idx → EReal := m ((c : Thread nD τ).loc main_arg6)

/-- The projection kernel's three output arrays are what its write-backs leave. -/
theorem mid_v5_0 (c : Dev nD) :
    (W2 m c (Proc.devRef .tc main_v5_0) : S16384x1024.Idx → EReal) = (qkvDat (atQkv m) c).arrAt 3 cfg0.N := W2_arr m c 3
theorem mid_v5_1 (c : Dev nD) :
    (W2 m c (Proc.devRef .tc main_v5_1) : S16384x1024.Idx → EReal) = (qkvDat (atQkv m) c).arrAt 4 cfg0.N := W2_arr m c 4
theorem mid_v5_2 (c : Dev nD) :
    (W2 m c (Proc.devRef .tc main_v5_2) : S16384x1024.Idx → EReal) = (qkvDat (atQkv m) c).arrAt 5 cfg0.N := W2_arr m c 5

/-- The queries the attention kernel finds: entry (b, s, h) is the scaled entry of the query layer,
    (Σ_k X(b,s,k) · Wq(h,k) + bq(h)) · 2^-5. -/
theorem entryQ (c : Dev nD) (b : Fin 4) (s : Fin 4096) (h : Fin 1024) :
    (atFlash m c main_v6 : S4x4096x1024.Idx → EReal) (ix3 b s h)
      = proj (A0 m c) (A1 m c) (A2 m c) b s h * Ideal.ofBits .f32 0x3D000000#32 := by
  refine (HostStages.midQ (W2 m c) b s h).trans ?_
  refine (congrFun (mid_v5_0 m c) _).trans ?_
  refine (QkvArray.arrQ_apply (atQkv m) c _ h).trans ?_
  exact congrArg₂ (· * ·)
    (congrArg₂ (· + ·)
      (Finset.sum_congr rfl fun k _ => congrArg₂ (· * ·) (HostStages.entryX m c b s k) (HostStages.entryW m c h k).1)
      (HostStages.entryB m c h).1) rfl

/-- The keys the attention kernel finds: entry (b, t, h) is Σ_k X(b,t,k) · Wk(h,k) + bk(h). -/
theorem entryK (c : Dev nD) (b : Fin 4) (t : Fin 4096) (h : Fin 1024) :
    (atFlash m c main_v7 : S4x4096x1024.Idx → EReal) (ix3 b t h)
      = proj (A0 m c) (A3 m c) (A4 m c) b t h := by
  refine (HostStages.midK (W2 m c) b t h).trans ?_
  refine (congrFun (mid_v5_1 m c) _).trans ?_
  refine (QkvArray.arrK_apply (atQkv m) c _ h).trans ?_
  exact congrArg₂ (· + ·)
    (Finset.sum_congr rfl fun k _ => congrArg₂ (· * ·) (HostStages.entryX m c b t k) (HostStages.entryW m c h k).2.1)
    (HostStages.entryB m c h).2.1

/-- The values the attention kernel finds: entry (b, t, d) is Σ_k X(b,t,k) · Wv(d,k) + bv(d). -/
theorem entryV (c : Dev nD) (b : Fin 4) (t : Fin 4096) (d : Fin 1024) :
    (atFlash m c main_v8 : S4x4096x1024.Idx → EReal) (ix3 b t d)
      = proj (A0 m c) (A5 m c) (A6 m c) b t d := by
  refine (HostStages.midV (W2 m c) b t d).trans ?_
  refine (congrFun (mid_v5_2 m c) _).trans ?_
  refine (QkvArray.arrV_apply (atQkv m) c _ d).trans ?_
  exact congrArg₂ (· + ·)
    (Finset.sum_congr rfl fun k _ => congrArg₂ (· * ·) (HostStages.entryX m c b t k) (HostStages.entryW m c d k).2.2)
    (HostStages.entryB m c d).2.2

end Cert.KernelIdeal.EntryValues

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.OnlineSoftmax.lean ====
/-
  The online (block by block) softmax computes the softmax. For real scores and real values the running maximum,
  the running sum of exponentials and the running weighted sum after `j` blocks have closed forms over the reals
  (the first step starts from a maximum of minus infinity, whose rescaling factor multiplies a zero), so the final
  quotient is the softmax-weighted sum of the values. Also here: a maximum and a sum over a flat index set split into
  blocks, the score scale 2^-5 = 1 / sqrt 1024, and real linear forms.
-/
import proofs.«100597_j51634096833128_2_alg».proof.Proof.OnlineDefs
import proofs.«100597_j51634096833128_2_alg».proof.Proof.LibBlockSplit

noncomputable section

open scoped BigOperators

namespace Cert.Online

open Idealize.ShloMosaic

/-! ## Real numbers inside the extended reals -/

/-- The embedding of the reals into the extended reals, as an additive homomorphism. -/
def coeHom : ℝ →+ EReal := ⟨⟨fun r => (r : EReal), EReal.coe_zero⟩, EReal.coe_add⟩

/-- The embedding of a finite sum of reals is the sum of the embedded terms. -/
theorem coe_sum {ι : Type*} (s : Finset ι) (f : ι → ℝ) :
    ((∑ i ∈ s, f i : ℝ) : EReal) = ∑ i ∈ s, ((f i : ℝ) : EReal) :=
  map_sum coeHom f s

/-- A maximum folded from minus infinity over a nonempty family of reals is a real. -/
theorem fold_max_real {ι : Type*} (s : Finset ι) (hs : s.Nonempty) (f : ι → ℝ) :
    ∃ r : ℝ, s.fold max ⊥ (fun i => ((f i : ℝ) : EReal)) = (r : EReal) := by
  obtain ⟨i, hi⟩ := hs
  have h1 : (⊥ : EReal) < s.fold max ⊥ (fun i => ((f i : ℝ) : EReal)) :=
    (Finset.lt_fold_max _).mpr (Or.inr ⟨i, hi, EReal.bot_lt_coe _⟩)
  have h2 : s.fold max ⊥ (fun i => ((f i : ℝ) : EReal)) < ⊤ :=
    (Finset.fold_max_lt _).mpr ⟨bot_lt_top, fun j _ => EReal.coe_lt_top _⟩
  exact ⟨_, (EReal.coe_toReal h2.ne h1.ne').symm⟩

/-- The maximum of a nonempty block of real scores is a real. -/
theorem blockMax_real {n : ℕ} (hn : 0 < n) (s : Fin n → ℝ) :
    ∃ r : ℝ, blockMax (fun k => ((s k : ℝ) : EReal)) = (r : EReal) :=
  fold_max_real Finset.univ ⟨⟨0, hn⟩, Finset.mem_univ _⟩ s

/-! ## The first `j` blocks -/

/-- The indices of the first `j` blocks. -/
def firstBlocks (B j : ℕ) : Finset (Fin B) := Finset.univ.filter fun i => i.val < j

theorem firstBlocks_zero (B : ℕ) : firstBlocks B 0 = ∅ := by
  ext i; simp [firstBlocks]

theorem firstBlocks_all (B : ℕ) : firstBlocks B B = Finset.univ := by
  ext i; simp [firstBlocks]

theorem not_mem_firstBlocks {B j : ℕ} (h : j < B) : (⟨j, h⟩ : Fin B) ∉ firstBlocks B j := by
  simp [firstBlocks]

theorem firstBlocks_succ {B j : ℕ} (h : j < B) :
    firstBlocks B (j + 1) = insert (⟨j, h⟩ : Fin B) (firstBlocks B j) := by
  ext i
  simp only [firstBlocks, Finset.mem_filter, Finset.mem_univ, true_and, Finset.mem_insert, Fin.ext_iff]
  omega

variable {B n : ℕ}

/-- The running maximum is the maximum folded over the first `j` blocks' maxima. -/
theorem runM_eq_fold (x : Fin B → Fin n → EReal) : ∀ (j : ℕ) (h : j ≤ B),
    runM x j h = (firstBlocks B j).fold max ⊥ fun i => blockMax (x i)
  | 0, _ => by rw [firstBlocks_zero, Finset.fold_empty]; rfl
  | j + 1, h => by
    rw [firstBlocks_succ h, Finset.fold_insert (not_mem_firstBlocks h), ← runM_eq_fold x j (Nat.le_of_succ_le h),
      max_comm]
    rfl

/-- The running maximum is never plus infinity on real scores. -/
theorem runM_lt_top (x : Fin B → Fin n → ℝ) : ∀ (j : ℕ) (h : j ≤ B),
    runM (fun i k => ((x i k : ℝ) : EReal)) j h < ⊤ := by
  intro j h
  rw [runM_eq_fold]
  refine (Finset.fold_max_lt _).mpr ⟨bot_lt_top, fun i _ => ?_⟩
  exact (Finset.fold_max_lt _).mpr ⟨bot_lt_top, fun k _ => EReal.coe_lt_top _⟩

/-- After at least one nonempty block the running maximum is a real. -/
theorem runM_real (hn : 0 < n) (x : Fin B → Fin n → ℝ) (j : ℕ) (h : j ≤ B) (hj : 0 < j) :
    ∃ r : ℝ, runM (fun i k => ((x i k : ℝ) : EReal)) j h = (r : EReal) := by
  have h2 := runM_lt_top x j h
  have h1 : (⊥ : EReal) < runM (fun i k => ((x i k : ℝ) : EReal)) j h := by
    rw [runM_eq_fold]
    have h0 : 0 < B := lt_of_lt_of_le hj h
    refine (Finset.lt_fold_max _).mpr (Or.inr ⟨⟨0, h0⟩, ?_, ?_⟩)
    · simp [firstBlocks, hj]
    · exact (Finset.lt_fold_max _).mpr (Or.inr ⟨⟨0, hn⟩, Finset.mem_univ _, EReal.bot_lt_coe _⟩)
  exact ⟨_, (EReal.coe_toReal h2.ne h1.ne').symm⟩

/-! ## The running sums in closed form -/

/-- The running weighted sum after `j` blocks, for real scores and values, is the embedded real sum over the first
    `j` blocks of exp (x - m) * v, where m is the running maximum (read as a real; no term when `j = 0`). -/
theorem runA_closed (hn : 0 < n) (x v : Fin B → Fin n → ℝ) : ∀ (j : ℕ) (h : j ≤ B),
    runA (fun i k => ((x i k : ℝ) : EReal)) (fun i k => ((v i k : ℝ) : EReal)) j h
      = ((∑ i ∈ firstBlocks B j, ∑ k : Fin n,
          Real.exp (x i k - (runM (fun i k => ((x i k : ℝ) : EReal)) j h).toReal) * v i k : ℝ) : EReal)
  | 0, _ => by
    rw [firstBlocks_zero, Finset.sum_empty, EReal.coe_zero]; rfl
  | j + 1, h => by
    have hj : j ≤ B := Nat.le_of_succ_le h
    obtain ⟨m', hm'⟩ := runM_real hn x (j + 1) h (Nat.succ_pos j)
    have hm'' : newMax (runM (fun i k => ((x i k : ℝ) : EReal)) j hj) (fun k => ((x ⟨j, h⟩ k : ℝ) : EReal))
        = (m' : EReal) := hm'
    show Ideal.exp (runM (fun i k => ((x i k : ℝ) : EReal)) j hj
            - newMax (runM (fun i k => ((x i k : ℝ) : EReal)) j hj) (fun k => ((x ⟨j, h⟩ k : ℝ) : EReal)))
          * runA (fun i k => ((x i k : ℝ) : EReal)) (fun i k => ((v i k : ℝ) : EReal)) j hj
        + ∑ k : Fin n, Ideal.exp (((x ⟨j, h⟩ k : ℝ) : EReal)
            - newMax (runM (fun i k => ((x i k : ℝ) : EReal)) j hj) (fun k => ((x ⟨j, h⟩ k : ℝ) : EReal)))
          * ((v ⟨j, h⟩ k : ℝ) : EReal) = _
    rw [hm'', hm', EReal.toReal_coe, runA_closed hn x v j hj, firstBlocks_succ h,
      Finset.sum_insert (not_mem_firstBlocks h), EReal.coe_add, add_comm]
    congr 1
    · rw [coe_sum]
      refine Finset.sum_congr rfl fun k _ => ?_
      rw [← EReal.coe_sub, Ideal.exp_coe, ← EReal.coe_mul]
    · rcases Nat.eq_zero_or_pos j with rfl | hpos
      · rw [firstBlocks_zero, Finset.sum_empty, Finset.sum_empty, EReal.coe_zero, mul_zero]
      · obtain ⟨m, hm⟩ := runM_real hn x j hj hpos
        rw [hm, EReal.toReal_coe, ← EReal.coe_sub, Ideal.exp_coe, ← EReal.coe_mul]
        congr 1
        rw [Finset.mul_sum]
        refine Finset.sum_congr rfl fun i _ => ?_
        rw [Finset.mul_sum]
        refine Finset.sum_congr rfl fun k _ => ?_
        rw [← mul_assoc, ← Real.exp_add]
        congr 2
        ring

/-- The running sum of exponentials is the running weighted sum of the constant value one. -/
theorem runL_eq_runA_one (x : Fin B → Fin n → EReal) : ∀ (j : ℕ) (h : j ≤ B),
    runL x j h = runA x (fun _ _ => ((1 : ℝ) : EReal)) j h
  | 0, _ => rfl
  | j + 1, h => by
    show Ideal.exp _ * runL x j _ + ∑ k : Fin n, Ideal.exp _
      = Ideal.exp _ * runA x (fun _ _ => ((1 : ℝ) : EReal)) j _ + ∑ k : Fin n, Ideal.exp _ * ((1 : ℝ) : EReal)
    rw [runL_eq_runA_one x j (Nat.le_of_succ_le h)]
    simp only [EReal.coe_one, mul_one]

/-- The running sum of exponentials after `j` blocks in closed form. -/
theorem runL_closed (hn : 0 < n) (x : Fin B → Fin n → ℝ) (j : ℕ) (h : j ≤ B) :
    runL (fun i k => ((x i k : ℝ) : EReal)) j h
      = ((∑ i ∈ firstBlocks B j, ∑ k : Fin n,
          Real.exp (x i k - (runM (fun i k => ((x i k : ℝ) : EReal)) j h).toReal) : ℝ) : EReal) := by
  rw [runL_eq_runA_one, runA_closed hn x (fun _ _ => 1) j h]
  simp only [mul_one]

/-! ## Online softmax is softmax -/

/-- The reference's row maximum: max of minus infinity and the fold of max over all blocks. -/
def gmax {B n : ℕ} (x : Fin B → Fin n → ℝ) : EReal :=
  max ⊥ ((Finset.univ : Finset (Fin B)).fold max ⊥ fun j => blockMax fun k => ((x j k : ℝ) : EReal))

/-- The reference's row maximum is the running maximum after all blocks. -/
theorem gmax_eq_runM (x : Fin B → Fin n → ℝ) :
    gmax x = runM (fun j k => ((x j k : ℝ) : EReal)) B le_rfl := by
  rw [runM_eq_fold, firstBlocks_all, gmax, max_eq_right bot_le]

/-- T1. Online softmax = softmax, for real scores and real values, at least one block, nonempty blocks. -/
theorem flash_eq_softmax {B n : ℕ} (hB : 0 < B) (hn : 0 < n) (x v : Fin B → Fin n → ℝ) :
    Ideal.div (runA (fun j k => ((x j k : ℝ) : EReal)) (fun j k => ((v j k : ℝ) : EReal)) B le_rfl)
              (runL (fun j k => ((x j k : ℝ) : EReal)) B le_rfl)
      = ∑ j : Fin B, ∑ k : Fin n,
          Ideal.div (Ideal.exp (((x j k : ℝ) : EReal) - gmax x))
                    (0 + ∑ j' : Fin B, ∑ k' : Fin n, Ideal.exp (((x j' k' : ℝ) : EReal) - gmax x))
            * ((v j k : ℝ) : EReal) := by
  obtain ⟨g, hg⟩ := runM_real hn x B le_rfl hB
  have hS : (0 : ℝ) < ∑ j : Fin B, ∑ k : Fin n, Real.exp (x j k - g) :=
    Finset.sum_pos (fun j _ => Finset.sum_pos (fun k _ => Real.exp_pos _) ⟨⟨0, hn⟩, Finset.mem_univ _⟩)
      ⟨⟨0, hB⟩, Finset.mem_univ _⟩
  have hden : (0 : EReal) + ∑ j' : Fin B, ∑ k' : Fin n, Ideal.exp (((x j' k' : ℝ) : EReal) - (g : EReal))
      = ((∑ j : Fin B, ∑ k : Fin n, Real.exp (x j k - g) : ℝ) : EReal) := by
    rw [zero_add, coe_sum]
    refine Finset.sum_congr rfl fun j _ => ?_
    rw [coe_sum]
    refine Finset.sum_congr rfl fun k _ => ?_
    rw [← EReal.coe_sub, Ideal.exp_coe]
  rw [gmax_eq_runM, runA_closed hn x v B le_rfl, runL_closed hn x B le_rfl, hg, EReal.toReal_coe, firstBlocks_all,
    hden, Ideal.div_coe hS.ne', ← EReal.coe_mul, Finset.sum_mul, coe_sum]
  refine Finset.sum_congr rfl fun j _ => ?_
  rw [Finset.sum_mul, coe_sum]
  refine Finset.sum_congr rfl fun k _ => ?_
  rw [← EReal.coe_sub, Ideal.exp_coe, Ideal.div_coe hS.ne', ← EReal.coe_mul, ← EReal.coe_mul]
  congr 1
  ring

/-! ## The score scale and real linear forms -/

/-- The single-precision word `0x3D000000` is 2^-5. -/
theorem ofBits_inv32 : Ideal.ofBits .f32 0x3D000000#32 = ((1 / 32 : ℝ) : EReal) := by
  simp [Ideal.ofBits, Ideal.ieee, -EReal.coe_mul]; norm_num

/-- The single-precision word `0x44800000` is 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num, Real.sqrt_sq (by norm_num)]

/-- A dot of two real families is the embedded real dot. -/
theorem dot_real {H : ℕ} (a w : Fin H → ℝ) :
    (∑ h : Fin H, ((a h : ℝ) : EReal) * ((w h : ℝ) : EReal)) = ((∑ h : Fin H, a h * w h : ℝ) : EReal) := by
  rw [coe_sum]
  refine Finset.sum_congr rfl fun h _ => ?_
  rw [EReal.coe_mul]

/-- T3. The score scale: multiplying the query row by 2^-5 before the dot equals dividing the dot by sqrt 1024,
    on reals. -/
theorem score_scale {H : ℕ} (q k : Fin H → ℝ) :
    (∑ h : Fin H, (((q h : ℝ) : EReal) * Ideal.ofBits .f32 0x3D000000#32) * ((k h : ℝ) : EReal))
      = (((∑ h : Fin H, q h * k h) / 32 : ℝ) : EReal)
    ∧ Ideal.div (∑ h : Fin H, ((q h : ℝ) : EReal) * ((k h : ℝ) : EReal))
        (Ideal.sqrt (Ideal.ofBits .f32 0x44800000#32))
      = (((∑ h : Fin H, q h * k h) / 32 : ℝ) : EReal) := by
  constructor
  · rw [ofBits_inv32, Finset.sum_div, coe_sum]
    refine Finset.sum_congr rfl fun h _ => ?_
    rw [← EReal.coe_mul, ← EReal.coe_mul]
    congr 1
    ring
  · rw [ofBits_1024, sqrt_1024, dot_real, Ideal.div_coe (by norm_num), ← EReal.coe_mul]
    congr 1
    ring

/-- T4. Linear forms of reals are real: a dot of two real families plus a real is the embedded real dot plus the
    real. -/
theorem dot_add_real {H : ℕ} (a w : Fin H → ℝ) (b : ℝ) :
    (∑ h : Fin H, ((a h : ℝ) : EReal) * ((w h : ℝ) : EReal)) + ((b : ℝ) : EReal)
      = (((∑ h : Fin H, a h * w h) + b : ℝ) : EReal) := by
  rw [dot_real, EReal.coe_add]

/-! ## A flat index set split into blocks -/

/-- T2. A fold of max over a flat index set of N = B * n entries is the fold over blocks of the blocks' maxima. -/
theorem fold_max_blocks {B n N : ℕ} (hN : N = B * n) (f : Fin N → EReal) (row : Fin B → Fin n → Fin N)
    (hrow : ∀ j k, (row j k).val = n * j.val + k.val) :
    (Finset.univ : Finset (Fin N)).fold max ⊥ f
      = (Finset.univ : Finset (Fin B)).fold max ⊥ fun j => blockMax fun k => f (row j k) := by
  unfold blockMax
  apply le_antisymm
  · refine (Finset.fold_max_le _).mpr ⟨bot_le, fun t _ => ?_⟩
    have ht : t.val < B * n := lt_of_lt_of_eq t.isLt hN
    have hn : 0 < n := Nat.pos_of_ne_zero (by rintro rfl; simp at ht)
    have hq : t.val / n < B := (Nat.div_lt_iff_lt_mul hn).mpr ht
    have e : row ⟨t.val / n, hq⟩ ⟨t.val % n, Nat.mod_lt _ hn⟩ = t := by
      apply Fin.ext
      rw [hrow]
      exact Nat.div_add_mod _ _
    refine (Finset.le_fold_max _).mpr (Or.inr ⟨⟨t.val / n, hq⟩, Finset.mem_univ _, ?_⟩)
    refine (Finset.le_fold_max _).mpr (Or.inr ⟨⟨t.val % n, Nat.mod_lt _ hn⟩, Finset.mem_univ _, ?_⟩)
    rw [e]
  · refine (Finset.fold_max_le _).mpr ⟨bot_le, fun j _ => ?_⟩
    refine (Finset.fold_max_le _).mpr ⟨bot_le, fun k _ => ?_⟩
    exact (Finset.le_fold_max _).mpr (Or.inr ⟨row j k, Finset.mem_univ _, le_rfl⟩)

/-- T2'. The same for sums in the extended reals. -/
theorem sum_blocks_ereal {B n N : ℕ} (hN : N = B * n) (f : Fin N → EReal) (row : Fin B → Fin n → Fin N)
    (hrow : ∀ j k, (row j k).val = n * j.val + k.val) :
    ∑ t : Fin N, f t = ∑ j : Fin B, ∑ k : Fin n, f (row j k) :=
  Cert.Lib.sum_blocks B n N hN.symm f row hrow

end Cert.Online

end
-- ==== Proof.AttentionLaw.lean ====
/-
  The law that joins the block-by-block attention of one query row and one value column to the plain softmax
  attention: with 8 key blocks of 512 keys and 1024 features, scores scaled by 2^-5 before the dot on one side and
  divided by sqrt 1024 after it on the other, the online quotient is the softmax-weighted sum over all 4096 keys.
  Both score families are the same reals; the flat maximum and the flat sums split into blocks.
-/
import proofs.«100597_j51634096833128_2_alg».proof.Proof.OnlineSoftmax

noncomputable section

open scoped BigOperators

namespace Cert.Online

open Idealize.ShloMosaic

theorem attention_law (Q : Fin 1024 → ℝ) (K : Fin 4096 → Fin 1024 → ℝ) (Vv : Fin 4096 → ℝ)
    (row : Fin 8 → Fin 512 → Fin 4096) (hrow : ∀ j k, (row j k).val = 512 * j.val + k.val) :
    let xk : Fin 8 → Fin 512 → EReal := fun j k =>
      ∑ h : Fin 1024, (((Q h : ℝ) : EReal) * Ideal.ofBits .f32 0x3D000000#32) * ((K (row j k) h : ℝ) : EReal)
    let vk : Fin 8 → Fin 512 → EReal := fun j k => ((Vv (row j k) : ℝ) : EReal)
    let xr : Fin 4096 → EReal := fun t =>
      Ideal.div (∑ h : Fin 1024, ((Q h : ℝ) : EReal) * ((K t h : ℝ) : EReal))
        (Ideal.sqrt (Ideal.ofBits .f32 0x44800000#32))
    let M : EReal := max ⊥ ((Finset.univ : Finset (Fin 4096)).fold max ⊥ xr)
    Ideal.div (runA xk vk 8 le_rfl) (runL xk 8 le_rfl)
      = ∑ t : Fin 4096, Ideal.div (Ideal.exp (xr t - M)) (0 + ∑ t' : Fin 4096, Ideal.exp (xr t' - M))
          * ((Vv t : ℝ) : EReal) := by
  intro xk vk xr M
  have hN : (4096 : ℕ) = 8 * 512 := by norm_num
  have hxk : xk = fun j k => (((∑ h : Fin 1024, Q h * K (row j k) h) / 32 : ℝ) : EReal) := by
    funext j k
    exact (score_scale Q (K (row j k))).1
  have hxr : xr = fun t => (((∑ h : Fin 1024, Q h * K t h) / 32 : ℝ) : EReal) := by
    funext t
    exact (score_scale Q (K t)).2
  have hM : M = gmax (fun j k => (∑ h : Fin 1024, Q h * K (row j k) h) / 32) := by
    show max ⊥ ((Finset.univ : Finset (Fin 4096)).fold max ⊥ xr) = _
    rw [fold_max_blocks hN xr row hrow, hxr]
    rfl
  have hden : ∑ t' : Fin 4096, Ideal.exp (xr t' - M)
      = ∑ j' : Fin 8, ∑ k' : Fin 512, Ideal.exp (xr (row j' k') - M) :=
    sum_blocks_ereal hN (fun t' => Ideal.exp (xr t' - M)) row hrow
  rw [sum_blocks_ereal hN (fun t => Ideal.div (Ideal.exp (xr t - M))
    (0 + ∑ t' : Fin 4096, Ideal.exp (xr t' - M)) * ((Vv t : ℝ) : EReal)) row hrow, hden, hM, hxk, hxr]
  exact flash_eq_softmax (by norm_num) (by norm_num) (fun j k => (∑ h : Fin 1024, Q h * K (row j k) h) / 32)
    (fun j k => Vv (row j k))

end Cert.Online

end
-- ==== Proof.FinalLaw.lean ====
/-
  The law that joins the two programs at one entry (b, s, d) of the result.

  The kernel's side: the query row is the linear layer's row scaled by 2^-5, its scores against the 4096 keys are taken
  key block by key block (8 blocks of 512), and the online softmax's quotient of the running weighted sum of a value
  column by the running sum of exponentials is formed. The reference's side: the scores are the dot products divided by
  sqrt 1024, the softmax is taken over all keys at once, and the weights are summed against the value column.

  With every input a real, every entry of a linear layer is a real (a dot product of reals plus a real); the two sides are
  then the two sides of the block-by-block attention law, with the flat key t = 512 · j + k for block j and slot k.
-/
import proofs.«100597_j51634096833128_2_alg».proof.Proof.RefValue
import proofs.«100597_j51634096833128_2_alg».proof.Proof.AttentionLaw

noncomputable section

open scoped BigOperators

namespace Cert.FinalLaw

open Idealize.ShloMosaic Idealize.ShloMosaic.ValueIdx Cert.ReferenceIdeal Cert.ReferenceIdeal.Gen Cert.ReferenceIdeal.Read
  Cert.ReferenceIdeal.RefValue Cert.Online

/-- An entry of a linear layer of real inputs is the embedded real: the dot product of the real rows plus the real bias. -/
theorem proj_real (X : (⟨S4x4096x1024, .f32⟩ : BufTy).Contents (Elt Ideal)) (W : (⟨S1024x1024, .f32⟩ : BufTy).Contents (Elt Ideal)) (bias : (⟨S1024, .f32⟩ : BufTy).Contents (Elt Ideal))
    (rX : S4x4096x1024.Idx → ℝ) (rW : S1024x1024.Idx → ℝ) (rb : S1024.Idx → ℝ)
    (eX : ∀ i, X i = ((rX i : ℝ) : EReal)) (eW : ∀ i, W i = ((rW i : ℝ) : EReal)) (eb : ∀ i, bias i = ((rb i : ℝ) : EReal))
    (b : Fin 4) (s : Fin 4096) (d : Fin 1024) :
    proj X W bias b s d = (((∑ h : Fin 1024, rX (ix3 b s h) * rW (ix2 d h)) + rb (ix1 d) : ℝ) : EReal) := by
  unfold proj
  rw [eb, ← dot_add_real]
  congr 1
  exact Finset.sum_congr rfl fun h _ => by rw [eX, eW]

theorem final_law (x0 : (⟨S4x4096x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) (h3 : ∀ i, ∃ r : ℝ, x3 i = ((r : ℝ) : EReal))
    (h4 : ∀ i, ∃ r : ℝ, x4 i = ((r : ℝ) : EReal)) (h5 : ∀ i, ∃ r : ℝ, x5 i = ((r : ℝ) : EReal))
    (h6 : ∀ i, ∃ r : ℝ, x6 i = ((r : ℝ) : EReal))
    (b : Fin 4) (s : Fin 4096) (d : Fin 1024) :
    Ideal.div
      (runA (fun (j : Fin 8) (k : Fin 512) => ∑ h : Fin 1024, (proj x0 x1 x2 b s h * Ideal.ofBits .f32 0x3D000000#32) * proj x0 x3 x4 b (⟨512 * j.val + k.val, by omega⟩ : Fin 4096) h)
            (fun (j : Fin 8) (k : Fin 512) => proj x0 x5 x6 b (⟨512 * j.val + k.val, by omega⟩ : Fin 4096) d) 8 le_rfl)
      (runL (fun (j : Fin 8) (k : Fin 512) => ∑ h : Fin 1024, (proj x0 x1 x2 b s h * Ideal.ofBits .f32 0x3D000000#32) * proj x0 x3 x4 b (⟨512 * j.val + k.val, by omega⟩ : Fin 4096) h) 8 le_rfl)
      = val_main_v27 (F := Ideal) x0 x1 x2 x3 x4 x5 x6 (ix3 b s d) := by
  choose r0 e0 using h0
  choose r1 e1 using h1
  choose r2 e2 using h2
  choose r3 e3 using h3
  choose r4 e4 using h4
  choose r5 e5 using h5
  choose r6 e6 using h6
  -- the real query row, key rows and value column of the batch entry b
  let Q : Fin 1024 → ℝ := fun h => (∑ h' : Fin 1024, r0 (ix3 b s h') * r1 (ix2 h h')) + r2 (ix1 h)
  let K : Fin 4096 → Fin 1024 → ℝ := fun t h => (∑ h' : Fin 1024, r0 (ix3 b t h') * r3 (ix2 h h')) + r4 (ix1 h)
  let Vv : Fin 4096 → ℝ := fun t => (∑ h' : Fin 1024, r0 (ix3 b t h') * r5 (ix2 d h')) + r6 (ix1 d)
  let row : Fin 8 → Fin 512 → Fin 4096 := fun j k => ⟨512 * j.val + k.val, by omega⟩
  have hQ : ∀ h, proj x0 x1 x2 b s h = ((Q h : ℝ) : EReal) := fun h => proj_real x0 x1 x2 r0 r1 r2 e0 e1 e2 b s h
  have hK : ∀ t h, proj x0 x3 x4 b t h = ((K t h : ℝ) : EReal) := fun t h => proj_real x0 x3 x4 r0 r3 r4 e0 e3 e4 b t h
  have hV : ∀ t, proj x0 x5 x6 b t d = ((Vv t : ℝ) : EReal) := fun t => proj_real x0 x5 x6 r0 r5 r6 e0 e5 e6 b t d
  -- the kernel's side in the law's form
  have hxk : (fun (j : Fin 8) (k : Fin 512) => ∑ h : Fin 1024,
        (proj x0 x1 x2 b s h * Ideal.ofBits .f32 0x3D000000#32) * proj x0 x3 x4 b (⟨512 * j.val + k.val, by omega⟩ : Fin 4096) h)
      = fun j k => ∑ h : Fin 1024, (((Q h : ℝ) : EReal) * Ideal.ofBits .f32 0x3D000000#32) * ((K (row j k) h : ℝ) : EReal) :=
    funext fun j => funext fun k => Finset.sum_congr rfl fun h _ => by rw [hQ, hK]
  have hvk : (fun (j : Fin 8) (k : Fin 512) => proj x0 x5 x6 b (⟨512 * j.val + k.val, by omega⟩ : Fin 4096) d)
      = fun j k => ((Vv (row j k) : ℝ) : EReal) :=
    funext fun j => funext fun k => hV _
  -- the reference's side in the law's form
  have hS : refScore x0 x1 x2 x3 x4 b s = fun t =>
      Ideal.div (∑ h : Fin 1024, ((Q h : ℝ) : EReal) * ((K t h : ℝ) : EReal)) (Ideal.sqrt (Ideal.ofBits .f32 0x44800000#32)) :=
    funext fun t => by
      unfold refScore
      congr 1
      exact Finset.sum_congr rfl fun h _ => by rw [hQ, hK]
  have hM : refMax x0 x1 x2 x3 x4 b s = max ⊥ ((Finset.univ : Finset (Fin 4096)).fold max ⊥ fun t =>
      Ideal.div (∑ h : Fin 1024, ((Q h : ℝ) : EReal) * ((K t h : ℝ) : EReal)) (Ideal.sqrt (Ideal.ofBits .f32 0x44800000#32))) := by
    unfold refMax
    rw [hS]
  have hlaw := attention_law Q K Vv row (fun j k => rfl)
  dsimp only at hlaw
  rw [hxk, hvk, ref_apply, hM, hS, hlaw]
  exact Finset.sum_congr rfl fun t _ => by rw [hV]

end Cert.FinalLaw

end
-- ==== Proof.Finite.lean ====
/-
  From the printed precondition "every float input is finite" to "every entry of every argument is a real number",
  read at the instance where floats are extended reals.  The precondition compares, entry by entry, the absolute value
  of each argument with plus infinity, takes the conjunction over all entries of each argument, and then the
  conjunction of the seven results.  An extended real whose absolute value is strictly below plus infinity is neither
  infinity, hence a real number.
-/
import proofs.«100597_j51634096833128_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The word 0x7F800000 read as a single-precision float is plus infinity. -/
theorem ofBits_inf : Ideal.ofBits .f32 0x7F800000#32 = (⊤ : EReal) := by
  simp [Ideal.ofBits, Ideal.ieee]

/-- An extended real whose absolute value, the larger of `x` and `-x`, is strictly below `⊤` is a real number. -/
theorem real_of_abs_lt_top (x : EReal) (h : max x (-x) < ⊤) : ∃ r : ℝ, x = ((r : ℝ) : EReal) := by
  induction x using EReal.rec with
  | bot => simp at h
  | top => simp at h
  | coe r => exact ⟨r, rfl⟩

/-- One entry: if the comparison `|x| < +∞` answers 1, then `x` is a real number. -/
theorem real_of_cmp (x : Ideal .f32)
    (h : FloatOps.cmpf .olt (FloatOps.hostAbsf x) (FloatOps.ofBits (F := Ideal) .f32 0x7F800000#32) = 1#1) :
    ∃ r : ℝ, (x : EReal) = ((r : ℝ) : EReal) := by
  change Ideal.cmp .olt (max (x : EReal) (-(x : EReal))) (Ideal.ofBits .f32 0x7F800000#32) = 1#1 at h
  rw [ofBits_inf] at h
  unfold Ideal.cmp at h
  by_cases hlt : max (x : EReal) (-(x : EReal)) < ⊤
  · exact real_of_abs_lt_top x hlt
  · simp [hlt] at h

/-- The rank-0 shape has a single index. -/
instance subsingleton_S_ : Subsingleton S_.Idx := ⟨fun a b => funext fun d => d.elim0⟩

/-- One argument: if the conjunction over all entries of `|x| < +∞` is 1, every entry of `x` is a real number. -/
theorem real_of_all {S T : Shape} {axes : List (Fin S.rank)} [Subsingleton T.Idx]
    (hb : S_.BroadcastsInDim S (![] : Fin 0 → Fin S.rank)) (hr : S.ReducesTo axes T) (hu : 0 < S_.numel)
    (x : FVec Ideal S .f32) (j : T.Idx)
    (e : Host.reduce IntOp.andi
          (cmpf .olt (Host.absf x) (broadcastInDim S ![] hb (constant (F := Ideal) S_ .f32 0x7F800000#32)))
          (constantI S_ 1 1#1) hr hu j = 1#1) :
    ∀ i, ∃ r : ℝ, x i = ((r : ℝ) : EReal) := by
  intro i
  have hi := Host.reduce_andi_all _ _ hr hu j e i
  exact real_of_cmp (x i) hi

/-- The precondition decoded: if the printed predicate answers 1, every entry of each of the seven arguments is a
    real number.  The predicate is the conjunction of seven bits, one per argument, each the conjunction over all
    entries of the comparison `|x| < +∞`. -/
theorem real_of_pre [Cert.Pre_finite_inputs.Facts]
    (a0 : FVec Ideal S4x4096x1024 .f32) (a1 : FVec Ideal S1024x1024 .f32) (a2 : FVec Ideal S1024 .f32) (a3 : FVec Ideal S1024x1024 .f32)
    (a4 : FVec Ideal S1024 .f32) (a5 : FVec Ideal S1024x1024 .f32) (a6 : FVec Ideal S1024 .f32)
    (h : Cert.Pre_finite_inputs.fn (F := Ideal) a0 a1 a2 a3 a4 a5 a6 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∀ i, ∃ r : ℝ, a3 i = ((r : ℝ) : EReal)) ∧ (∀ i, ∃ r : ℝ, a4 i = ((r : ℝ) : EReal)) ∧ (∀ i, ∃ r : ℝ, a5 i = ((r : ℝ) : EReal))
    ∧ (∀ i, ∃ r : ℝ, a6 i = ((r : ℝ) : EReal)) := by
  have h0 := congrFun h ValueIdx.ix0
  unfold fn fn_part1 at h0
  dsimp only [andi] at h0
  simp only [IntOp.andi_eq_one] at h0
  obtain ⟨⟨⟨⟨⟨⟨e0, e1⟩, e2⟩, e3⟩, e4⟩, e5⟩, e6⟩ := h0
  exact ⟨real_of_all _ _ _ a0 _ e0, real_of_all _ _ _ a1 _ e1, real_of_all _ _ _ a2 _ e2, real_of_all _ _ _ a3 _ e3,
    real_of_all _ _ _ a4 _ e4, real_of_all _ _ _ a5 _ e5, real_of_all _ _ _ a6 _ e6⟩

end Cert.Finite

end
-- ==== Proof.Bridge.lean ====
/-
  The two idealized programs end with the same result array.
  Entry (b, s, d) of the kernel's result is the online softmax of query row s of batch b over the eight key blocks,
  with queries (X·Wqᵀ + bq)·2⁻⁵, keys X·Wkᵀ + bk and values X·Wvᵀ + bv; for finite inputs these are real numbers,
  and the online softmax of real scores is the reference's softmax of the scores divided by √1024 = 32, applied
  to the values.
-/
import proofs.«100597_j51634096833128_2_alg».proof.Proof.KI.Run
import proofs.«100597_j51634096833128_2_alg».proof.Proof.FlashResult
import proofs.«100597_j51634096833128_2_alg».proof.Proof.EntryValues
import proofs.«100597_j51634096833128_2_alg».proof.Proof.FinalLaw
import proofs.«100597_j51634096833128_2_alg».proof.Proof.Finite
import proofs.«100597_j51634096833128_2_alg».proof.Proof.Gen.Pre_finite_inputs
import proofs.«100597_j51634096833128_2_alg».proof.Defs

set_option maxRecDepth 16384

noncomputable section

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.Hand Cert.Online
open Cert.KernelIdeal.FlashResult Cert.KernelIdeal.EntryValues Cert.ReferenceIdeal.RefValue

variable (m : (ℓ : Loc nD τ sig) → Buf (Elt Ideal) ℓ)

/-- Under the precondition every entry of every argument array is a real number. -/
theorem reals_of_pre (hpre : Cert.Pre_KernelIdeal (hPre_finite_inputs := Cert.Pre_finite_inputs.Gen.facts) m) (c : Dev nD) :
    (∀ i, ∃ r : ℝ, A0 m c i = ((r : ℝ) : EReal)) ∧ (∀ i, ∃ r : ℝ, A1 m c i = ((r : ℝ) : EReal)) ∧ (∀ i, ∃ r : ℝ, A2 m c i = ((r : ℝ) : EReal))
    ∧ (∀ i, ∃ r : ℝ, A3 m c i = ((r : ℝ) : EReal)) ∧ (∀ i, ∃ r : ℝ, A4 m c i = ((r : ℝ) : EReal)) ∧ (∀ i, ∃ r : ℝ, A5 m c i = ((r : ℝ) : EReal))
    ∧ (∀ i, ∃ r : ℝ, A6 m c i = ((r : ℝ) : EReal)) :=
  @Cert.Finite.real_of_pre Cert.Pre_finite_inputs.Gen.facts _ _ _ _ _ _ _ (hpre c)

/-- Entry (b, s, d) of the kernel's result array is the reference's result entry. -/
theorem result_entry (hpre : Cert.Pre_KernelIdeal (hPre_finite_inputs := Cert.Pre_finite_inputs.Gen.facts) m) (c : Dev nD)
    (b : Fin 4) (s : Fin 4096) (d : Fin 1024) :
    ((flashDat (F := Ideal) (atFlash m) c).arrAt 3 cfg1.N : S4x4096x1024.Idx → EReal) (ix3 b s d)
      = Cert.ReferenceIdeal.Read.val_main_v27 (F := Ideal) (A0 m c) (A1 m c) (A2 m c) (A3 m c) (A4 m c) (A5 m c) (A6 m c) (ix3 b s d) := by
  obtain ⟨h0, h1, h2, h3, h4, h5, h6⟩ := reals_of_pre m hpre c
  refine (flash_result (atFlash m) c b s d).trans ?_
  have hx : (fun (j : Fin 8) (k : Fin 512) => ∑ h : Fin 1024, inQ (atFlash m) c (ix3 b s h) * inK (atFlash m) c (ix3 b (⟨512 * j.val + k.val, by omega⟩ : Fin 4096) h))
      = (fun (j : Fin 8) (k : Fin 512) => ∑ h : Fin 1024, (proj (A0 m c) (A1 m c) (A2 m c) b s h * Ideal.ofBits .f32 0x3D000000#32) * proj (A0 m c) (A3 m c) (A4 m c) b (⟨512 * j.val + k.val, by omega⟩ : Fin 4096) h) := by
    funext j k
    refine Finset.sum_congr rfl fun h _ => ?_
    exact congrArg₂ (· * ·) (entryQ m c b s h) (entryK m c b _ h)
  have hv : (fun (j : Fin 8) (k : Fin 512) => inV (atFlash m) c (ix3 b (⟨512 * j.val + k.val, by omega⟩ : Fin 4096) d))
      = (fun (j : Fin 8) (k : Fin 512) => proj (A0 m c) (A5 m c) (A6 m c) b (⟨512 * j.val + k.val, by omega⟩ : Fin 4096) d) := by
    funext j k
    exact entryV m c b _ d
  rw [hx, hv]
  exact Cert.FinalLaw.final_law (A0 m c) (A1 m c) (A2 m c) (A3 m c) (A4 m c) (A5 m c) (A6 m c) h0 h1 h2 h3 h4 h5 h6 b s d

/-- The kernel's result array is the reference's result term of the same arguments. -/
theorem result_eq (hpre : Cert.Pre_KernelIdeal (hPre_finite_inputs := Cert.Pre_finite_inputs.Gen.facts) m) (c : Dev nD) :
    ((flashDat (F := Ideal) (atFlash m) c).arrAt 3 cfg1.N : S4x4096x1024.Idx → EReal)
      = Cert.ReferenceIdeal.Read.val_main_v27 (F := Ideal) (A0 m c) (A1 m c) (A2 m c) (A3 m c) (A4 m c) (A5 m c) (A6 m c) := by
  funext i
  obtain ⟨b, s, d, rfl⟩ : ∃ (b : Fin 4) (s : Fin 4096) (d : Fin 1024), i = ix3 b s d := ⟨i 0, i 1, i 2, eq_ix3 i⟩
  exact result_entry m hpre c b s d

end Cert.Proof.Bridge

end
-- ==== Proof.lean ====
/-
  The certificate: a fused query/key/value projection followed by single-head flash attention (an online softmax over
  eight key blocks, the running maximum, running sum and accumulator kept in scratch between grid points) computes,
  on the extended reals and for finite inputs, what the plain softmax-attention reference computes.
  Both printed kernel programs run to the end without a fault and leave their arguments unchanged (the same proof
  at the word-level and at the ideal instance); the reference's run is read off its operation list; the idealization
  rewrote nothing; and the two idealized programs end with equal result arrays, entry by entry: the score scale
  2⁻⁵ folded into the queries is the reference's division by √1024, and rescaling the partial sums to each new
  running maximum leaves, after the last block, exactly the softmax-weighted sum of the values.
-/
import proofs.«100597_j51634096833128_2_alg».proof.Defs
import proofs.«100597_j51634096833128_2_alg».proof.Proof.Gen.Kernel
import proofs.«100597_j51634096833128_2_alg».proof.Proof.Gen.KernelIdeal
import proofs.«100597_j51634096833128_2_alg».proof.Proof.Gen.ReferenceIdeal
import proofs.«100597_j51634096833128_2_alg».proof.Proof.Gen.ReferenceIdeal.Run
import proofs.«100597_j51634096833128_2_alg».proof.Proof.Gen.ReferenceIdeal.Read
import proofs.«100597_j51634096833128_2_alg».proof.Proof.Gen.Pre_finite_inputs
import proofs.«100597_j51634096833128_2_alg».proof.Proof.K.Run
import proofs.«100597_j51634096833128_2_alg».proof.Proof.KI.Run
import proofs.«100597_j51634096833128_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's run ends with its result array at the attention kernel's write-backs, the reference's at its
    operations' term of arguments that agree; the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.flashDat (F := Ideal) (Cert.KernelIdeal.Hand.atFlash m) c).arrAt 3 Cert.KernelIdeal.cfg1.N,
    Cert.KernelIdeal.Hand.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  exact (Cert.Proof.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
